-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v204)) (v1 : (c : Dev Cert.KernelIdeal.nD) → Buf (Elt Ideal) ((c.tc : Thread Cert.KernelIdeal.nD Cert.KernelIdeal.τ).loc Cert.KernelIdeal.main_v203)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v204) = v0 c
          ∧ r.2.mem ((c.tc : Thread Cert.KernelIdeal.nD Cert.KernelIdeal.τ).loc Cert.KernelIdeal.main_v203) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v270) = v0 c
          ∧ r.2.mem ((c.tc : Thread Cert.ReferenceIdeal.nD Cert.ReferenceIdeal.τ).loc Cert.ReferenceIdeal.main_v303) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S300000 : Shape := ⟨1, ![300000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part5 {F : FTy → Type} [FloatOps F] (main_arg24 : FVec F S256x128 .f32) (main_arg25 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S256x128 .f32 := Host.absf main_arg24
  let main_cst_34 : FVec F S_ .f32 := constant S_ .f32 0x7F800000#32
  let main_v90 : FVec F S256x128 .f32 := broadcastInDim S256x128 ![] bcast_S_S256x128 main_cst_34
  let main_v91 : IVec S256x128 1 := cmpf .olt main_v89 main_v90
  let main_c_35 : IVec S_ 1 := constantI S_ 1 1#1
  let main_v92 : IVec S_ 1 := (fun x v => Host.reduce IntOp.andi x v reducesTo_S256x128_S_d0_1 h_S_) main_v91 main_c_35
  let main_v93 : IVec S_ 1 := andi main_v88 main_v92
  let main_v94 : FVec F S128 .f32 := Host.absf main_arg25
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  main_v98

def fn_part4 {F : FTy → Type} [FloatOps F] (main_arg20 : FVec F S256x128 .f32) (main_arg21 : FVec F S128 .f32) (main_arg22 : FVec F S256x128 .f32) (main_arg23 : FVec F S128 .f32) (main_arg24 : FVec F S256x128 .f32) (main_arg25 : FVec F S128 .f32) (main_v63 : IVec S_ 1) (main_v67 : IVec S_ 1) : IVec S_ 1 :=
  let main_v68 : IVec S_ 1 := andi main_v63 main_v67
  let main_v69 : FVec F S256x128 .f32 := Host.absf main_arg20
  let main_cst_26 : FVec F S_ .f32 := constant S_ .f32 0x7F800000#32
  let main_v70 : FVec F S256x128 .f32 := broadcastInDim S256x128 ![] bcast_S_S256x128 main_cst_26
  let main_v71 : IVec S256x128 1 := cmpf .olt main_v69 main_v70
  let main_c_27 : IVec S_ 1 := constantI S_ 1 1#1
  let main_v72 : IVec S_ 1 := (fun x v => Host.reduce IntOp.andi x v reducesTo_S256x128_S_d0_1 h_S_) main_v71 main_c_27
  let main_v73 : IVec S_ 1 := andi main_v68 main_v72
  let main_v74 : FVec F S128 .f32 := Host.absf main_arg21
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S256x128 .f32 := Host.absf main_arg22
  let main_cst_30 : FVec F S_ .f32 := constant S_ .f32 0x7F800000#32
  let main_v80 : FVec F S256x128 .f32 := broadcastInDim S256x128 ![] bcast_S_S256x128 main_cst_30
  let main_v81 : IVec S256x128 1 := cmpf .olt main_v79 main_v80
  let main_c_31 : IVec S_ 1 := constantI S_ 1 1#1
  let main_v82 : IVec S_ 1 := (fun x v => Host.reduce IntOp.andi x v reducesTo_S256x128_S_d0_1 h_S_) main_v81 main_c_31
  let main_v83 : IVec S_ 1 := andi main_v78 main_v82
  let main_v84 : FVec F S128 .f32 := Host.absf main_arg23
  let main_cst_32 : FVec F S_ .f32 := constant S_ .f32 0x7F800000#32
  fn_part5 (F := F) main_arg24 main_arg25 main_v83 main_v84 main_cst_32

def fn_part3 {F : FTy → Type} [FloatOps F] (main_arg17 : FVec F S256 .f32) (main_arg18 : FVec F S256x256 .f32) (main_arg19 : FVec F S256 .f32) (main_arg20 : FVec F S256x128 .f32) (main_arg21 : FVec F S128 .f32) (main_arg22 : FVec F S256x128 .f32) (main_arg23 : FVec F S128 .f32) (main_arg24 : FVec F S256x128 .f32) (main_arg25 : FVec F S128 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg17
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg18
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg19
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg20 main_arg21 main_arg22 main_arg23 main_arg24 main_arg25 main_v63 main_v67

def fn_part2 {F : FTy → Type} [FloatOps F] (main_arg13 : FVec F S256 .f32) (main_arg14 : FVec F S256x256 .f32) (main_arg15 : FVec F S256 .f32) (main_arg16 : FVec F S256x256 .f32) (main_arg17 : FVec F S256 .f32) (main_arg18 : FVec F S256x256 .f32) (main_arg19 : FVec F S256 .f32) (main_arg20 : FVec F S256x128 .f32) (main_arg21 : FVec F S128 .f32) (main_arg22 : FVec F S256x128 .f32) (main_arg23 : FVec F S128 .f32) (main_arg24 : FVec F S256x128 .f32) (main_arg25 : FVec F S128 .f32) (main_v33 : IVec S_ 1) : IVec S_ 1 :=
  let main_v34 : FVec F S256 .f32 := Host.absf main_arg13
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg14
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg15
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg16
  let main_cst_18 : FVec F S_ .f32 := constant S_ .f32 0x7F800000#32
  let main_v50 : FVec F S256x256 .f32 := broadcastInDim S256x256 ![] bcast_S_S256x256 main_cst_18
  fn_part3 (F := F) main_arg17 main_arg18 main_arg19 main_arg20 main_arg21 main_arg22 main_arg23 main_arg24 main_arg25 main_v48 main_v49 main_v50

def fn_part1 {F : FTy → Type} [FloatOps F] (main_arg10 : FVec F S256x256 .f32) (main_arg11 : FVec F S256 .f32) (main_arg12 : FVec F S256x256 .f32) (main_arg13 : FVec F S256 .f32) (main_arg14 : FVec F S256x256 .f32) (main_arg15 : FVec F S256 .f32) (main_arg16 : FVec F S256x256 .f32) (main_arg17 : FVec F S256 .f32) (main_arg18 : FVec F S256x256 .f32) (main_arg19 : FVec F S256 .f32) (main_arg20 : FVec F S256x128 .f32) (main_arg21 : FVec F S128 .f32) (main_arg22 : FVec F S256x128 .f32) (main_arg23 : FVec F S128 .f32) (main_arg24 : FVec F S256x128 .f32) (main_arg25 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg10
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg11
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg12
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg13 main_arg14 main_arg15 main_arg16 main_arg17 main_arg18 main_arg19 main_arg20 main_arg21 main_arg22 main_arg23 main_arg24 main_arg25 main_v33

def fn {F : FTy → Type} [FloatOps F] (main_arg0 : FVec F S50000x256 .f32) (main_arg1 : FVec F S50000x256 .f32) (main_arg2 : IVec S300000 32) (main_arg3 : IVec S300000 32) (main_arg4 : IVec S300000 32) (main_arg5 : IVec S300000 32) (main_arg6 : IVec S300000 32) (main_arg7 : IVec S300000 32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_arg14 : FVec F S256x256 .f32) (main_arg15 : FVec F S256 .f32) (main_arg16 : FVec F S256x256 .f32) (main_arg17 : FVec F S256 .f32) (main_arg18 : FVec F S256x256 .f32) (main_arg19 : FVec F S256 .f32) (main_arg20 : FVec F S256x128 .f32) (main_arg21 : FVec F S128 .f32) (main_arg22 : FVec F S256x128 .f32) (main_arg23 : FVec F S128 .f32) (main_arg24 : FVec F S256x128 .f32) (main_arg25 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S50000x256 .f32 := Host.absf main_arg1
  let main_cst_0 : FVec F S_ .f32 := constant S_ .f32 0x7F800000#32
  let main_v5 : FVec F S50000x256 .f32 := broadcastInDim S50000x256 ![] bcast_S_S50000x256 main_cst_0
  let main_v6 : IVec S50000x256 1 := cmpf .olt main_v4 main_v5
  let main_c_1 : IVec S_ 1 := constantI S_ 1 1#1
  let main_v7 : IVec S_ 1 := (fun x v => Host.reduce IntOp.andi x v reducesTo_S50000x256_S_d0_1 h_S_) main_v6 main_c_1
  let main_v8 : IVec S_ 1 := andi main_v3 main_v7
  let main_v9 : FVec F S256x256 .f32 := Host.absf main_arg8
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg9
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S50000x256 : Shape := ⟨2, ![50000, 256]⟩
abbrev S300000 : Shape := ⟨1, ![300000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩
abbrev S50000 : Shape := ⟨1, ![50000]⟩
abbrev S300000x1 : Shape := ⟨2, ![300000, 1]⟩
abbrev S50000x1 : Shape := ⟨2, ![50000, 1]⟩
abbrev S5000x256 : Shape := ⟨2, ![5000, 256]⟩
abbrev S5000x1 : Shape := ⟨2, ![5000, 1]⟩
abbrev S300000x256 : Shape := ⟨2, ![300000, 256]⟩
abbrev S1x256 : Shape := ⟨2, ![1, 256]⟩
abbrev S2000x256 : Shape := ⟨2, ![2000, 256]⟩
abbrev S2000x1 : Shape := ⟨2, ![2000, 1]⟩
abbrev S50000x128 : Shape := ⟨2, ![50000, 128]⟩
abbrev S5000x128 : Shape := ⟨2, ![5000, 128]⟩
abbrev S300000x128 : Shape := ⟨2, ![300000, 128]⟩
abbrev S1x128 : Shape := ⟨2, ![1, 128]⟩
abbrev S2000x128 : Shape := ⟨2, ![2000, 128]⟩

abbrev nBuf : Space → Nat
  | .hbm => 284
  | .vmem => 57
  | .smem => 0
  | _ => 0

abbrev hbmTy0_0 (i : Nat) : BufTy := match i % 128 with
  | 0 => ⟨S50000x256, .f32⟩
  | 1 => ⟨S50000x256, .f32⟩
  | 2 => ⟨S300000, .i32⟩
  | 3 => ⟨S300000, .i32⟩
  | 4 => ⟨S300000, .i32⟩
  | 5 => ⟨S300000, .i32⟩
  | 6 => ⟨S300000, .i32⟩
  | 7 => ⟨S300000, .i32⟩
  | 8 => ⟨S256x256, .f32⟩
  | 9 => ⟨S256, .f32⟩
  | 10 => ⟨S256x256, .f32⟩
  | 11 => ⟨S256, .f32⟩
  | 12 => ⟨S256x256, .f32⟩
  | 13 => ⟨S256, .f32⟩
  | 14 => ⟨S256x256, .f32⟩
  | 15 => ⟨S256, .f32⟩
  | 16 => ⟨S256x256, .f32⟩
  | 17 => ⟨S256, .f32⟩
  | 18 => ⟨S256x256, .f32⟩
  | 19 => ⟨S256, .f32⟩
  | 20 => ⟨S256x128, .f32⟩
  | 21 => ⟨S128, .f32⟩
  | 22 => ⟨S256x128, .f32⟩
  | 23 => ⟨S128, .f32⟩
  | 24 => ⟨S256x128, .f32⟩
  | 25 => ⟨S128, .f32⟩
  | 26 => ⟨S_, .f32⟩
  | 27 => ⟨S300000, .f32⟩
  | 28 => ⟨S_, .f32⟩
  | 29 => ⟨S50000, .f32⟩
  | 30 => ⟨S300000x1, .i32⟩
  | 31 => ⟨S50000, .f32⟩
  | 32 => ⟨S_, .f32⟩
  | 33 => ⟨S50000, .f32⟩
  | 34 => ⟨S300000x1, .i32⟩
  | 35 => ⟨S50000, .f32⟩
  | 36 => ⟨S_, .f32⟩
  | 37 => ⟨S50000, .f32⟩
  | 38 => ⟨S50000, .f32⟩
  | 39 => ⟨S50000, .f32⟩
  | 40 => ⟨S_, .f32⟩
  | 41 => ⟨S50000, .f32⟩
  | 42 => ⟨S50000, .f32⟩
  | 43 => ⟨S50000, .f32⟩
  | 44 => ⟨S_, .f32⟩
  | 45 => ⟨S300000, .f32⟩
  | 46 => ⟨S_, .f32⟩
  | 47 => ⟨S50000, .f32⟩
  | 48 => ⟨S300000x1, .i32⟩
  | 49 => ⟨S50000, .f32⟩
  | 50 => ⟨S_, .f32⟩
  | 51 => ⟨S50000, .f32⟩
  | 52 => ⟨S300000x1, .i32⟩
  | 53 => ⟨S50000, .f32⟩
  | 54 => ⟨S_, .f32⟩
  | 55 => ⟨S50000, .f32⟩
  | 56 => ⟨S50000, .f32⟩
  | 57 => ⟨S50000, .f32⟩
  | 58 => ⟨S_, .f32⟩
  | 59 => ⟨S50000, .f32⟩
  | 60 => ⟨S50000, .f32⟩
  | 61 => ⟨S50000, .f32⟩
  | 62 => ⟨S_, .f32⟩
  | 63 => ⟨S300000, .f32⟩
  | 64 => ⟨S_, .f32⟩
  | 65 => ⟨S50000, .f32⟩
  | 66 => ⟨S300000x1, .i32⟩
  | 67 => ⟨S50000, .f32⟩
  | 68 => ⟨S_, .f32⟩
  | 69 => ⟨S50000, .f32⟩
  | 70 => ⟨S300000x1, .i32⟩
  | 71 => ⟨S50000, .f32⟩
  | 72 => ⟨S_, .f32⟩
  | 73 => ⟨S50000, .f32⟩
  | 74 => ⟨S50000, .f32⟩
  | 75 => ⟨S50000, .f32⟩
  | 76 => ⟨S_, .f32⟩
  | 77 => ⟨S50000, .f32⟩
  | 78 => ⟨S50000, .f32⟩
  | 79 => ⟨S50000, .f32⟩
  | 80 => ⟨S50000x1, .f32⟩
  | 81 => ⟨S50000x256, .f32⟩
  | 82 => ⟨S_, .i32⟩
  | 83 => ⟨S300000, .i32⟩
  | 84 => ⟨S300000, .i1⟩
  | 85 => ⟨S_, .i32⟩
  | 86 => ⟨S300000, .i32⟩
  | 87 => ⟨S300000, .i32⟩
  | 88 => ⟨S300000, .i32⟩
  | 89 => ⟨S300000x1, .i32⟩
  | 90 => ⟨S300000x256, .f32⟩
  | 91 => ⟨S_, .f32⟩
  | 92 => ⟨S50000x256, .f32⟩
  | 93 => ⟨S300000x1, .i32⟩
  | 94 => ⟨S50000x256, .f32⟩
  | 95 => ⟨S50000x1, .f32⟩
  | 96 => ⟨S50000x256, .f32⟩
  | 97 => ⟨S50000x256, .f32⟩
  | 98 => ⟨S1x256, .f32⟩
  | 99 => ⟨S50000x256, .f32⟩
  | 100 => ⟨S50000x256, .f32⟩
  | 101 => ⟨S50000x1, .f32⟩
  | 102 => ⟨S50000x1, .f32⟩
  | 103 => ⟨S50000x256, .f32⟩
  | 104 => ⟨S50000x256, .f32⟩
  | 105 => ⟨S_, .i32⟩
  | 106 => ⟨S300000, .i32⟩
  | 107 => ⟨S300000, .i1⟩
  | 108 => ⟨S_, .i32⟩
  | 109 => ⟨S300000, .i32⟩
  | 110 => ⟨S300000, .i32⟩
  | 111 => ⟨S300000, .i32⟩
  | 112 => ⟨S300000x1, .i32⟩
  | 113 => ⟨S300000x256, .f32⟩
  | 114 => ⟨S_, .f32⟩
  | 115 => ⟨S50000x256, .f32⟩
  | 116 => ⟨S300000x1, .i32⟩
  | 117 => ⟨S50000x256, .f32⟩
  | 118 => ⟨S50000x1, .f32⟩
  | 119 => ⟨S50000x256, .f32⟩
  | 120 => ⟨S50000x256, .f32⟩
  | 121 => ⟨S1x256, .f32⟩
  | 122 => ⟨S50000x256, .f32⟩
  | 123 => ⟨S50000x256, .f32⟩
  | 124 => ⟨S_, .i32⟩
  | 125 => ⟨S300000, .i32⟩
  | 126 => ⟨S300000, .i1⟩
  | 127 => ⟨S_, .i32⟩
  | _ => ⟨S50000x256, .f32⟩

abbrev hbmTy0_1 (i : Nat) : BufTy := match i % 128 with
  | 0 => ⟨S300000, .i32⟩
  | 1 => ⟨S300000, .i32⟩
  | 2 => ⟨S300000, .i32⟩
  | 3 => ⟨S300000x1, .i32⟩
  | 4 => ⟨S300000x256, .f32⟩
  | 5 => ⟨S_, .f32⟩
  | 6 => ⟨S50000x256, .f32⟩
  | 7 => ⟨S300000x1, .i32⟩
  | 8 => ⟨S50000x256, .f32⟩
  | 9 => ⟨S50000x1, .f32⟩
  | 10 => ⟨S50000x256, .f32⟩
  | 11 => ⟨S50000x256, .f32⟩
  | 12 => ⟨S1x256, .f32⟩
  | 13 => ⟨S50000x256, .f32⟩
  | 14 => ⟨S50000x256, .f32⟩
  | 15 => ⟨S50000x256, .f32⟩
  | 16 => ⟨S_, .f32⟩
  | 17 => ⟨S50000x256, .f32⟩
  | 18 => ⟨S50000x256, .f32⟩
  | 19 => ⟨S_, .f32⟩
  | 20 => ⟨S50000x256, .f32⟩
  | 21 => ⟨S50000x256, .f32⟩
  | 22 => ⟨S50000x1, .f32⟩
  | 23 => ⟨S50000x256, .f32⟩
  | 24 => ⟨S_, .i32⟩
  | 25 => ⟨S300000, .i32⟩
  | 26 => ⟨S300000, .i1⟩
  | 27 => ⟨S_, .i32⟩
  | 28 => ⟨S300000, .i32⟩
  | 29 => ⟨S300000, .i32⟩
  | 30 => ⟨S300000, .i32⟩
  | 31 => ⟨S300000x1, .i32⟩
  | 32 => ⟨S300000x256, .f32⟩
  | 33 => ⟨S_, .f32⟩
  | 34 => ⟨S50000x256, .f32⟩
  | 35 => ⟨S300000x1, .i32⟩
  | 36 => ⟨S50000x256, .f32⟩
  | 37 => ⟨S50000x1, .f32⟩
  | 38 => ⟨S50000x256, .f32⟩
  | 39 => ⟨S50000x256, .f32⟩
  | 40 => ⟨S1x256, .f32⟩
  | 41 => ⟨S50000x256, .f32⟩
  | 42 => ⟨S50000x256, .f32⟩
  | 43 => ⟨S50000x1, .f32⟩
  | 44 => ⟨S50000x1, .f32⟩
  | 45 => ⟨S50000x256, .f32⟩
  | 46 => ⟨S50000x256, .f32⟩
  | 47 => ⟨S_, .i32⟩
  | 48 => ⟨S300000, .i32⟩
  | 49 => ⟨S300000, .i1⟩
  | 50 => ⟨S_, .i32⟩
  | 51 => ⟨S300000, .i32⟩
  | 52 => ⟨S300000, .i32⟩
  | 53 => ⟨S300000, .i32⟩
  | 54 => ⟨S300000x1, .i32⟩
  | 55 => ⟨S300000x256, .f32⟩
  | 56 => ⟨S_, .f32⟩
  | 57 => ⟨S50000x256, .f32⟩
  | 58 => ⟨S300000x1, .i32⟩
  | 59 => ⟨S50000x256, .f32⟩
  | 60 => ⟨S50000x1, .f32⟩
  | 61 => ⟨S50000x256, .f32⟩
  | 62 => ⟨S50000x256, .f32⟩
  | 63 => ⟨S1x256, .f32⟩
  | 64 => ⟨S50000x256, .f32⟩
  | 65 => ⟨S50000x256, .f32⟩
  | 66 => ⟨S_, .i32⟩
  | 67 => ⟨S300000, .i32⟩
  | 68 => ⟨S300000, .i1⟩
  | 69 => ⟨S_, .i32⟩
  | 70 => ⟨S300000, .i32⟩
  | 71 => ⟨S300000, .i32⟩
  | 72 => ⟨S300000, .i32⟩
  | 73 => ⟨S300000x1, .i32⟩
  | 74 => ⟨S300000x256, .f32⟩
  | 75 => ⟨S_, .f32⟩
  | 76 => ⟨S50000x256, .f32⟩
  | 77 => ⟨S300000x1, .i32⟩
  | 78 => ⟨S50000x256, .f32⟩
  | 79 => ⟨S50000x1, .f32⟩
  | 80 => ⟨S50000x256, .f32⟩
  | 81 => ⟨S50000x256, .f32⟩
  | 82 => ⟨S1x256, .f32⟩
  | 83 => ⟨S50000x256, .f32⟩
  | 84 => ⟨S50000x256, .f32⟩
  | 85 => ⟨S50000x256, .f32⟩
  | 86 => ⟨S_, .f32⟩
  | 87 => ⟨S50000x256, .f32⟩
  | 88 => ⟨S50000x256, .f32⟩
  | 89 => ⟨S_, .f32⟩
  | 90 => ⟨S50000x256, .f32⟩
  | 91 => ⟨S50000x256, .f32⟩
  | 92 => ⟨S50000x1, .f32⟩
  | 93 => ⟨S50000x128, .f32⟩
  | 94 => ⟨S_, .i32⟩
  | 95 => ⟨S300000, .i32⟩
  | 96 => ⟨S300000, .i1⟩
  | 97 => ⟨S_, .i32⟩
  | 98 => ⟨S300000, .i32⟩
  | 99 => ⟨S300000, .i32⟩
  | 100 => ⟨S300000, .i32⟩
  | 101 => ⟨S300000x1, .i32⟩
  | 102 => ⟨S300000x128, .f32⟩
  | 103 => ⟨S_, .f32⟩
  | 104 => ⟨S50000x128, .f32⟩
  | 105 => ⟨S300000x1, .i32⟩
  | 106 => ⟨S50000x128, .f32⟩
  | 107 => ⟨S50000x1, .f32⟩
  | 108 => ⟨S50000x128, .f32⟩
  | 109 => ⟨S50000x128, .f32⟩
  | 110 => ⟨S1x128, .f32⟩
  | 111 => ⟨S50000x128, .f32⟩
  | 112 => ⟨S50000x128, .f32⟩
  | 113 => ⟨S50000x1, .f32⟩
  | 114 => ⟨S50000x1, .f32⟩
  | 115 => ⟨S50000x128, .f32⟩
  | 116 => ⟨S50000x128, .f32⟩
  | 117 => ⟨S_, .i32⟩
  | 118 => ⟨S300000, .i32⟩
  | 119 => ⟨S300000, .i1⟩
  | 120 => ⟨S_, .i32⟩
  | 121 => ⟨S300000, .i32⟩
  | 122 => ⟨S300000, .i32⟩
  | 123 => ⟨S300000, .i32⟩
  | 124 => ⟨S300000x1, .i32⟩
  | 125 => ⟨S300000x128, .f32⟩
  | 126 => ⟨S_, .f32⟩
  | 127 => ⟨S50000x128, .f32⟩
  | _ => ⟨S50000x256, .f32⟩

abbrev hbmTy0_2 (i : Nat) : BufTy := match i % 128 with
  | 0 => ⟨S300000x1, .i32⟩
  | 1 => ⟨S50000x128, .f32⟩
  | 2 => ⟨S50000x1, .f32⟩
  | 3 => ⟨S50000x128, .f32⟩
  | 4 => ⟨S50000x128, .f32⟩
  | 5 => ⟨S1x128, .f32⟩
  | 6 => ⟨S50000x128, .f32⟩
  | 7 => ⟨S50000x128, .f32⟩
  | 8 => ⟨S_, .i32⟩
  | 9 => ⟨S300000, .i32⟩
  | 10 => ⟨S300000, .i1⟩
  | 11 => ⟨S_, .i32⟩
  | 12 => ⟨S300000, .i32⟩
  | 13 => ⟨S300000, .i32⟩
  | 14 => ⟨S300000, .i32⟩
  | 15 => ⟨S300000x1, .i32⟩
  | 16 => ⟨S300000x128, .f32⟩
  | 17 => ⟨S_, .f32⟩
  | 18 => ⟨S50000x128, .f32⟩
  | 19 => ⟨S300000x1, .i32⟩
  | 20 => ⟨S50000x128, .f32⟩
  | 21 => ⟨S50000x1, .f32⟩
  | 22 => ⟨S50000x128, .f32⟩
  | 23 => ⟨S50000x128, .f32⟩
  | 24 => ⟨S1x128, .f32⟩
  | 25 => ⟨S50000x128, .f32⟩
  | 26 => ⟨S50000x128, .f32⟩
  | 27 => ⟨S50000x128, .f32⟩
  | _ => ⟨S50000x256, .f32⟩

abbrev hbmTy (i : Nat) : BufTy := match i / 128 with
  | 0 => hbmTy0_0 i
  | 1 => hbmTy0_1 i
  | 2 => hbmTy0_2 i
  | _ => ⟨S50000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S5000x1, .f32⟩
  | .local _ .vmem, ⟨3, _⟩ => ⟨S5000x1, .f32⟩
  | .local _ .vmem, ⟨4, _⟩ => ⟨S256x256, .f32⟩
  | .local _ .vmem, ⟨5, _⟩ => ⟨S5000x256, .f32⟩
  | .local _ .vmem, ⟨6, _⟩ => ⟨S5000x256, .f32⟩
  | .local _ .vmem, ⟨7, _⟩ => ⟨S2000x256, .f32⟩
  | .local _ .vmem, ⟨8, _⟩ => ⟨S2000x256, .f32⟩
  | .local _ .vmem, ⟨9, _⟩ => ⟨S2000x1, .f32⟩
  | .local _ .vmem, ⟨10, _⟩ => ⟨S2000x1, .f32⟩
  | .local _ .vmem, ⟨11, _⟩ => ⟨S2000x1, .f32⟩
  | .local _ .vmem, ⟨12, _⟩ => ⟨S2000x1, .f32⟩
  | .local _ .vmem, ⟨13, _⟩ => ⟨S256x256, .f32⟩
  | .local _ .vmem, ⟨14, _⟩ => ⟨S256x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S5000x256, .f32⟩
  | .local _ .vmem, ⟨20, _⟩ => ⟨S5000x256, .f32⟩
  | .local _ .vmem, ⟨21, _⟩ => ⟨S5000x1, .f32⟩
  | .local _ .vmem, ⟨22, _⟩ => ⟨S5000x1, .f32⟩
  | .local _ .vmem, ⟨23, _⟩ => ⟨S256x256, .f32⟩
  | .local _ .vmem, ⟨24, _⟩ => ⟨S5000x256, .f32⟩
  | .local _ .vmem, ⟨25, _⟩ => ⟨S5000x256, .f32⟩
  | .local _ .vmem, ⟨26, _⟩ => ⟨S2000x256, .f32⟩
  | .local _ .vmem, ⟨27, _⟩ => ⟨S2000x256, .f32⟩
  | .local _ .vmem, ⟨28, _⟩ => ⟨S2000x1, .f32⟩
  | .local _ .vmem, ⟨29, _⟩ => ⟨S2000x1, .f32⟩
  | .local _ .vmem, ⟨30, _⟩ => ⟨S2000x1, .f32⟩
  | .local _ .vmem, ⟨31, _⟩ => ⟨S2000x1, .f32⟩
  | .local _ .vmem, ⟨32, _⟩ => ⟨S256x256, .f32⟩
  | .local _ .vmem, ⟨33, _⟩ => ⟨S256x256, .f32⟩
  | .local _ .vmem, ⟨34, _⟩ => ⟨S2000x256, .f32⟩
  | .local _ .vmem, ⟨35, _⟩ => ⟨S2000x256, .f32⟩
  | .local _ .vmem, ⟨36, _⟩ => ⟨S2000x256, .f32⟩
  | .local _ .vmem, ⟨37, _⟩ => ⟨S2000x256, .f32⟩
  | .local _ .vmem, ⟨38, _⟩ => ⟨S5000x256, .f32⟩
  | .local _ .vmem, ⟨39, _⟩ => ⟨S5000x256, .f32⟩
  | .local _ .vmem, ⟨40, _⟩ => ⟨S5000x1, .f32⟩
  | .local _ .vmem, ⟨41, _⟩ => ⟨S5000x1, .f32⟩
  | .local _ .vmem, ⟨42, _⟩ => ⟨S256x128, .f32⟩
  | .local _ .vmem, ⟨43, _⟩ => ⟨S5000x128, .f32⟩
  | .local _ .vmem, ⟨44, _⟩ => ⟨S5000x128, .f32⟩
  | .local _ .vmem, ⟨45, _⟩ => ⟨S2000x256, .f32⟩
  | .local _ .vmem, ⟨46, _⟩ => ⟨S2000x256, .f32⟩
  | .local _ .vmem, ⟨47, _⟩ => ⟨S2000x1, .f32⟩
  | .local _ .vmem, ⟨48, _⟩ => ⟨S2000x1, .f32⟩
  | .local _ .vmem, ⟨49, _⟩ => ⟨S2000x1, .f32⟩
  | .local _ .vmem, ⟨50, _⟩ => ⟨S2000x1, .f32⟩
  | .local _ .vmem, ⟨51, _⟩ => ⟨S256x128, .f32⟩
  | .local _ .vmem, ⟨52, _⟩ => ⟨S256x128, .f32⟩
  | .local _ .vmem, ⟨53, _⟩ => ⟨S2000x128, .f32⟩
  | .local _ .vmem, ⟨54, _⟩ => ⟨S2000x128, .f32⟩
  | .local _ .vmem, ⟨55, _⟩ => ⟨S2000x128, .f32⟩
  | .local _ .vmem, ⟨56, _⟩ => ⟨S2000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_cst : Ref sig .tc := ⟨.hbm, 26, rfl⟩
abbrev main_v0 : Ref sig .tc := ⟨.hbm, 27, rfl⟩
abbrev main_cst_0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_cst_1 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst_2 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_cst_3 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_cst_4 : Ref sig .tc := ⟨.hbm, 44, rfl⟩
abbrev main_v13 : Ref sig .tc := ⟨.hbm, 45, rfl⟩
abbrev main_cst_5 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_cst_6 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_cst_7 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_cst_8 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_cst_9 : Ref sig .tc := ⟨.hbm, 62, rfl⟩
abbrev main_v26 : Ref sig .tc := ⟨.hbm, 63, rfl⟩
abbrev main_cst_10 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_cst_11 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_cst_12 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_cst_13 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_c : Ref sig .tc := ⟨.hbm, 82, rfl⟩
abbrev main_v41 : Ref sig .tc := ⟨.hbm, 83, rfl⟩
abbrev main_v42 : Ref sig .tc := ⟨.hbm, 84, rfl⟩
abbrev main_c_14 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_cst_15 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59_0 : Ref sig .tc := ⟨.hbm, 103, rfl⟩
abbrev main_v59_1 : Ref sig .tc := ⟨.hbm, 104, rfl⟩
abbrev main_c_16 : Ref sig .tc := ⟨.hbm, 105, rfl⟩
abbrev main_v60 : Ref sig .tc := ⟨.hbm, 106, rfl⟩
abbrev main_v61 : Ref sig .tc := ⟨.hbm, 107, rfl⟩
abbrev main_c_17 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_cst_18 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_c_19 : Ref sig .tc := ⟨.hbm, 124, rfl⟩
abbrev main_v76 : Ref sig .tc := ⟨.hbm, 125, rfl⟩
abbrev main_v77 : Ref sig .tc := ⟨.hbm, 126, rfl⟩
abbrev main_c_20 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_cst_21 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_call0_cst : Ref sig .tc := ⟨.hbm, 144, rfl⟩
abbrev main_call0_v0 : Ref sig .tc := ⟨.hbm, 145, rfl⟩
abbrev main_v93 : Ref sig .tc := ⟨.hbm, 146, rfl⟩
abbrev main_call1_cst : Ref sig .tc := ⟨.hbm, 147, rfl⟩
abbrev main_call1_v0 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_c_22 : Ref sig .tc := ⟨.hbm, 152, rfl⟩
abbrev main_v97 : Ref sig .tc := ⟨.hbm, 153, rfl⟩
abbrev main_v98 : Ref sig .tc := ⟨.hbm, 154, rfl⟩
abbrev main_c_23 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_cst_24 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115_0 : Ref sig .tc := ⟨.hbm, 173, rfl⟩
abbrev main_v115_1 : Ref sig .tc := ⟨.hbm, 174, rfl⟩
abbrev main_c_25 : Ref sig .tc := ⟨.hbm, 175, rfl⟩
abbrev main_v116 : Ref sig .tc := ⟨.hbm, 176, rfl⟩
abbrev main_v117 : Ref sig .tc := ⟨.hbm, 177, rfl⟩
abbrev main_c_26 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_cst_27 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_c_28 : Ref sig .tc := ⟨.hbm, 194, rfl⟩
abbrev main_v132 : Ref sig .tc := ⟨.hbm, 195, rfl⟩
abbrev main_v133 : Ref sig .tc := ⟨.hbm, 196, rfl⟩
abbrev main_c_29 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_cst_30 : Ref sig .tc := ⟨.hbm, 203, rfl⟩
abbrev main_v139 : Ref sig .tc := ⟨.hbm, 204, rfl⟩
abbrev main_v140 : Ref sig .tc := ⟨.hbm, 205, rfl⟩
abbrev main_v141 : Ref sig .tc := ⟨.hbm, 206, rfl⟩
abbrev main_v142 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_v146 : Ref sig .tc := ⟨.hbm, 211, rfl⟩
abbrev main_v147 : Ref sig .tc := ⟨.hbm, 212, rfl⟩
abbrev main_v148 : Ref sig .tc := ⟨.hbm, 213, rfl⟩
abbrev main_call2_cst : Ref sig .tc := ⟨.hbm, 214, rfl⟩
abbrev main_call2_v0 : Ref sig .tc := ⟨.hbm, 215, rfl⟩
abbrev main_v149 : Ref sig .tc := ⟨.hbm, 216, rfl⟩
abbrev main_call3_cst : Ref sig .tc := ⟨.hbm, 217, rfl⟩
abbrev main_call3_v0 : Ref sig .tc := ⟨.hbm, 218, rfl⟩
abbrev main_v150 : Ref sig .tc := ⟨.hbm, 219, rfl⟩
abbrev main_v151 : Ref sig .tc := ⟨.hbm, 220, rfl⟩
abbrev main_v152 : Ref sig .tc := ⟨.hbm, 221, rfl⟩
abbrev main_c_31 : Ref sig .tc := ⟨.hbm, 222, rfl⟩
abbrev main_v153 : Ref sig .tc := ⟨.hbm, 223, rfl⟩
abbrev main_v154 : Ref sig .tc := ⟨.hbm, 224, rfl⟩
abbrev main_c_32 : Ref sig .tc := ⟨.hbm, 225, rfl⟩
abbrev main_v155 : Ref sig .tc := ⟨.hbm, 226, rfl⟩
abbrev main_v156 : Ref sig .tc := ⟨.hbm, 227, rfl⟩
abbrev main_v157 : Ref sig .tc := ⟨.hbm, 228, rfl⟩
abbrev main_v158 : Ref sig .tc := ⟨.hbm, 229, rfl⟩
abbrev main_v159 : Ref sig .tc := ⟨.hbm, 230, rfl⟩
abbrev main_cst_33 : Ref sig .tc := ⟨.hbm, 231, rfl⟩
abbrev main_v160 : Ref sig .tc := ⟨.hbm, 232, rfl⟩
abbrev main_v161 : Ref sig .tc := ⟨.hbm, 233, rfl⟩
abbrev main_v162 : Ref sig .tc := ⟨.hbm, 234, rfl⟩
abbrev main_v163 : Ref sig .tc := ⟨.hbm, 235, rfl⟩
abbrev main_v164 : Ref sig .tc := ⟨.hbm, 236, rfl⟩
abbrev main_v165 : Ref sig .tc := ⟨.hbm, 237, rfl⟩
abbrev main_v166 : Ref sig .tc := ⟨.hbm, 238, rfl⟩
abbrev main_v167 : Ref sig .tc := ⟨.hbm, 239, rfl⟩
abbrev main_v168 : Ref sig .tc := ⟨.hbm, 240, rfl⟩
abbrev main_v169 : Ref sig .tc := ⟨.hbm, 241, rfl⟩
abbrev main_v170 : Ref sig .tc := ⟨.hbm, 242, rfl⟩
abbrev main_v171_0 : Ref sig .tc := ⟨.hbm, 243, rfl⟩
abbrev main_v171_1 : Ref sig .tc := ⟨.hbm, 244, rfl⟩
abbrev main_c_34 : Ref sig .tc := ⟨.hbm, 245, rfl⟩
abbrev main_v172 : Ref sig .tc := ⟨.hbm, 246, rfl⟩
abbrev main_v173 : Ref sig .tc := ⟨.hbm, 247, rfl⟩
abbrev main_c_35 : Ref sig .tc := ⟨.hbm, 248, rfl⟩
abbrev main_v174 : Ref sig .tc := ⟨.hbm, 249, rfl⟩
abbrev main_v175 : Ref sig .tc := ⟨.hbm, 250, rfl⟩
abbrev main_v176 : Ref sig .tc := ⟨.hbm, 251, rfl⟩
abbrev main_v177 : Ref sig .tc := ⟨.hbm, 252, rfl⟩
abbrev main_v178 : Ref sig .tc := ⟨.hbm, 253, rfl⟩
abbrev main_cst_36 : Ref sig .tc := ⟨.hbm, 254, rfl⟩
abbrev main_v179 : Ref sig .tc := ⟨.hbm, 255, rfl⟩
abbrev main_v180 : Ref sig .tc := ⟨.hbm, 256, rfl⟩
abbrev main_v181 : Ref sig .tc := ⟨.hbm, 257, rfl⟩
abbrev main_v182 : Ref sig .tc := ⟨.hbm, 258, rfl⟩
abbrev main_v183 : Ref sig .tc := ⟨.hbm, 259, rfl⟩
abbrev main_v184 : Ref sig .tc := ⟨.hbm, 260, rfl⟩
abbrev main_v185 : Ref sig .tc := ⟨.hbm, 261, rfl⟩
abbrev main_v186 : Ref sig .tc := ⟨.hbm, 262, rfl⟩
abbrev main_v187 : Ref sig .tc := ⟨.hbm, 263, rfl⟩
abbrev main_c_37 : Ref sig .tc := ⟨.hbm, 264, rfl⟩
abbrev main_v188 : Ref sig .tc := ⟨.hbm, 265, rfl⟩
abbrev main_v189 : Ref sig .tc := ⟨.hbm, 266, rfl⟩
abbrev main_c_38 : Ref sig .tc := ⟨.hbm, 267, rfl⟩
abbrev main_v190 : Ref sig .tc := ⟨.hbm, 268, rfl⟩
abbrev main_v191 : Ref sig .tc := ⟨.hbm, 269, rfl⟩
abbrev main_v192 : Ref sig .tc := ⟨.hbm, 270, rfl⟩
abbrev main_v193 : Ref sig .tc := ⟨.hbm, 271, rfl⟩
abbrev main_v194 : Ref sig .tc := ⟨.hbm, 272, rfl⟩
abbrev main_cst_39 : Ref sig .tc := ⟨.hbm, 273, rfl⟩
abbrev main_v195 : Ref sig .tc := ⟨.hbm, 274, rfl⟩
abbrev main_v196 : Ref sig .tc := ⟨.hbm, 275, rfl⟩
abbrev main_v197 : Ref sig .tc := ⟨.hbm, 276, rfl⟩
abbrev main_v198 : Ref sig .tc := ⟨.hbm, 277, rfl⟩
abbrev main_v199 : Ref sig .tc := ⟨.hbm, 278, rfl⟩
abbrev main_v200 : Ref sig .tc := ⟨.hbm, 279, rfl⟩
abbrev main_v201 : Ref sig .tc := ⟨.hbm, 280, rfl⟩
abbrev main_v202 : Ref sig .tc := ⟨.hbm, 281, rfl⟩
abbrev main_v203 : Ref sig .tc := ⟨.hbm, 282, rfl⟩
abbrev main_v204 : Ref sig .tc := ⟨.hbm, 283, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc3_stg6_0 : Ref sig .tc := ⟨.vmem, 36, rfl⟩
abbrev cc3_stg6_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg3_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg2_1 : Ref sig .tc := ⟨.vmem, 50, rfl⟩
abbrev cc5_stg3_0 : Ref sig .tc := ⟨.vmem, 51, rfl⟩
abbrev cc5_stg4_0 : Ref sig .tc := ⟨.vmem, 52, rfl⟩
abbrev cc5_stg5_0 : Ref sig .tc := ⟨.vmem, 53, rfl⟩
abbrev cc5_stg5_1 : Ref sig .tc := ⟨.vmem, 54, rfl⟩
abbrev cc5_stg6_0 : Ref sig .tc := ⟨.vmem, 55, rfl⟩
abbrev cc5_stg6_1 : Ref sig .tc := ⟨.vmem, 56, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc1_sem6_0 : DmaSem sig := 17
abbrev cc1_sem6_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem3_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc3_sem3_0 : DmaSem sig := 32
abbrev cc3_sem4_0 : DmaSem sig := 33
abbrev cc3_sem5_0 : DmaSem sig := 34
abbrev cc3_sem5_1 : DmaSem sig := 35
abbrev cc3_sem6_0 : DmaSem sig := 36
abbrev cc3_sem6_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem3_0 : DmaSem sig := 43
abbrev cc4_sem3_1 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem2_1 : DmaSem sig := 50
abbrev cc5_sem3_0 : DmaSem sig := 51
abbrev cc5_sem4_0 : DmaSem sig := 52
abbrev cc5_sem5_0 : DmaSem sig := 53
abbrev cc5_sem5_1 : DmaSem sig := 54
abbrev cc5_sem6_0 : DmaSem sig := 55
abbrev cc5_sem6_1 : DmaSem sig := 56

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S2000x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S256x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S256x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S2000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  bcast_S_S300000 : S_.BroadcastsInDim S300000 (![] : Fin 0 → Fin S300000.rank)
  bcast_S_S50000 : S_.BroadcastsInDim S50000 (![] : Fin 0 → Fin S50000.rank)
  bcast_S300000_S300000x1_0 : S300000.BroadcastsInDim S300000x1 (![0] : Fin 1 → Fin S300000x1.rank)
  shapeCasts_S50000_S50000x1 : S50000.ShapeCasts S50000x1
  inb_S5000x256_S5000x256_0_0 : ∀ a, (![0, 0] : Fin 2 → Nat) a + S5000x256.size a ≤ S5000x256.size a
  h_S5000x256 : 0 < S5000x256.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  inb_S2000x256_S2000x256_0_0 : ∀ a, (![0, 0] : Fin 2 → Nat) a + S2000x256.size a ≤ S2000x256.size a
  h_S2000x256 : 0 < S2000x256.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  shapeCasts_S5000x256_S5000x256 : S5000x256.ShapeCasts S5000x256
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  inb_S2000x128_S2000x128_0_0 : ∀ a, (![0, 0] : Fin 2 → Nat) a + S2000x128.size a ≤ S2000x128.size a
  h_S2000x128 : 0 < S2000x128.numel
  scatter_S50000_S300000x1_S300000_n_0_0_1_wf : ScatterDims.WF S50000 S300000x1 S300000 [] [0] [0] 1
  dot_S5000x256_S256x256_S5000x256_1_0_0_1_n_n_wf : DotDims.WF S5000x256 S256x256 S5000x256 [1] [0] [0] [1] [] []
  gather_S50000x256_S300000x1_S300000x256_1_0_n_n_0_1_1256_wf : GatherDims.WF S50000x256 S300000x1 S300000x256 [1] [0] [] [0] [] 1 ![1, 256]
  scatter_S50000x256_S300000x1_S300000x256_1_0_0_1_wf : ScatterDims.WF S50000x256 S300000x1 S300000x256 [1] [0] [0] 1
  dot_S2000x256_S256x256_S2000x256_1_0_0_1_n_n_wf : DotDims.WF S2000x256 S256x256 S2000x256 [1] [0] [0] [1] [] []
  dot_S5000x256_S256x128_S5000x128_1_0_0_1_n_n_wf : DotDims.WF S5000x256 S256x128 S5000x128 [1] [0] [0] [1] [] []
  gather_S50000x128_S300000x1_S300000x128_1_0_n_n_0_1_1128_wf : GatherDims.WF S50000x128 S300000x1 S300000x128 [1] [0] [] [0] [] 1 ![1, 128]
  scatter_S50000x128_S300000x1_S300000x128_1_0_0_1_wf : ScatterDims.WF S50000x128 S300000x1 S300000x128 [1] [0] [0] 1
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S50000x256.size a
  hwx1_6 : ∀ i : grid1.Coords, EltTy.bits .f32 = 32 ∨ (Rect.block (s := S50000x256) S2000x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x256.size a ≤ S50000x256.size a
  hwx2_3 : ∀ i : grid2.Coords, EltTy.bits .f32 = 32 ∨ (Rect.block (s := S50000x256) S5000x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .f32 = 32 ∨ (Rect.block (s := S50000x1) S2000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .f32 = 32 ∨ (Rect.block (s := S256x256) S256x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x256.size a ≤ S256x256.size a
  hwx3_4 : ∀ i : grid3.Coords, EltTy.bits .f32 = 32 ∨ (Rect.block (s := S256x256) S256x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x256.size a ≤ S50000x256.size a
  hwx3_5 : ∀ i : grid3.Coords, EltTy.bits .f32 = 32 ∨ (Rect.block (s := S50000x256) S2000x256.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x256.size a ≤ S50000x256.size a
  hwx3_6 : ∀ i : grid3.Coords, EltTy.bits .f32 = 32 ∨ (Rect.block (s := S50000x256) S2000x256.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x256.size a ≤ S50000x256.size a
  hwx4_0 : ∀ i : grid4.Coords, EltTy.bits .f32 = 32 ∨ (Rect.block (s := S50000x256) S5000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S50000x1.size a
  hwx4_1 : ∀ i : grid4.Coords, EltTy.bits .f32 = 32 ∨ (Rect.block (s := S50000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x128.size a ≤ S256x128.size a
  hwx4_2 : ∀ i : grid4.Coords, EltTy.bits .f32 = 32 ∨ (Rect.block (s := S256x128) S256x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S50000x128.size a
  hwx4_3 : ∀ i : grid4.Coords, EltTy.bits .f32 = 32 ∨ (Rect.block (s := S50000x128) S5000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x1.size a ≤ S50000x1.size a
  hwx5_1 : ∀ i : grid5.Coords, EltTy.bits .f32 = 32 ∨ (Rect.block (s := S50000x1) S2000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S50000x1.size a
  hwx5_2 : ∀ i : grid5.Coords, EltTy.bits .f32 = 32 ∨ (Rect.block (s := S50000x1) S2000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256x128.size a ≤ S256x128.size a
  hwx5_3 : ∀ i : grid5.Coords, EltTy.bits .f32 = 32 ∨ (Rect.block (s := S256x128) S256x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S256x128.size a ≤ S256x128.size a
  hwx5_4 : ∀ i : grid5.Coords, EltTy.bits .f32 = 32 ∨ (Rect.block (s := S256x128) S256x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x128.size a ≤ S50000x128.size a
  hwx5_5 : ∀ i : grid5.Coords, EltTy.bits .f32 = 32 ∨ (Rect.block (s := S50000x128) S2000x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x128.size a ≤ S50000x128.size a
  hwx5_6 : ∀ i : grid5.Coords, EltTy.bits .f32 = 32 ∨ (Rect.block (s := S50000x128) S2000x128.size (cc5_transform_6 i) (hinb5_6 i)).WholeWords (EltTy.packing .f32)

variable [Facts₀]

def scatter_S50000_S300000x1_S300000_n_0_0_1 : ScatterDims S50000 S300000x1 S300000 where
  updateWindowDims := []
  insertedWindowDims := [0]
  scatterDimsToOperandDims := [0]
  indexVectorDim := 1
  wf := scatter_S50000_S300000x1_S300000_n_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def scatter_S50000x256_S300000x1_S300000x256_1_0_0_1 : ScatterDims S50000x256 S300000x1 S300000x256 where
  updateWindowDims := [1]
  insertedWindowDims := [0]
  scatterDimsToOperandDims := [0]
  indexVectorDim := 1
  wf := scatter_S50000x256_S300000x1_S300000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S300000x1_S300000x128_1_0_n_n_0_1_1128 : GatherDims S50000x128 S300000x1 S300000x128 where
  offsetDims := [1]
  collapsedSliceDims := [0]
  operandBatchingDims := []
  startIndicesBatchingDims := []
  startIndexMap := [0]
  indexVectorDim := 1
  sliceSizes := ![1, 128]
  wf := gather_S50000x128_S300000x1_S300000x128_1_0_n_n_0_1_1128_wf
def scatter_S50000x128_S300000x1_S300000x128_1_0_0_1 : ScatterDims S50000x128 S300000x1 S300000x128 where
  updateWindowDims := [1]
  insertedWindowDims := [0]
  scatterDimsToOperandDims := [0]
  indexVectorDim := 1
  wf := scatter_S50000x128_S300000x1_S300000x128_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_arg1) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v39) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg8) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v40) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v57) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v58) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg12) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v59_0) S2000x256.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v59_1) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v94) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v95) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg14) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v96) S5000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v93) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v113) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v114) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg18) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg16) S256x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v115_0) S2000x256.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v115_1) S2000x256.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v150) S5000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v151) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg20) S256x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v152) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v149) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v169) S2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v170) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_arg24) S256x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg22) S256x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v171_0) S2000x128.size cc5_transform_5 reads5_5 true false 2 stage5_5 sem5_5
    hrank5 hreads5_5 hinb5_5 nbuf5_5 (Memref.isWhole_whole _) hwx5_5 hstage5_5

abbrev win5_6 : Pipeline.Window sig grid5 :=
  Pipeline.Window.ofSpec (Memref.whole main_v171_1) S2000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S50000x256 : Shape := ⟨2, ![50000, 256]⟩
abbrev S300000 : Shape := ⟨1, ![300000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩
abbrev S50000 : Shape := ⟨1, ![50000]⟩
abbrev S300000x1 : Shape := ⟨2, ![300000, 1]⟩
abbrev S50000x1 : Shape := ⟨2, ![50000, 1]⟩
abbrev S300000x256 : Shape := ⟨2, ![300000, 256]⟩
abbrev S1x256 : Shape := ⟨2, ![1, 256]⟩
abbrev S50000x128 : Shape := ⟨2, ![50000, 128]⟩
abbrev S300000x128 : Shape := ⟨2, ![300000, 128]⟩
abbrev S1x128 : Shape := ⟨2, ![1, 128]⟩

abbrev nBuf : Space → Nat
  | .hbm => 410
  | .vmem => 0
  | .smem => 0
  | _ => 0

abbrev hbmTy0_0 (i : Nat) : BufTy := match i % 128 with
  | 0 => ⟨S50000x256, .f32⟩
  | 1 => ⟨S50000x256, .f32⟩
  | 2 => ⟨S300000, .i32⟩
  | 3 => ⟨S300000, .i32⟩
  | 4 => ⟨S300000, .i32⟩
  | 5 => ⟨S300000, .i32⟩
  | 6 => ⟨S300000, .i32⟩
  | 7 => ⟨S300000, .i32⟩
  | 8 => ⟨S256x256, .f32⟩
  | 9 => ⟨S256, .f32⟩
  | 10 => ⟨S256x256, .f32⟩
  | 11 => ⟨S256, .f32⟩
  | 12 => ⟨S256x256, .f32⟩
  | 13 => ⟨S256, .f32⟩
  | 14 => ⟨S256x256, .f32⟩
  | 15 => ⟨S256, .f32⟩
  | 16 => ⟨S256x256, .f32⟩
  | 17 => ⟨S256, .f32⟩
  | 18 => ⟨S256x256, .f32⟩
  | 19 => ⟨S256, .f32⟩
  | 20 => ⟨S256x128, .f32⟩
  | 21 => ⟨S128, .f32⟩
  | 22 => ⟨S256x128, .f32⟩
  | 23 => ⟨S128, .f32⟩
  | 24 => ⟨S256x128, .f32⟩
  | 25 => ⟨S128, .f32⟩
  | 26 => ⟨S_, .f32⟩
  | 27 => ⟨S300000, .f32⟩
  | 28 => ⟨S_, .f32⟩
  | 29 => ⟨S50000, .f32⟩
  | 30 => ⟨S300000x1, .i32⟩
  | 31 => ⟨S50000, .f32⟩
  | 32 => ⟨S_, .f32⟩
  | 33 => ⟨S50000, .f32⟩
  | 34 => ⟨S300000x1, .i32⟩
  | 35 => ⟨S50000, .f32⟩
  | 36 => ⟨S_, .f32⟩
  | 37 => ⟨S50000, .f32⟩
  | 38 => ⟨S50000, .f32⟩
  | 39 => ⟨S50000, .f32⟩
  | 40 => ⟨S_, .f32⟩
  | 41 => ⟨S50000, .f32⟩
  | 42 => ⟨S50000, .f32⟩
  | 43 => ⟨S50000, .f32⟩
  | 44 => ⟨S50000x1, .f32⟩
  | 45 => ⟨S50000x256, .f32⟩
  | 46 => ⟨S50000x256, .f32⟩
  | 47 => ⟨S50000x256, .f32⟩
  | 48 => ⟨S_, .i32⟩
  | 49 => ⟨S300000, .i32⟩
  | 50 => ⟨S300000, .i1⟩
  | 51 => ⟨S_, .i32⟩
  | 52 => ⟨S300000, .i32⟩
  | 53 => ⟨S300000, .i32⟩
  | 54 => ⟨S300000, .i32⟩
  | 55 => ⟨S300000x1, .i32⟩
  | 56 => ⟨S300000x256, .f32⟩
  | 57 => ⟨S_, .f32⟩
  | 58 => ⟨S50000x256, .f32⟩
  | 59 => ⟨S300000x1, .i32⟩
  | 60 => ⟨S50000x256, .f32⟩
  | 61 => ⟨S50000x1, .f32⟩
  | 62 => ⟨S50000x256, .f32⟩
  | 63 => ⟨S50000x256, .f32⟩
  | 64 => ⟨S1x256, .f32⟩
  | 65 => ⟨S50000x256, .f32⟩
  | 66 => ⟨S50000x256, .f32⟩
  | 67 => ⟨S_, .f32⟩
  | 68 => ⟨S300000, .f32⟩
  | 69 => ⟨S_, .f32⟩
  | 70 => ⟨S50000, .f32⟩
  | 71 => ⟨S300000x1, .i32⟩
  | 72 => ⟨S50000, .f32⟩
  | 73 => ⟨S_, .f32⟩
  | 74 => ⟨S50000, .f32⟩
  | 75 => ⟨S300000x1, .i32⟩
  | 76 => ⟨S50000, .f32⟩
  | 77 => ⟨S_, .f32⟩
  | 78 => ⟨S50000, .f32⟩
  | 79 => ⟨S50000, .f32⟩
  | 80 => ⟨S50000, .f32⟩
  | 81 => ⟨S_, .f32⟩
  | 82 => ⟨S50000, .f32⟩
  | 83 => ⟨S50000, .f32⟩
  | 84 => ⟨S50000, .f32⟩
  | 85 => ⟨S50000x1, .f32⟩
  | 86 => ⟨S50000x256, .f32⟩
  | 87 => ⟨S50000x256, .f32⟩
  | 88 => ⟨S50000x256, .f32⟩
  | 89 => ⟨S_, .i32⟩
  | 90 => ⟨S300000, .i32⟩
  | 91 => ⟨S300000, .i1⟩
  | 92 => ⟨S_, .i32⟩
  | 93 => ⟨S300000, .i32⟩
  | 94 => ⟨S300000, .i32⟩
  | 95 => ⟨S300000, .i32⟩
  | 96 => ⟨S300000x1, .i32⟩
  | 97 => ⟨S300000x256, .f32⟩
  | 98 => ⟨S_, .f32⟩
  | 99 => ⟨S50000x256, .f32⟩
  | 100 => ⟨S300000x1, .i32⟩
  | 101 => ⟨S50000x256, .f32⟩
  | 102 => ⟨S50000x1, .f32⟩
  | 103 => ⟨S50000x256, .f32⟩
  | 104 => ⟨S50000x256, .f32⟩
  | 105 => ⟨S1x256, .f32⟩
  | 106 => ⟨S50000x256, .f32⟩
  | 107 => ⟨S50000x256, .f32⟩
  | 108 => ⟨S50000x256, .f32⟩
  | 109 => ⟨S_, .f32⟩
  | 110 => ⟨S300000, .f32⟩
  | 111 => ⟨S_, .f32⟩
  | 112 => ⟨S50000, .f32⟩
  | 113 => ⟨S300000x1, .i32⟩
  | 114 => ⟨S50000, .f32⟩
  | 115 => ⟨S_, .f32⟩
  | 116 => ⟨S50000, .f32⟩
  | 117 => ⟨S300000x1, .i32⟩
  | 118 => ⟨S50000, .f32⟩
  | 119 => ⟨S_, .f32⟩
  | 120 => ⟨S50000, .f32⟩
  | 121 => ⟨S50000, .f32⟩
  | 122 => ⟨S50000, .f32⟩
  | 123 => ⟨S_, .f32⟩
  | 124 => ⟨S50000, .f32⟩
  | 125 => ⟨S50000, .f32⟩
  | 126 => ⟨S50000, .f32⟩
  | 127 => ⟨S50000x1, .f32⟩
  | _ => ⟨S50000x256, .f32⟩

abbrev hbmTy0_1 (i : Nat) : BufTy := match i % 128 with
  | 0 => ⟨S50000x256, .f32⟩
  | 1 => ⟨S50000x256, .f32⟩
  | 2 => ⟨S50000x256, .f32⟩
  | 3 => ⟨S_, .i32⟩
  | 4 => ⟨S300000, .i32⟩
  | 5 => ⟨S300000, .i1⟩
  | 6 => ⟨S_, .i32⟩
  | 7 => ⟨S300000, .i32⟩
  | 8 => ⟨S300000, .i32⟩
  | 9 => ⟨S300000, .i32⟩
  | 10 => ⟨S300000x1, .i32⟩
  | 11 => ⟨S300000x256, .f32⟩
  | 12 => ⟨S_, .f32⟩
  | 13 => ⟨S50000x256, .f32⟩
  | 14 => ⟨S300000x1, .i32⟩
  | 15 => ⟨S50000x256, .f32⟩
  | 16 => ⟨S50000x1, .f32⟩
  | 17 => ⟨S50000x256, .f32⟩
  | 18 => ⟨S50000x256, .f32⟩
  | 19 => ⟨S1x256, .f32⟩
  | 20 => ⟨S50000x256, .f32⟩
  | 21 => ⟨S50000x256, .f32⟩
  | 22 => ⟨S_, .f32⟩
  | 23 => ⟨S50000x256, .f32⟩
  | 24 => ⟨S50000x256, .f32⟩
  | 25 => ⟨S_, .f32⟩
  | 26 => ⟨S50000x256, .f32⟩
  | 27 => ⟨S50000x256, .f32⟩
  | 28 => ⟨S_, .f32⟩
  | 29 => ⟨S300000, .f32⟩
  | 30 => ⟨S_, .f32⟩
  | 31 => ⟨S50000, .f32⟩
  | 32 => ⟨S300000x1, .i32⟩
  | 33 => ⟨S50000, .f32⟩
  | 34 => ⟨S_, .f32⟩
  | 35 => ⟨S50000, .f32⟩
  | 36 => ⟨S300000x1, .i32⟩
  | 37 => ⟨S50000, .f32⟩
  | 38 => ⟨S_, .f32⟩
  | 39 => ⟨S50000, .f32⟩
  | 40 => ⟨S50000, .f32⟩
  | 41 => ⟨S50000, .f32⟩
  | 42 => ⟨S_, .f32⟩
  | 43 => ⟨S50000, .f32⟩
  | 44 => ⟨S50000, .f32⟩
  | 45 => ⟨S50000, .f32⟩
  | 46 => ⟨S50000x1, .f32⟩
  | 47 => ⟨S50000x256, .f32⟩
  | 48 => ⟨S50000x256, .f32⟩
  | 49 => ⟨S50000x256, .f32⟩
  | 50 => ⟨S_, .i32⟩
  | 51 => ⟨S300000, .i32⟩
  | 52 => ⟨S300000, .i1⟩
  | 53 => ⟨S_, .i32⟩
  | 54 => ⟨S300000, .i32⟩
  | 55 => ⟨S300000, .i32⟩
  | 56 => ⟨S300000, .i32⟩
  | 57 => ⟨S300000x1, .i32⟩
  | 58 => ⟨S300000x256, .f32⟩
  | 59 => ⟨S_, .f32⟩
  | 60 => ⟨S50000x256, .f32⟩
  | 61 => ⟨S300000x1, .i32⟩
  | 62 => ⟨S50000x256, .f32⟩
  | 63 => ⟨S50000x1, .f32⟩
  | 64 => ⟨S50000x256, .f32⟩
  | 65 => ⟨S50000x256, .f32⟩
  | 66 => ⟨S1x256, .f32⟩
  | 67 => ⟨S50000x256, .f32⟩
  | 68 => ⟨S50000x256, .f32⟩
  | 69 => ⟨S_, .f32⟩
  | 70 => ⟨S300000, .f32⟩
  | 71 => ⟨S_, .f32⟩
  | 72 => ⟨S50000, .f32⟩
  | 73 => ⟨S300000x1, .i32⟩
  | 74 => ⟨S50000, .f32⟩
  | 75 => ⟨S_, .f32⟩
  | 76 => ⟨S50000, .f32⟩
  | 77 => ⟨S300000x1, .i32⟩
  | 78 => ⟨S50000, .f32⟩
  | 79 => ⟨S_, .f32⟩
  | 80 => ⟨S50000, .f32⟩
  | 81 => ⟨S50000, .f32⟩
  | 82 => ⟨S50000, .f32⟩
  | 83 => ⟨S_, .f32⟩
  | 84 => ⟨S50000, .f32⟩
  | 85 => ⟨S50000, .f32⟩
  | 86 => ⟨S50000, .f32⟩
  | 87 => ⟨S50000x1, .f32⟩
  | 88 => ⟨S50000x256, .f32⟩
  | 89 => ⟨S50000x256, .f32⟩
  | 90 => ⟨S50000x256, .f32⟩
  | 91 => ⟨S_, .i32⟩
  | 92 => ⟨S300000, .i32⟩
  | 93 => ⟨S300000, .i1⟩
  | 94 => ⟨S_, .i32⟩
  | 95 => ⟨S300000, .i32⟩
  | 96 => ⟨S300000, .i32⟩
  | 97 => ⟨S300000, .i32⟩
  | 98 => ⟨S300000x1, .i32⟩
  | 99 => ⟨S300000x256, .f32⟩
  | 100 => ⟨S_, .f32⟩
  | 101 => ⟨S50000x256, .f32⟩
  | 102 => ⟨S300000x1, .i32⟩
  | 103 => ⟨S50000x256, .f32⟩
  | 104 => ⟨S50000x1, .f32⟩
  | 105 => ⟨S50000x256, .f32⟩
  | 106 => ⟨S50000x256, .f32⟩
  | 107 => ⟨S1x256, .f32⟩
  | 108 => ⟨S50000x256, .f32⟩
  | 109 => ⟨S50000x256, .f32⟩
  | 110 => ⟨S50000x256, .f32⟩
  | 111 => ⟨S_, .f32⟩
  | 112 => ⟨S300000, .f32⟩
  | 113 => ⟨S_, .f32⟩
  | 114 => ⟨S50000, .f32⟩
  | 115 => ⟨S300000x1, .i32⟩
  | 116 => ⟨S50000, .f32⟩
  | 117 => ⟨S_, .f32⟩
  | 118 => ⟨S50000, .f32⟩
  | 119 => ⟨S300000x1, .i32⟩
  | 120 => ⟨S50000, .f32⟩
  | 121 => ⟨S_, .f32⟩
  | 122 => ⟨S50000, .f32⟩
  | 123 => ⟨S50000, .f32⟩
  | 124 => ⟨S50000, .f32⟩
  | 125 => ⟨S_, .f32⟩
  | 126 => ⟨S50000, .f32⟩
  | 127 => ⟨S50000, .f32⟩
  | _ => ⟨S50000x256, .f32⟩

abbrev hbmTy0_2 (i : Nat) : BufTy := match i % 128 with
  | 0 => ⟨S50000, .f32⟩
  | 1 => ⟨S50000x1, .f32⟩
  | 2 => ⟨S50000x256, .f32⟩
  | 3 => ⟨S50000x256, .f32⟩
  | 4 => ⟨S50000x256, .f32⟩
  | 5 => ⟨S_, .i32⟩
  | 6 => ⟨S300000, .i32⟩
  | 7 => ⟨S300000, .i1⟩
  | 8 => ⟨S_, .i32⟩
  | 9 => ⟨S300000, .i32⟩
  | 10 => ⟨S300000, .i32⟩
  | 11 => ⟨S300000, .i32⟩
  | 12 => ⟨S300000x1, .i32⟩
  | 13 => ⟨S300000x256, .f32⟩
  | 14 => ⟨S_, .f32⟩
  | 15 => ⟨S50000x256, .f32⟩
  | 16 => ⟨S300000x1, .i32⟩
  | 17 => ⟨S50000x256, .f32⟩
  | 18 => ⟨S50000x1, .f32⟩
  | 19 => ⟨S50000x256, .f32⟩
  | 20 => ⟨S50000x256, .f32⟩
  | 21 => ⟨S1x256, .f32⟩
  | 22 => ⟨S50000x256, .f32⟩
  | 23 => ⟨S50000x256, .f32⟩
  | 24 => ⟨S_, .f32⟩
  | 25 => ⟨S50000x256, .f32⟩
  | 26 => ⟨S50000x256, .f32⟩
  | 27 => ⟨S_, .f32⟩
  | 28 => ⟨S50000x256, .f32⟩
  | 29 => ⟨S50000x256, .f32⟩
  | 30 => ⟨S_, .f32⟩
  | 31 => ⟨S300000, .f32⟩
  | 32 => ⟨S_, .f32⟩
  | 33 => ⟨S50000, .f32⟩
  | 34 => ⟨S300000x1, .i32⟩
  | 35 => ⟨S50000, .f32⟩
  | 36 => ⟨S_, .f32⟩
  | 37 => ⟨S50000, .f32⟩
  | 38 => ⟨S300000x1, .i32⟩
  | 39 => ⟨S50000, .f32⟩
  | 40 => ⟨S_, .f32⟩
  | 41 => ⟨S50000, .f32⟩
  | 42 => ⟨S50000, .f32⟩
  | 43 => ⟨S50000, .f32⟩
  | 44 => ⟨S_, .f32⟩
  | 45 => ⟨S50000, .f32⟩
  | 46 => ⟨S50000, .f32⟩
  | 47 => ⟨S50000, .f32⟩
  | 48 => ⟨S50000x1, .f32⟩
  | 49 => ⟨S50000x256, .f32⟩
  | 50 => ⟨S50000x256, .f32⟩
  | 51 => ⟨S50000x128, .f32⟩
  | 52 => ⟨S_, .i32⟩
  | 53 => ⟨S300000, .i32⟩
  | 54 => ⟨S300000, .i1⟩
  | 55 => ⟨S_, .i32⟩
  | 56 => ⟨S300000, .i32⟩
  | 57 => ⟨S300000, .i32⟩
  | 58 => ⟨S300000, .i32⟩
  | 59 => ⟨S300000x1, .i32⟩
  | 60 => ⟨S300000x128, .f32⟩
  | 61 => ⟨S_, .f32⟩
  | 62 => ⟨S50000x128, .f32⟩
  | 63 => ⟨S300000x1, .i32⟩
  | 64 => ⟨S50000x128, .f32⟩
  | 65 => ⟨S50000x1, .f32⟩
  | 66 => ⟨S50000x128, .f32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S300000, .f32⟩
  | 73 => ⟨S_, .f32⟩
  | 74 => ⟨S50000, .f32⟩
  | 75 => ⟨S300000x1, .i32⟩
  | 76 => ⟨S50000, .f32⟩
  | 77 => ⟨S_, .f32⟩
  | 78 => ⟨S50000, .f32⟩
  | 79 => ⟨S300000x1, .i32⟩
  | 80 => ⟨S50000, .f32⟩
  | 81 => ⟨S_, .f32⟩
  | 82 => ⟨S50000, .f32⟩
  | 83 => ⟨S50000, .f32⟩
  | 84 => ⟨S50000, .f32⟩
  | 85 => ⟨S_, .f32⟩
  | 86 => ⟨S50000, .f32⟩
  | 87 => ⟨S50000, .f32⟩
  | 88 => ⟨S50000, .f32⟩
  | 89 => ⟨S50000x1, .f32⟩
  | 90 => ⟨S50000x256, .f32⟩
  | 91 => ⟨S50000x256, .f32⟩
  | 92 => ⟨S50000x128, .f32⟩
  | 93 => ⟨S_, .i32⟩
  | 94 => ⟨S300000, .i32⟩
  | 95 => ⟨S300000, .i1⟩
  | 96 => ⟨S_, .i32⟩
  | 97 => ⟨S300000, .i32⟩
  | 98 => ⟨S300000, .i32⟩
  | 99 => ⟨S300000, .i32⟩
  | 100 => ⟨S300000x1, .i32⟩
  | 101 => ⟨S300000x128, .f32⟩
  | 102 => ⟨S_, .f32⟩
  | 103 => ⟨S50000x128, .f32⟩
  | 104 => ⟨S300000x1, .i32⟩
  | 105 => ⟨S50000x128, .f32⟩
  | 106 => ⟨S50000x1, .f32⟩
  | 107 => ⟨S50000x128, .f32⟩
  | 108 => ⟨S50000x128, .f32⟩
  | 109 => ⟨S1x128, .f32⟩
  | 110 => ⟨S50000x128, .f32⟩
  | 111 => ⟨S50000x128, .f32⟩
  | 112 => ⟨S50000x128, .f32⟩
  | 113 => ⟨S_, .f32⟩
  | 114 => ⟨S300000, .f32⟩
  | 115 => ⟨S_, .f32⟩
  | 116 => ⟨S50000, .f32⟩
  | 117 => ⟨S300000x1, .i32⟩
  | 118 => ⟨S50000, .f32⟩
  | 119 => ⟨S_, .f32⟩
  | 120 => ⟨S50000, .f32⟩
  | 121 => ⟨S300000x1, .i32⟩
  | 122 => ⟨S50000, .f32⟩
  | 123 => ⟨S_, .f32⟩
  | 124 => ⟨S50000, .f32⟩
  | 125 => ⟨S50000, .f32⟩
  | 126 => ⟨S50000, .f32⟩
  | 127 => ⟨S_, .f32⟩
  | _ => ⟨S50000x256, .f32⟩

abbrev hbmTy0_3 (i : Nat) : BufTy := match i % 128 with
  | 0 => ⟨S50000, .f32⟩
  | 1 => ⟨S50000, .f32⟩
  | 2 => ⟨S50000, .f32⟩
  | 3 => ⟨S50000x1, .f32⟩
  | 4 => ⟨S50000x256, .f32⟩
  | 5 => ⟨S50000x256, .f32⟩
  | 6 => ⟨S50000x128, .f32⟩
  | 7 => ⟨S_, .i32⟩
  | 8 => ⟨S300000, .i32⟩
  | 9 => ⟨S300000, .i1⟩
  | 10 => ⟨S_, .i32⟩
  | 11 => ⟨S300000, .i32⟩
  | 12 => ⟨S300000, .i32⟩
  | 13 => ⟨S300000, .i32⟩
  | 14 => ⟨S300000x1, .i32⟩
  | 15 => ⟨S300000x128, .f32⟩
  | 16 => ⟨S_, .f32⟩
  | 17 => ⟨S50000x128, .f32⟩
  | 18 => ⟨S300000x1, .i32⟩
  | 19 => ⟨S50000x128, .f32⟩
  | 20 => ⟨S50000x1, .f32⟩
  | 21 => ⟨S50000x128, .f32⟩
  | 22 => ⟨S50000x128, .f32⟩
  | 23 => ⟨S1x128, .f32⟩
  | 24 => ⟨S50000x128, .f32⟩
  | 25 => ⟨S50000x128, .f32⟩
  | _ => ⟨S50000x256, .f32⟩

abbrev hbmTy (i : Nat) : BufTy := match i / 128 with
  | 0 => hbmTy0_0 i
  | 1 => hbmTy0_1 i
  | 2 => hbmTy0_2 i
  | 3 => hbmTy0_3 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_cst : Ref sig .tc := ⟨.hbm, 26, rfl⟩
abbrev main_v0 : Ref sig .tc := ⟨.hbm, 27, rfl⟩
abbrev main_cst_0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_cst_1 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst_2 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_cst_3 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_c : Ref sig .tc := ⟨.hbm, 48, rfl⟩
abbrev main_v17 : Ref sig .tc := ⟨.hbm, 49, rfl⟩
abbrev main_v18 : Ref sig .tc := ⟨.hbm, 50, rfl⟩
abbrev main_c_4 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_cst_5 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_cst_6 : Ref sig .tc := ⟨.hbm, 67, rfl⟩
abbrev main_v33 : Ref sig .tc := ⟨.hbm, 68, rfl⟩
abbrev main_cst_7 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_cst_8 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_cst_9 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_cst_10 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_c_11 : Ref sig .tc := ⟨.hbm, 89, rfl⟩
abbrev main_v50 : Ref sig .tc := ⟨.hbm, 90, rfl⟩
abbrev main_v51 : Ref sig .tc := ⟨.hbm, 91, rfl⟩
abbrev main_c_12 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_cst_13 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_cst_14 : Ref sig .tc := ⟨.hbm, 109, rfl⟩
abbrev main_v67 : Ref sig .tc := ⟨.hbm, 110, rfl⟩
abbrev main_cst_15 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_cst_16 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_cst_17 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_cst_18 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_c_19 : Ref sig .tc := ⟨.hbm, 131, rfl⟩
abbrev main_v84 : Ref sig .tc := ⟨.hbm, 132, rfl⟩
abbrev main_v85 : Ref sig .tc := ⟨.hbm, 133, rfl⟩
abbrev main_c_20 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_cst_21 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_call0_cst : Ref sig .tc := ⟨.hbm, 150, rfl⟩
abbrev main_call0_v0 : Ref sig .tc := ⟨.hbm, 151, rfl⟩
abbrev main_v100 : Ref sig .tc := ⟨.hbm, 152, rfl⟩
abbrev main_call1_cst : Ref sig .tc := ⟨.hbm, 153, rfl⟩
abbrev main_call1_v0 : Ref sig .tc := ⟨.hbm, 154, rfl⟩
abbrev main_v101 : Ref sig .tc := ⟨.hbm, 155, rfl⟩
abbrev main_cst_22 : Ref sig .tc := ⟨.hbm, 156, rfl⟩
abbrev main_v102 : Ref sig .tc := ⟨.hbm, 157, rfl⟩
abbrev main_cst_23 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_cst_24 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_cst_25 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_cst_26 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_c_27 : Ref sig .tc := ⟨.hbm, 178, rfl⟩
abbrev main_v119 : Ref sig .tc := ⟨.hbm, 179, rfl⟩
abbrev main_v120 : Ref sig .tc := ⟨.hbm, 180, rfl⟩
abbrev main_c_28 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_cst_29 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_cst_30 : Ref sig .tc := ⟨.hbm, 197, rfl⟩
abbrev main_v135 : Ref sig .tc := ⟨.hbm, 198, rfl⟩
abbrev main_cst_31 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_cst_32 : Ref sig .tc := ⟨.hbm, 203, rfl⟩
abbrev main_v139 : Ref sig .tc := ⟨.hbm, 204, rfl⟩
abbrev main_v140 : Ref sig .tc := ⟨.hbm, 205, rfl⟩
abbrev main_v141 : Ref sig .tc := ⟨.hbm, 206, rfl⟩
abbrev main_cst_33 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_cst_34 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_c_35 : Ref sig .tc := ⟨.hbm, 219, rfl⟩
abbrev main_v152 : Ref sig .tc := ⟨.hbm, 220, rfl⟩
abbrev main_v153 : Ref sig .tc := ⟨.hbm, 221, rfl⟩
abbrev main_c_36 : Ref sig .tc := ⟨.hbm, 222, rfl⟩
abbrev main_v154 : Ref sig .tc := ⟨.hbm, 223, rfl⟩
abbrev main_v155 : Ref sig .tc := ⟨.hbm, 224, rfl⟩
abbrev main_v156 : Ref sig .tc := ⟨.hbm, 225, rfl⟩
abbrev main_v157 : Ref sig .tc := ⟨.hbm, 226, rfl⟩
abbrev main_v158 : Ref sig .tc := ⟨.hbm, 227, rfl⟩
abbrev main_cst_37 : Ref sig .tc := ⟨.hbm, 228, rfl⟩
abbrev main_v159 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_v168 : Ref sig .tc := ⟨.hbm, 238, rfl⟩
abbrev main_cst_38 : Ref sig .tc := ⟨.hbm, 239, rfl⟩
abbrev main_v169 : Ref sig .tc := ⟨.hbm, 240, rfl⟩
abbrev main_cst_39 : Ref sig .tc := ⟨.hbm, 241, rfl⟩
abbrev main_v170 : Ref sig .tc := ⟨.hbm, 242, rfl⟩
abbrev main_v171 : Ref sig .tc := ⟨.hbm, 243, rfl⟩
abbrev main_v172 : Ref sig .tc := ⟨.hbm, 244, rfl⟩
abbrev main_cst_40 : Ref sig .tc := ⟨.hbm, 245, rfl⟩
abbrev main_v173 : Ref sig .tc := ⟨.hbm, 246, rfl⟩
abbrev main_v174 : Ref sig .tc := ⟨.hbm, 247, rfl⟩
abbrev main_v175 : Ref sig .tc := ⟨.hbm, 248, rfl⟩
abbrev main_cst_41 : Ref sig .tc := ⟨.hbm, 249, rfl⟩
abbrev main_v176 : Ref sig .tc := ⟨.hbm, 250, rfl⟩
abbrev main_v177 : Ref sig .tc := ⟨.hbm, 251, rfl⟩
abbrev main_v178 : Ref sig .tc := ⟨.hbm, 252, rfl⟩
abbrev main_cst_42 : Ref sig .tc := ⟨.hbm, 253, rfl⟩
abbrev main_v179 : Ref sig .tc := ⟨.hbm, 254, rfl⟩
abbrev main_v180 : Ref sig .tc := ⟨.hbm, 255, rfl⟩
abbrev main_v181 : Ref sig .tc := ⟨.hbm, 256, rfl⟩
abbrev main_v182 : Ref sig .tc := ⟨.hbm, 257, rfl⟩
abbrev main_v183 : Ref sig .tc := ⟨.hbm, 258, rfl⟩
abbrev main_v184 : Ref sig .tc := ⟨.hbm, 259, rfl⟩
abbrev main_v185 : Ref sig .tc := ⟨.hbm, 260, rfl⟩
abbrev main_c_43 : Ref sig .tc := ⟨.hbm, 261, rfl⟩
abbrev main_v186 : Ref sig .tc := ⟨.hbm, 262, rfl⟩
abbrev main_v187 : Ref sig .tc := ⟨.hbm, 263, rfl⟩
abbrev main_c_44 : Ref sig .tc := ⟨.hbm, 264, rfl⟩
abbrev main_v188 : Ref sig .tc := ⟨.hbm, 265, rfl⟩
abbrev main_v189 : Ref sig .tc := ⟨.hbm, 266, rfl⟩
abbrev main_v190 : Ref sig .tc := ⟨.hbm, 267, rfl⟩
abbrev main_v191 : Ref sig .tc := ⟨.hbm, 268, rfl⟩
abbrev main_v192 : Ref sig .tc := ⟨.hbm, 269, rfl⟩
abbrev main_cst_45 : Ref sig .tc := ⟨.hbm, 270, rfl⟩
abbrev main_v193 : Ref sig .tc := ⟨.hbm, 271, rfl⟩
abbrev main_v194 : Ref sig .tc := ⟨.hbm, 272, rfl⟩
abbrev main_v195 : Ref sig .tc := ⟨.hbm, 273, rfl⟩
abbrev main_v196 : Ref sig .tc := ⟨.hbm, 274, rfl⟩
abbrev main_v197 : Ref sig .tc := ⟨.hbm, 275, rfl⟩
abbrev main_v198 : Ref sig .tc := ⟨.hbm, 276, rfl⟩
abbrev main_v199 : Ref sig .tc := ⟨.hbm, 277, rfl⟩
abbrev main_v200 : Ref sig .tc := ⟨.hbm, 278, rfl⟩
abbrev main_v201 : Ref sig .tc := ⟨.hbm, 279, rfl⟩
abbrev main_call2_cst : Ref sig .tc := ⟨.hbm, 280, rfl⟩
abbrev main_call2_v0 : Ref sig .tc := ⟨.hbm, 281, rfl⟩
abbrev main_v202 : Ref sig .tc := ⟨.hbm, 282, rfl⟩
abbrev main_call3_cst : Ref sig .tc := ⟨.hbm, 283, rfl⟩
abbrev main_call3_v0 : Ref sig .tc := ⟨.hbm, 284, rfl⟩
abbrev main_v203 : Ref sig .tc := ⟨.hbm, 285, rfl⟩
abbrev main_cst_46 : Ref sig .tc := ⟨.hbm, 286, rfl⟩
abbrev main_v204 : Ref sig .tc := ⟨.hbm, 287, rfl⟩
abbrev main_cst_47 : Ref sig .tc := ⟨.hbm, 288, rfl⟩
abbrev main_v205 : Ref sig .tc := ⟨.hbm, 289, rfl⟩
abbrev main_v206 : Ref sig .tc := ⟨.hbm, 290, rfl⟩
abbrev main_v207 : Ref sig .tc := ⟨.hbm, 291, rfl⟩
abbrev main_cst_48 : Ref sig .tc := ⟨.hbm, 292, rfl⟩
abbrev main_v208 : Ref sig .tc := ⟨.hbm, 293, rfl⟩
abbrev main_v209 : Ref sig .tc := ⟨.hbm, 294, rfl⟩
abbrev main_v210 : Ref sig .tc := ⟨.hbm, 295, rfl⟩
abbrev main_cst_49 : Ref sig .tc := ⟨.hbm, 296, rfl⟩
abbrev main_v211 : Ref sig .tc := ⟨.hbm, 297, rfl⟩
abbrev main_v212 : Ref sig .tc := ⟨.hbm, 298, rfl⟩
abbrev main_v213 : Ref sig .tc := ⟨.hbm, 299, rfl⟩
abbrev main_cst_50 : Ref sig .tc := ⟨.hbm, 300, rfl⟩
abbrev main_v214 : Ref sig .tc := ⟨.hbm, 301, rfl⟩
abbrev main_v215 : Ref sig .tc := ⟨.hbm, 302, rfl⟩
abbrev main_v216 : Ref sig .tc := ⟨.hbm, 303, rfl⟩
abbrev main_v217 : Ref sig .tc := ⟨.hbm, 304, rfl⟩
abbrev main_v218 : Ref sig .tc := ⟨.hbm, 305, rfl⟩
abbrev main_v219 : Ref sig .tc := ⟨.hbm, 306, rfl⟩
abbrev main_v220 : Ref sig .tc := ⟨.hbm, 307, rfl⟩
abbrev main_c_51 : Ref sig .tc := ⟨.hbm, 308, rfl⟩
abbrev main_v221 : Ref sig .tc := ⟨.hbm, 309, rfl⟩
abbrev main_v222 : Ref sig .tc := ⟨.hbm, 310, rfl⟩
abbrev main_c_52 : Ref sig .tc := ⟨.hbm, 311, rfl⟩
abbrev main_v223 : Ref sig .tc := ⟨.hbm, 312, rfl⟩
abbrev main_v224 : Ref sig .tc := ⟨.hbm, 313, rfl⟩
abbrev main_v225 : Ref sig .tc := ⟨.hbm, 314, rfl⟩
abbrev main_v226 : Ref sig .tc := ⟨.hbm, 315, rfl⟩
abbrev main_v227 : Ref sig .tc := ⟨.hbm, 316, rfl⟩
abbrev main_cst_53 : Ref sig .tc := ⟨.hbm, 317, rfl⟩
abbrev main_v228 : Ref sig .tc := ⟨.hbm, 318, rfl⟩
abbrev main_v229 : Ref sig .tc := ⟨.hbm, 319, rfl⟩
abbrev main_v230 : Ref sig .tc := ⟨.hbm, 320, rfl⟩
abbrev main_v231 : Ref sig .tc := ⟨.hbm, 321, rfl⟩
abbrev main_v232 : Ref sig .tc := ⟨.hbm, 322, rfl⟩
abbrev main_v233 : Ref sig .tc := ⟨.hbm, 323, rfl⟩
abbrev main_v234 : Ref sig .tc := ⟨.hbm, 324, rfl⟩
abbrev main_v235 : Ref sig .tc := ⟨.hbm, 325, rfl⟩
abbrev main_v236 : Ref sig .tc := ⟨.hbm, 326, rfl⟩
abbrev main_cst_54 : Ref sig .tc := ⟨.hbm, 327, rfl⟩
abbrev main_v237 : Ref sig .tc := ⟨.hbm, 328, rfl⟩
abbrev main_cst_55 : Ref sig .tc := ⟨.hbm, 329, rfl⟩
abbrev main_v238 : Ref sig .tc := ⟨.hbm, 330, rfl⟩
abbrev main_v239 : Ref sig .tc := ⟨.hbm, 331, rfl⟩
abbrev main_v240 : Ref sig .tc := ⟨.hbm, 332, rfl⟩
abbrev main_cst_56 : Ref sig .tc := ⟨.hbm, 333, rfl⟩
abbrev main_v241 : Ref sig .tc := ⟨.hbm, 334, rfl⟩
abbrev main_v242 : Ref sig .tc := ⟨.hbm, 335, rfl⟩
abbrev main_v243 : Ref sig .tc := ⟨.hbm, 336, rfl⟩
abbrev main_cst_57 : Ref sig .tc := ⟨.hbm, 337, rfl⟩
abbrev main_v244 : Ref sig .tc := ⟨.hbm, 338, rfl⟩
abbrev main_v245 : Ref sig .tc := ⟨.hbm, 339, rfl⟩
abbrev main_v246 : Ref sig .tc := ⟨.hbm, 340, rfl⟩
abbrev main_cst_58 : Ref sig .tc := ⟨.hbm, 341, rfl⟩
abbrev main_v247 : Ref sig .tc := ⟨.hbm, 342, rfl⟩
abbrev main_v248 : Ref sig .tc := ⟨.hbm, 343, rfl⟩
abbrev main_v249 : Ref sig .tc := ⟨.hbm, 344, rfl⟩
abbrev main_v250 : Ref sig .tc := ⟨.hbm, 345, rfl⟩
abbrev main_v251 : Ref sig .tc := ⟨.hbm, 346, rfl⟩
abbrev main_v252 : Ref sig .tc := ⟨.hbm, 347, rfl⟩
abbrev main_v253 : Ref sig .tc := ⟨.hbm, 348, rfl⟩
abbrev main_c_59 : Ref sig .tc := ⟨.hbm, 349, rfl⟩
abbrev main_v254 : Ref sig .tc := ⟨.hbm, 350, rfl⟩
abbrev main_v255 : Ref sig .tc := ⟨.hbm, 351, rfl⟩
abbrev main_c_60 : Ref sig .tc := ⟨.hbm, 352, rfl⟩
abbrev main_v256 : Ref sig .tc := ⟨.hbm, 353, rfl⟩
abbrev main_v257 : Ref sig .tc := ⟨.hbm, 354, rfl⟩
abbrev main_v258 : Ref sig .tc := ⟨.hbm, 355, rfl⟩
abbrev main_v259 : Ref sig .tc := ⟨.hbm, 356, rfl⟩
abbrev main_v260 : Ref sig .tc := ⟨.hbm, 357, rfl⟩
abbrev main_cst_61 : Ref sig .tc := ⟨.hbm, 358, rfl⟩
abbrev main_v261 : Ref sig .tc := ⟨.hbm, 359, rfl⟩
abbrev main_v262 : Ref sig .tc := ⟨.hbm, 360, rfl⟩
abbrev main_v263 : Ref sig .tc := ⟨.hbm, 361, rfl⟩
abbrev main_v264 : Ref sig .tc := ⟨.hbm, 362, rfl⟩
abbrev main_v265 : Ref sig .tc := ⟨.hbm, 363, rfl⟩
abbrev main_v266 : Ref sig .tc := ⟨.hbm, 364, rfl⟩
abbrev main_v267 : Ref sig .tc := ⟨.hbm, 365, rfl⟩
abbrev main_v268 : Ref sig .tc := ⟨.hbm, 366, rfl⟩
abbrev main_v269 : Ref sig .tc := ⟨.hbm, 367, rfl⟩
abbrev main_v270 : Ref sig .tc := ⟨.hbm, 368, rfl⟩
abbrev main_cst_62 : Ref sig .tc := ⟨.hbm, 369, rfl⟩
abbrev main_v271 : Ref sig .tc := ⟨.hbm, 370, rfl⟩
abbrev main_cst_63 : Ref sig .tc := ⟨.hbm, 371, rfl⟩
abbrev main_v272 : Ref sig .tc := ⟨.hbm, 372, rfl⟩
abbrev main_v273 : Ref sig .tc := ⟨.hbm, 373, rfl⟩
abbrev main_v274 : Ref sig .tc := ⟨.hbm, 374, rfl⟩
abbrev main_cst_64 : Ref sig .tc := ⟨.hbm, 375, rfl⟩
abbrev main_v275 : Ref sig .tc := ⟨.hbm, 376, rfl⟩
abbrev main_v276 : Ref sig .tc := ⟨.hbm, 377, rfl⟩
abbrev main_v277 : Ref sig .tc := ⟨.hbm, 378, rfl⟩
abbrev main_cst_65 : Ref sig .tc := ⟨.hbm, 379, rfl⟩
abbrev main_v278 : Ref sig .tc := ⟨.hbm, 380, rfl⟩
abbrev main_v279 : Ref sig .tc := ⟨.hbm, 381, rfl⟩
abbrev main_v280 : Ref sig .tc := ⟨.hbm, 382, rfl⟩
abbrev main_cst_66 : Ref sig .tc := ⟨.hbm, 383, rfl⟩
abbrev main_v281 : Ref sig .tc := ⟨.hbm, 384, rfl⟩
abbrev main_v282 : Ref sig .tc := ⟨.hbm, 385, rfl⟩
abbrev main_v283 : Ref sig .tc := ⟨.hbm, 386, rfl⟩
abbrev main_v284 : Ref sig .tc := ⟨.hbm, 387, rfl⟩
abbrev main_v285 : Ref sig .tc := ⟨.hbm, 388, rfl⟩
abbrev main_v286 : Ref sig .tc := ⟨.hbm, 389, rfl⟩
abbrev main_v287 : Ref sig .tc := ⟨.hbm, 390, rfl⟩
abbrev main_c_67 : Ref sig .tc := ⟨.hbm, 391, rfl⟩
abbrev main_v288 : Ref sig .tc := ⟨.hbm, 392, rfl⟩
abbrev main_v289 : Ref sig .tc := ⟨.hbm, 393, rfl⟩
abbrev main_c_68 : Ref sig .tc := ⟨.hbm, 394, rfl⟩
abbrev main_v290 : Ref sig .tc := ⟨.hbm, 395, rfl⟩
abbrev main_v291 : Ref sig .tc := ⟨.hbm, 396, rfl⟩
abbrev main_v292 : Ref sig .tc := ⟨.hbm, 397, rfl⟩
abbrev main_v293 : Ref sig .tc := ⟨.hbm, 398, rfl⟩
abbrev main_v294 : Ref sig .tc := ⟨.hbm, 399, rfl⟩
abbrev main_cst_69 : Ref sig .tc := ⟨.hbm, 400, rfl⟩
abbrev main_v295 : Ref sig .tc := ⟨.hbm, 401, rfl⟩
abbrev main_v296 : Ref sig .tc := ⟨.hbm, 402, rfl⟩
abbrev main_v297 : Ref sig .tc := ⟨.hbm, 403, rfl⟩
abbrev main_v298 : Ref sig .tc := ⟨.hbm, 404, rfl⟩
abbrev main_v299 : Ref sig .tc := ⟨.hbm, 405, rfl⟩
abbrev main_v300 : Ref sig .tc := ⟨.hbm, 406, rfl⟩
abbrev main_v301 : Ref sig .tc := ⟨.hbm, 407, rfl⟩
abbrev main_v302 : Ref sig .tc := ⟨.hbm, 408, rfl⟩
abbrev main_v303 : Ref sig .tc := ⟨.hbm, 409, rfl⟩

abbrev nD : Nat := 1
abbrev τ : Topo := Topo.v7x

variable {F : FTy → Type} [FloatOps F]

class Facts₀ : Prop where
  bcast_S_S300000 : S_.BroadcastsInDim S300000 (![] : Fin 0 → Fin S300000.rank)
  bcast_S_S50000 : S_.BroadcastsInDim S50000 (![] : Fin 0 → Fin S50000.rank)
  bcast_S300000_S300000x1_0 : S300000.BroadcastsInDim S300000x1 (![0] : Fin 1 → Fin S300000x1.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S300000x1_S300000_n_0_0_1_wf : ScatterDims.WF S50000 S300000x1 S300000 [] [0] [0] 1
  dot_S50000x256_S256x256_S50000x256_1_0_0_1_n_n_wf : DotDims.WF S50000x256 S256x256 S50000x256 [1] [0] [0] [1] [] []
  gather_S50000x256_S300000x1_S300000x256_1_0_n_n_0_1_1256_wf : GatherDims.WF S50000x256 S300000x1 S300000x256 [1] [0] [] [0] [] 1 ![1, 256]
  scatter_S50000x256_S300000x1_S300000x256_1_0_0_1_wf : ScatterDims.WF S50000x256 S300000x1 S300000x256 [1] [0] [0] 1
  dot_S50000x256_S256x128_S50000x128_1_0_0_1_n_n_wf : DotDims.WF S50000x256 S256x128 S50000x128 [1] [0] [0] [1] [] []
  gather_S50000x128_S300000x1_S300000x128_1_0_n_n_0_1_1128_wf : GatherDims.WF S50000x128 S300000x1 S300000x128 [1] [0] [] [0] [] 1 ![1, 128]
  scatter_S50000x128_S300000x1_S300000x128_1_0_0_1_wf : ScatterDims.WF S50000x128 S300000x1 S300000x128 [1] [0] [0] 1

variable [Facts₀]

def scatter_S50000_S300000x1_S300000_n_0_0_1 : ScatterDims S50000 S300000x1 S300000 where
  updateWindowDims := []
  insertedWindowDims := [0]
  scatterDimsToOperandDims := [0]
  indexVectorDim := 1
  wf := scatter_S50000_S300000x1_S300000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def scatter_S50000x256_S300000x1_S300000x256_1_0_0_1 : ScatterDims S50000x256 S300000x1 S300000x256 where
  updateWindowDims := [1]
  insertedWindowDims := [0]
  scatterDimsToOperandDims := [0]
  indexVectorDim := 1
  wf := scatter_S50000x256_S300000x1_S300000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S300000x1_S300000x128_1_0_n_n_0_1_1128 : GatherDims S50000x128 S300000x1 S300000x128 where
  offsetDims := [1]
  collapsedSliceDims := [0]
  operandBatchingDims := []
  startIndicesBatchingDims := []
  startIndexMap := [0]
  indexVectorDim := 1
  sliceSizes := ![1, 128]
  wf := gather_S50000x128_S300000x1_S300000x128_1_0_n_n_0_1_1128_wf
def scatter_S50000x128_S300000x1_S300000x128_1_0_0_1 : ScatterDims S50000x128 S300000x1 S300000x128 where
  updateWindowDims := [1]
  insertedWindowDims := [0]
  scatterDimsToOperandDims := [0]
  indexVectorDim := 1
  wf := scatter_S50000x128_S300000x1_S300000x128_1_0_0_1_wf

class Facts : Prop extends Facts₀ where

variable [Facts]
-- ==== Proof.KernelRun.lean ====
/-
  The idealised kernel program's run with every buffer NAMED at the end.

  The program is thirteen stretches of host operations around six kernel launches.  Its buffer contents at
  each of the nineteen boundaries are a fold from the launch memory: a stretch applies its operations in order,
  a launch replaces its arrays by what its write-backs leave.  The theorem below says that every weakly fair
  execution terminates, without a fault, in a memory that holds the LAST valuation of that fold at every buffer
  a thread can name.  The values of the two results are then a matter of reading the fold, which is pure.
-/
import proofs.«125347_j26173530702075_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing
    faulting, and the final memory holds the last boundary's contents at every unscoped buffer of every core:
    the segments run one after the other from the launch state, each handing the next its contents, and the
    last thread state is read against the final memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W19 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch's ghost state is the pipelines' initial one, and nothing else is dealt
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun c => by
      -- the last stretch's post is the last thread state beside the core owing nothing
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      -- each core's first thread state: its unscoped buffers at the launch memory, its generator register, nothing owed
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      -- a buffer held whole at a value has that value in the physical memory
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h => h)

end Cert.KernelIdeal.Run

end
-- ==== Proof.ScaledDense.lean ====
/-
  One dense stage of a graph convolution as a whole-array function: every row of the feature matrix `x`
  is scaled by its entry of the column `n` (the source-degree normalisation, shape [50000, 1]) and the scaled
  matrix is multiplied by the weight matrix `w`:

      scaledDense x n w (r, q) = Σ k, (x (r, k) · n (r, 0)) · w (k, q).

  It is spelt with the host operations (repeat the column along the lanes, multiply, contract axis 1 of the
  left operand with axis 0 of the right one), once for each of the two output widths, 256 and 128.
-/
import proofs.«125347_j26173530702075_2_alg».proof.ReferenceIdeal
import proofs.«125347_j26173530702075_2_alg».proof.Proof.Gen.ReferenceIdeal

noncomputable section

namespace Cert.Rgcn

open Idealize.ShloMosaic Cert.ReferenceIdeal
open Cert.ReferenceIdeal.Facts₀

variable {F : FTy → Type} [FloatOps F]

/-- Rows of `x` scaled by the column `n`, times a [256, 256] weight matrix. -/
def scaledDense256 (x : FVec F S50000x256 .f32) (n : FVec F S50000x1 .f32) (w : FVec F S256x256 .f32) :
    FVec F S50000x256 .f32 :=
  Host.dotGeneral dot_S50000x256_S256x256_S50000x256_1_0_0_1_n_n none
    (mulf x (broadcastInDim S50000x256 ![0, 1] bcast_S50000x1_S50000x256_0_1 n)) w

/-- Rows of `x` scaled by the column `n`, times a [256, 128] weight matrix. -/
def scaledDense128 (x : FVec F S50000x256 .f32) (n : FVec F S50000x1 .f32) (w : FVec F S256x128 .f32) :
    FVec F S50000x128 .f32 :=
  Host.dotGeneral dot_S50000x256_S256x128_S50000x128_1_0_0_1_n_n none
    (mulf x (broadcastInDim S50000x256 ![0, 1] bcast_S50000x1_S50000x256_0_1 n)) w

end Cert.Rgcn

end
-- ==== Proof.LaunchesAsOperations.lean ====
/-
  Each kernel launch, seen from the host program, is one whole-array operation per output.

  A launch leaves its input arrays and every buffer it does not stage as it found them, and leaves each output
  array at the scaled dense product of three of its inputs (rows of the feature matrix scaled by a
  normalisation column, times a weight matrix).  So the buffer contents at a launch's exit are its entry
  contents with one pure operation per output applied, exactly as a host operation would have written them.
  Stated here for the six launches, each under the hypothesis that its output arrays are those products
  (that is proved from the row blocks in the modules of the single launches).
-/
import proofs.«125347_j26173530702075_2_alg».proof.Proof.ScaledDense
import proofs.«125347_j26173530702075_2_alg».proof.Proof.Gen.KernelIdeal.Frame
import Idealize.ShloMosaic.PureOps.Ideal
import Idealize.ShloMosaic.Lib.StableHlo.Run
import Idealize.ShloMosaic.Lib.Pipeline.FrameSuffix

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Idealize.ShloMosaic.Pipeline (Dat)

/-- Replacing a pipeline's arrays by given contents is the same valuation as applying a line of operations, when
    the line leaves exactly those contents at the arrays and touches nothing else. -/
theorem withArrays_eq_after {nD : Nat} {τ : Topo} {sig : RefSig} {Val : EltTy → Type} {gr W : Nat}
    (win : Fin W → Pipeline.WinSpec sig gr) (hinj : Function.Injective (Pipeline.arrRef win))
    (c : Dev nD) (V : Valuation τ sig Val) (A : (w : Fin W) → Buf Val ((win w).arr.view.loc (c.tc : Thread nD τ)))
    (ops : List (HloOp τ sig Val))
    (harr : ∀ w, A w = StableHlo.after ops V (Proc.devRef .tc (Pipeline.arrRef win w)))
    (hrest : ∀ b, (∀ w, Proc.devRef .tc (Pipeline.arrRef win w) ≠ b) → StableHlo.after ops V b = V b) :
    Pipeline.withArrays win c V A = StableHlo.after ops V := by
  funext b
  by_cases h : ∃ w, Proc.devRef .tc (Pipeline.arrRef win w) = b
  · obtain ⟨w, rfl⟩ := h
    rw [Pipeline.withArrays_arr win hinj]
    exact harr w
  · unfold Pipeline.withArrays
    rw [dif_neg h]
    exact (hrest b fun w e => h ⟨w, e⟩).symm

variable (m : (ℓ : Loc nD τ sig) → Buf (Elt Ideal) ℓ) (ρ : Dev nD → PrngReg)

/-- Launch 0 as one operation on whole arrays: the output takes the scaled dense product of the three inputs. -/
def launchOps0 : List (HloOp τ sig (Elt Ideal)) :=
  [StableHlo.ternary main_arg1 main_v39 main_arg8 main_v40 ((fun x n w => Cert.Rgcn.scaledDense256 (F := Ideal) x n w) : (⟨S50000x256, .f32⟩ : BufTy).Contents (Elt Ideal) → (⟨S50000x1, .f32⟩ : BufTy).Contents (Elt Ideal) → (⟨S256x256, .f32⟩ : BufTy).Contents (Elt Ideal) → (⟨S50000x256, .f32⟩ : BufTy).Contents (Elt Ideal))]

/-- After that operation the output buffer holds the product of the three input buffers' contents. -/
theorem launchOps0_out (V : Valuation τ sig (Elt Ideal)) :
    StableHlo.after launchOps0 V (Proc.devRef .tc main_v40)
      = Cert.Rgcn.scaledDense256 (F := Ideal) (V (Proc.devRef .tc main_arg1)) (V (Proc.devRef .tc main_v39)) (V (Proc.devRef .tc main_arg8)) := by
  unfold launchOps0; after_results

/-- Every other buffer is as before. -/
theorem launchOps0_ne (V : Valuation τ sig (Elt Ideal)) (b : DevRef τ sig) (hb : b ≠ Proc.devRef .tc main_v40) :
    StableHlo.after launchOps0 V b = V b := by
  refine StableHlo.after_of_forall_not_mem _ _ fun op hop => ?_
  unfold launchOps0 at hop
  rw [List.mem_singleton] at hop
  subst hop
  rw [StableHlo.ternary_writes, Finset.mem_singleton]
  exact hb

set_option maxHeartbeats 4000000 in
/-- The contents at launch 0's exit are its entry contents with that one operation applied: the output array is
    the scaled dense product (the hypothesis, proved from the row blocks elsewhere), the three input arrays and
    every other buffer are as entered. -/
theorem exit0_eq
    (harr : ∀ (V : (c : Dev nD) → (b : Ref sig .tc) → Buf (Elt Ideal) ((c : Thread nD τ).loc b)) (c : Dev nD),
      (dat0 (F := Ideal) V c).arrAt 3 cfg0.N
        = Cert.Rgcn.scaledDense256 (F := Ideal) (V c (Pipeline.arrRef spec0 0)) (V c (Pipeline.arrRef spec0 1)) (V c (Pipeline.arrRef spec0 2)))
    (c : Dev nD) : W2 m ρ c = StableHlo.after launchOps0 (W1 m ρ c) := by
  unfold W2
  refine withArrays_eq_after spec0 launch0.win.arr_inj c _ _ _ (fun w => ?_) (fun b hb => ?_)
  · match w with
    | ⟨0, _⟩ => exact (((dat0 (V1 m ρ) c).arrAt_in 0 rfl _).trans (A_eq0 (V1 m ρ) c 0)).trans (launchOps0_ne (W1 m ρ c) _ (StableHlo.devRef_ne_of_ne (by decide))).symm
    | ⟨1, _⟩ => exact (((dat0 (V1 m ρ) c).arrAt_in 1 rfl _).trans (A_eq0 (V1 m ρ) c 1)).trans (launchOps0_ne (W1 m ρ c) _ (StableHlo.devRef_ne_of_ne (by decide))).symm
    | ⟨2, _⟩ => exact (((dat0 (V1 m ρ) c).arrAt_in 2 rfl _).trans (A_eq0 (V1 m ρ) c 2)).trans (launchOps0_ne (W1 m ρ c) _ (StableHlo.devRef_ne_of_ne (by decide))).symm
    | ⟨3, _⟩ => exact (harr (V1 m ρ) c).trans (launchOps0_out (W1 m ρ c)).symm
  · exact launchOps0_ne (W1 m ρ c) b fun e => hb 3 e.symm

/-- Launch 2 as one operation on whole arrays: the output takes the scaled dense product of the three inputs. -/
def launchOps2 : List (HloOp τ sig (Elt Ideal)) :=
  [StableHlo.ternary main_v94 main_v95 main_arg14 main_v96 ((fun x n w => Cert.Rgcn.scaledDense256 (F := Ideal) x n w) : (⟨S50000x256, .f32⟩ : BufTy).Contents (Elt Ideal) → (⟨S50000x1, .f32⟩ : BufTy).Contents (Elt Ideal) → (⟨S256x256, .f32⟩ : BufTy).Contents (Elt Ideal) → (⟨S50000x256, .f32⟩ : BufTy).Contents (Elt Ideal))]

/-- After that operation the output buffer holds the product of the three input buffers' contents. -/
theorem launchOps2_out (V : Valuation τ sig (Elt Ideal)) :
    StableHlo.after launchOps2 V (Proc.devRef .tc main_v96)
      = Cert.Rgcn.scaledDense256 (F := Ideal) (V (Proc.devRef .tc main_v94)) (V (Proc.devRef .tc main_v95)) (V (Proc.devRef .tc main_arg14)) := by
  unfold launchOps2; after_results

/-- Every other buffer is as before. -/
theorem launchOps2_ne (V : Valuation τ sig (Elt Ideal)) (b : DevRef τ sig) (hb : b ≠ Proc.devRef .tc main_v96) :
    StableHlo.after launchOps2 V b = V b := by
  refine StableHlo.after_of_forall_not_mem _ _ fun op hop => ?_
  unfold launchOps2 at hop
  rw [List.mem_singleton] at hop
  subst hop
  rw [StableHlo.ternary_writes, Finset.mem_singleton]
  exact hb

set_option maxHeartbeats 4000000 in
/-- The contents at launch 2's exit are its entry contents with that one operation applied: the output array is
    the scaled dense product (the hypothesis, proved from the row blocks elsewhere), the three input arrays and
    every other buffer are as entered. -/
theorem exit2_eq
    (harr : ∀ (V : (c : Dev nD) → (b : Ref sig .tc) → Buf (Elt Ideal) ((c : Thread nD τ).loc b)) (c : Dev nD),
      (dat2 (F := Ideal) V c).arrAt 3 cfg2.N
        = Cert.Rgcn.scaledDense256 (F := Ideal) (V c (Pipeline.arrRef spec2 0)) (V c (Pipeline.arrRef spec2 1)) (V c (Pipeline.arrRef spec2 2)))
    (c : Dev nD) : W9 m ρ c = StableHlo.after launchOps2 (W8 m ρ c) := by
  unfold W9
  refine withArrays_eq_after spec2 launch2.win.arr_inj c _ _ _ (fun w => ?_) (fun b hb => ?_)
  · match w with
    | ⟨0, _⟩ => exact (((dat2 (V8 m ρ) c).arrAt_in 0 rfl _).trans (A_eq2 (V8 m ρ) c 0)).trans (launchOps2_ne (W8 m ρ c) _ (StableHlo.devRef_ne_of_ne (by decide))).symm
    | ⟨1, _⟩ => exact (((dat2 (V8 m ρ) c).arrAt_in 1 rfl _).trans (A_eq2 (V8 m ρ) c 1)).trans (launchOps2_ne (W8 m ρ c) _ (StableHlo.devRef_ne_of_ne (by decide))).symm
    | ⟨2, _⟩ => exact (((dat2 (V8 m ρ) c).arrAt_in 2 rfl _).trans (A_eq2 (V8 m ρ) c 2)).trans (launchOps2_ne (W8 m ρ c) _ (StableHlo.devRef_ne_of_ne (by decide))).symm
    | ⟨3, _⟩ => exact (harr (V8 m ρ) c).trans (launchOps2_out (W8 m ρ c)).symm
  · exact launchOps2_ne (W8 m ρ c) b fun e => hb 3 e.symm

/-- Launch 4 as one operation on whole arrays: the output takes the scaled dense product of the three inputs. -/
def launchOps4 : List (HloOp τ sig (Elt Ideal)) :=
  [StableHlo.ternary main_v150 main_v151 main_arg20 main_v152 ((fun x n w => Cert.Rgcn.scaledDense128 (F := Ideal) x n w) : (⟨S50000x256, .f32⟩ : BufTy).Contents (Elt Ideal) → (⟨S50000x1, .f32⟩ : BufTy).Contents (Elt Ideal) → (⟨S256x128, .f32⟩ : BufTy).Contents (Elt Ideal) → (⟨S50000x128, .f32⟩ : BufTy).Contents (Elt Ideal))]

/-- After that operation the output buffer holds the product of the three input buffers' contents. -/
theorem launchOps4_out (V : Valuation τ sig (Elt Ideal)) :
    StableHlo.after launchOps4 V (Proc.devRef .tc main_v152)
      = Cert.Rgcn.scaledDense128 (F := Ideal) (V (Proc.devRef .tc main_v150)) (V (Proc.devRef .tc main_v151)) (V (Proc.devRef .tc main_arg20)) := by
  unfold launchOps4; after_results

/-- Every other buffer is as before. -/
theorem launchOps4_ne (V : Valuation τ sig (Elt Ideal)) (b : DevRef τ sig) (hb : b ≠ Proc.devRef .tc main_v152) :
    StableHlo.after launchOps4 V b = V b := by
  refine StableHlo.after_of_forall_not_mem _ _ fun op hop => ?_
  unfold launchOps4 at hop
  rw [List.mem_singleton] at hop
  subst hop
  rw [StableHlo.ternary_writes, Finset.mem_singleton]
  exact hb

set_option maxHeartbeats 4000000 in
/-- The contents at launch 4's exit are its entry contents with that one operation applied: the output array is
    the scaled dense product (the hypothesis, proved from the row blocks elsewhere), the three input arrays and
    every other buffer are as entered. -/
theorem exit4_eq
    (harr : ∀ (V : (c : Dev nD) → (b : Ref sig .tc) → Buf (Elt Ideal) ((c : Thread nD τ).loc b)) (c : Dev nD),
      (dat4 (F := Ideal) V c).arrAt 3 cfg4.N
        = Cert.Rgcn.scaledDense128 (F := Ideal) (V c (Pipeline.arrRef spec4 0)) (V c (Pipeline.arrRef spec4 1)) (V c (Pipeline.arrRef spec4 2)))
    (c : Dev nD) : W16 m ρ c = StableHlo.after launchOps4 (W15 m ρ c) := by
  unfold W16
  refine withArrays_eq_after spec4 launch4.win.arr_inj c _ _ _ (fun w => ?_) (fun b hb => ?_)
  · match w with
    | ⟨0, _⟩ => exact (((dat4 (V15 m ρ) c).arrAt_in 0 rfl _).trans (A_eq4 (V15 m ρ) c 0)).trans (launchOps4_ne (W15 m ρ c) _ (StableHlo.devRef_ne_of_ne (by decide))).symm
    | ⟨1, _⟩ => exact (((dat4 (V15 m ρ) c).arrAt_in 1 rfl _).trans (A_eq4 (V15 m ρ) c 1)).trans (launchOps4_ne (W15 m ρ c) _ (StableHlo.devRef_ne_of_ne (by decide))).symm
    | ⟨2, _⟩ => exact (((dat4 (V15 m ρ) c).arrAt_in 2 rfl _).trans (A_eq4 (V15 m ρ) c 2)).trans (launchOps4_ne (W15 m ρ c) _ (StableHlo.devRef_ne_of_ne (by decide))).symm
    | ⟨3, _⟩ => exact (harr (V15 m ρ) c).trans (launchOps4_out (W15 m ρ c)).symm
  · exact launchOps4_ne (W15 m ρ c) b fun e => hb 3 e.symm

/-- Launch 1 as two operations on whole arrays: each output takes the scaled dense product of the shared
    feature matrix with its own normalisation column and weight matrix. -/
def launchOps1 : List (HloOp τ sig (Elt Ideal)) :=
  [StableHlo.ternary main_arg0 main_v57 main_arg12 main_v59_0 ((fun x n w => Cert.Rgcn.scaledDense256 (F := Ideal) x n w) : (⟨S50000x256, .f32⟩ : BufTy).Contents (Elt Ideal) → (⟨S50000x1, .f32⟩ : BufTy).Contents (Elt Ideal) → (⟨S256x256, .f32⟩ : BufTy).Contents (Elt Ideal) → (⟨S50000x256, .f32⟩ : BufTy).Contents (Elt Ideal)),
   StableHlo.ternary main_arg0 main_v58 main_arg10 main_v59_1 ((fun x n w => Cert.Rgcn.scaledDense256 (F := Ideal) x n w) : (⟨S50000x256, .f32⟩ : BufTy).Contents (Elt Ideal) → (⟨S50000x1, .f32⟩ : BufTy).Contents (Elt Ideal) → (⟨S256x256, .f32⟩ : BufTy).Contents (Elt Ideal) → (⟨S50000x256, .f32⟩ : BufTy).Contents (Elt Ideal))]

/-- After the two operations the first output buffer holds the product of its three input buffers' contents. -/
theorem launchOps1_out5 (V : Valuation τ sig (Elt Ideal)) :
    StableHlo.after launchOps1 V (Proc.devRef .tc main_v59_0)
      = Cert.Rgcn.scaledDense256 (F := Ideal) (V (Proc.devRef .tc main_arg0)) (V (Proc.devRef .tc main_v57)) (V (Proc.devRef .tc main_arg12)) := by
  unfold launchOps1; after_results

/-- And the second output buffer that of its own three (the first operation wrote none of them). -/
theorem launchOps1_out6 (V : Valuation τ sig (Elt Ideal)) :
    StableHlo.after launchOps1 V (Proc.devRef .tc main_v59_1)
      = Cert.Rgcn.scaledDense256 (F := Ideal) (V (Proc.devRef .tc main_arg0)) (V (Proc.devRef .tc main_v58)) (V (Proc.devRef .tc main_arg10)) := by
  unfold launchOps1; after_results

/-- Every other buffer is as before. -/
theorem launchOps1_ne (V : Valuation τ sig (Elt Ideal)) (b : DevRef τ sig) (hb5 : b ≠ Proc.devRef .tc main_v59_0) (hb6 : b ≠ Proc.devRef .tc main_v59_1) :
    StableHlo.after launchOps1 V b = V b := by
  refine StableHlo.after_of_forall_not_mem _ _ fun op hop => ?_
  unfold launchOps1 at hop
  rw [List.mem_cons, List.mem_singleton] at hop
  rcases hop with rfl | rfl
  · rw [StableHlo.ternary_writes, Finset.mem_singleton]; exact hb5
  · rw [StableHlo.ternary_writes, Finset.mem_singleton]; exact hb6

set_option maxHeartbeats 4000000 in
/-- The contents at launch 1's exit are its entry contents with those two operations applied: the two output
    arrays are the scaled dense products (the hypotheses), the five input arrays and every other buffer are as entered. -/
theorem exit1_eq
    (harr5 : ∀ (V : (c : Dev nD) → (b : Ref sig .tc) → Buf (Elt Ideal) ((c : Thread nD τ).loc b)) (c : Dev nD),
      (dat1 (F := Ideal) V c).arrAt 5 cfg1.N
        = Cert.Rgcn.scaledDense256 (F := Ideal) (V c (Pipeline.arrRef spec1 0)) (V c (Pipeline.arrRef spec1 1)) (V c (Pipeline.arrRef spec1 3)))
    (harr6 : ∀ (V : (c : Dev nD) → (b : Ref sig .tc) → Buf (Elt Ideal) ((c : Thread nD τ).loc b)) (c : Dev nD),
      (dat1 (F := Ideal) V c).arrAt 6 cfg1.N
        = Cert.Rgcn.scaledDense256 (F := Ideal) (V c (Pipeline.arrRef spec1 0)) (V c (Pipeline.arrRef spec1 2)) (V c (Pipeline.arrRef spec1 4)))
    (c : Dev nD) : W4 m ρ c = StableHlo.after launchOps1 (W3 m ρ c) := by
  unfold W4
  refine withArrays_eq_after spec1 launch1.win.arr_inj c _ _ _ (fun w => ?_) (fun b hb => ?_)
  · match w with
    | ⟨0, _⟩ => exact (((dat1 (V3 m ρ) c).arrAt_in 0 rfl _).trans (A_eq1 (V3 m ρ) c 0)).trans (launchOps1_ne (W3 m ρ c) _ (StableHlo.devRef_ne_of_ne (by decide)) (StableHlo.devRef_ne_of_ne (by decide))).symm
    | ⟨1, _⟩ => exact (((dat1 (V3 m ρ) c).arrAt_in 1 rfl _).trans (A_eq1 (V3 m ρ) c 1)).trans (launchOps1_ne (W3 m ρ c) _ (StableHlo.devRef_ne_of_ne (by decide)) (StableHlo.devRef_ne_of_ne (by decide))).symm
    | ⟨2, _⟩ => exact (((dat1 (V3 m ρ) c).arrAt_in 2 rfl _).trans (A_eq1 (V3 m ρ) c 2)).trans (launchOps1_ne (W3 m ρ c) _ (StableHlo.devRef_ne_of_ne (by decide)) (StableHlo.devRef_ne_of_ne (by decide))).symm
    | ⟨3, _⟩ => exact (((dat1 (V3 m ρ) c).arrAt_in 3 rfl _).trans (A_eq1 (V3 m ρ) c 3)).trans (launchOps1_ne (W3 m ρ c) _ (StableHlo.devRef_ne_of_ne (by decide)) (StableHlo.devRef_ne_of_ne (by decide))).symm
    | ⟨4, _⟩ => exact (((dat1 (V3 m ρ) c).arrAt_in 4 rfl _).trans (A_eq1 (V3 m ρ) c 4)).trans (launchOps1_ne (W3 m ρ c) _ (StableHlo.devRef_ne_of_ne (by decide)) (StableHlo.devRef_ne_of_ne (by decide))).symm
    | ⟨5, _⟩ => exact (harr5 (V3 m ρ) c).trans (launchOps1_out5 (W3 m ρ c)).symm
    | ⟨6, _⟩ => exact (harr6 (V3 m ρ) c).trans (launchOps1_out6 (W3 m ρ c)).symm
  · exact launchOps1_ne (W3 m ρ c) b (fun e => hb 5 e.symm) (fun e => hb 6 e.symm)

/-- Launch 3 as two operations on whole arrays: each output takes the scaled dense product of the shared
    feature matrix with its own normalisation column and weight matrix. -/
def launchOps3 : List (HloOp τ sig (Elt Ideal)) :=
  [StableHlo.ternary main_v93 main_v113 main_arg18 main_v115_0 ((fun x n w => Cert.Rgcn.scaledDense256 (F := Ideal) x n w) : (⟨S50000x256, .f32⟩ : BufTy).Contents (Elt Ideal) → (⟨S50000x1, .f32⟩ : BufTy).Contents (Elt Ideal) → (⟨S256x256, .f32⟩ : BufTy).Contents (Elt Ideal) → (⟨S50000x256, .f32⟩ : BufTy).Contents (Elt Ideal)),
   StableHlo.ternary main_v93 main_v114 main_arg16 main_v115_1 ((fun x n w => Cert.Rgcn.scaledDense256 (F := Ideal) x n w) : (⟨S50000x256, .f32⟩ : BufTy).Contents (Elt Ideal) → (⟨S50000x1, .f32⟩ : BufTy).Contents (Elt Ideal) → (⟨S256x256, .f32⟩ : BufTy).Contents (Elt Ideal) → (⟨S50000x256, .f32⟩ : BufTy).Contents (Elt Ideal))]

/-- After the two operations the first output buffer holds the product of its three input buffers' contents. -/
theorem launchOps3_out5 (V : Valuation τ sig (Elt Ideal)) :
    StableHlo.after launchOps3 V (Proc.devRef .tc main_v115_0)
      = Cert.Rgcn.scaledDense256 (F := Ideal) (V (Proc.devRef .tc main_v93)) (V (Proc.devRef .tc main_v113)) (V (Proc.devRef .tc main_arg18)) := by
  unfold launchOps3; after_results

/-- And the second output buffer that of its own three (the first operation wrote none of them). -/
theorem launchOps3_out6 (V : Valuation τ sig (Elt Ideal)) :
    StableHlo.after launchOps3 V (Proc.devRef .tc main_v115_1)
      = Cert.Rgcn.scaledDense256 (F := Ideal) (V (Proc.devRef .tc main_v93)) (V (Proc.devRef .tc main_v114)) (V (Proc.devRef .tc main_arg16)) := by
  unfold launchOps3; after_results

/-- Every other buffer is as before. -/
theorem launchOps3_ne (V : Valuation τ sig (Elt Ideal)) (b : DevRef τ sig) (hb5 : b ≠ Proc.devRef .tc main_v115_0) (hb6 : b ≠ Proc.devRef .tc main_v115_1) :
    StableHlo.after launchOps3 V b = V b := by
  refine StableHlo.after_of_forall_not_mem _ _ fun op hop => ?_
  unfold launchOps3 at hop
  rw [List.mem_cons, List.mem_singleton] at hop
  rcases hop with rfl | rfl
  · rw [StableHlo.ternary_writes, Finset.mem_singleton]; exact hb5
  · rw [StableHlo.ternary_writes, Finset.mem_singleton]; exact hb6

set_option maxHeartbeats 4000000 in
/-- The contents at launch 3's exit are its entry contents with those two operations applied: the two output
    arrays are the scaled dense products (the hypotheses), the five input arrays and every other buffer are as entered. -/
theorem exit3_eq
    (harr5 : ∀ (V : (c : Dev nD) → (b : Ref sig .tc) → Buf (Elt Ideal) ((c : Thread nD τ).loc b)) (c : Dev nD),
      (dat3 (F := Ideal) V c).arrAt 5 cfg3.N
        = Cert.Rgcn.scaledDense256 (F := Ideal) (V c (Pipeline.arrRef spec3 0)) (V c (Pipeline.arrRef spec3 1)) (V c (Pipeline.arrRef spec3 3)))
    (harr6 : ∀ (V : (c : Dev nD) → (b : Ref sig .tc) → Buf (Elt Ideal) ((c : Thread nD τ).loc b)) (c : Dev nD),
      (dat3 (F := Ideal) V c).arrAt 6 cfg3.N
        = Cert.Rgcn.scaledDense256 (F := Ideal) (V c (Pipeline.arrRef spec3 0)) (V c (Pipeline.arrRef spec3 2)) (V c (Pipeline.arrRef spec3 4)))
    (c : Dev nD) : W11 m ρ c = StableHlo.after launchOps3 (W10 m ρ c) := by
  unfold W11
  refine withArrays_eq_after spec3 launch3.win.arr_inj c _ _ _ (fun w => ?_) (fun b hb => ?_)
  · match w with
    | ⟨0, _⟩ => exact (((dat3 (V10 m ρ) c).arrAt_in 0 rfl _).trans (A_eq3 (V10 m ρ) c 0)).trans (launchOps3_ne (W10 m ρ c) _ (StableHlo.devRef_ne_of_ne (by decide)) (StableHlo.devRef_ne_of_ne (by decide))).symm
    | ⟨1, _⟩ => exact (((dat3 (V10 m ρ) c).arrAt_in 1 rfl _).trans (A_eq3 (V10 m ρ) c 1)).trans (launchOps3_ne (W10 m ρ c) _ (StableHlo.devRef_ne_of_ne (by decide)) (StableHlo.devRef_ne_of_ne (by decide))).symm
    | ⟨2, _⟩ => exact (((dat3 (V10 m ρ) c).arrAt_in 2 rfl _).trans (A_eq3 (V10 m ρ) c 2)).trans (launchOps3_ne (W10 m ρ c) _ (StableHlo.devRef_ne_of_ne (by decide)) (StableHlo.devRef_ne_of_ne (by decide))).symm
    | ⟨3, _⟩ => exact (((dat3 (V10 m ρ) c).arrAt_in 3 rfl _).trans (A_eq3 (V10 m ρ) c 3)).trans (launchOps3_ne (W10 m ρ c) _ (StableHlo.devRef_ne_of_ne (by decide)) (StableHlo.devRef_ne_of_ne (by decide))).symm
    | ⟨4, _⟩ => exact (((dat3 (V10 m ρ) c).arrAt_in 4 rfl _).trans (A_eq3 (V10 m ρ) c 4)).trans (launchOps3_ne (W10 m ρ c) _ (StableHlo.devRef_ne_of_ne (by decide)) (StableHlo.devRef_ne_of_ne (by decide))).symm
    | ⟨5, _⟩ => exact (harr5 (V10 m ρ) c).trans (launchOps3_out5 (W10 m ρ c)).symm
    | ⟨6, _⟩ => exact (harr6 (V10 m ρ) c).trans (launchOps3_out6 (W10 m ρ c)).symm
  · exact launchOps3_ne (W10 m ρ c) b (fun e => hb 5 e.symm) (fun e => hb 6 e.symm)

/-- Launch 5 as two operations on whole arrays: each output takes the scaled dense product of the shared
    feature matrix with its own normalisation column and weight matrix. -/
def launchOps5 : List (HloOp τ sig (Elt Ideal)) :=
  [StableHlo.ternary main_v149 main_v169 main_arg24 main_v171_0 ((fun x n w => Cert.Rgcn.scaledDense128 (F := Ideal) x n w) : (⟨S50000x256, .f32⟩ : BufTy).Contents (Elt Ideal) → (⟨S50000x1, .f32⟩ : BufTy).Contents (Elt Ideal) → (⟨S256x128, .f32⟩ : BufTy).Contents (Elt Ideal) → (⟨S50000x128, .f32⟩ : BufTy).Contents (Elt Ideal)),
   StableHlo.ternary main_v149 main_v170 main_arg22 main_v171_1 ((fun x n w => Cert.Rgcn.scaledDense128 (F := Ideal) x n w) : (⟨S50000x256, .f32⟩ : BufTy).Contents (Elt Ideal) → (⟨S50000x1, .f32⟩ : BufTy).Contents (Elt Ideal) → (⟨S256x128, .f32⟩ : BufTy).Contents (Elt Ideal) → (⟨S50000x128, .f32⟩ : BufTy).Contents (Elt Ideal))]

/-- After the two operations the first output buffer holds the product of its three input buffers' contents. -/
theorem launchOps5_out5 (V : Valuation τ sig (Elt Ideal)) :
    StableHlo.after launchOps5 V (Proc.devRef .tc main_v171_0)
      = Cert.Rgcn.scaledDense128 (F := Ideal) (V (Proc.devRef .tc main_v149)) (V (Proc.devRef .tc main_v169)) (V (Proc.devRef .tc main_arg24)) := by
  unfold launchOps5; after_results

/-- And the second output buffer that of its own three (the first operation wrote none of them). -/
theorem launchOps5_out6 (V : Valuation τ sig (Elt Ideal)) :
    StableHlo.after launchOps5 V (Proc.devRef .tc main_v171_1)
      = Cert.Rgcn.scaledDense128 (F := Ideal) (V (Proc.devRef .tc main_v149)) (V (Proc.devRef .tc main_v170)) (V (Proc.devRef .tc main_arg22)) := by
  unfold launchOps5; after_results

/-- Every other buffer is as before. -/
theorem launchOps5_ne (V : Valuation τ sig (Elt Ideal)) (b : DevRef τ sig) (hb5 : b ≠ Proc.devRef .tc main_v171_0) (hb6 : b ≠ Proc.devRef .tc main_v171_1) :
    StableHlo.after launchOps5 V b = V b := by
  refine StableHlo.after_of_forall_not_mem _ _ fun op hop => ?_
  unfold launchOps5 at hop
  rw [List.mem_cons, List.mem_singleton] at hop
  rcases hop with rfl | rfl
  · rw [StableHlo.ternary_writes, Finset.mem_singleton]; exact hb5
  · rw [StableHlo.ternary_writes, Finset.mem_singleton]; exact hb6

set_option maxHeartbeats 4000000 in
/-- The contents at launch 5's exit are its entry contents with those two operations applied: the two output
    arrays are the scaled dense products (the hypotheses), the five input arrays and every other buffer are as entered. -/
theorem exit5_eq
    (harr5 : ∀ (V : (c : Dev nD) → (b : Ref sig .tc) → Buf (Elt Ideal) ((c : Thread nD τ).loc b)) (c : Dev nD),
      (dat5 (F := Ideal) V c).arrAt 5 cfg5.N
        = Cert.Rgcn.scaledDense128 (F := Ideal) (V c (Pipeline.arrRef spec5 0)) (V c (Pipeline.arrRef spec5 1)) (V c (Pipeline.arrRef spec5 3)))
    (harr6 : ∀ (V : (c : Dev nD) → (b : Ref sig .tc) → Buf (Elt Ideal) ((c : Thread nD τ).loc b)) (c : Dev nD),
      (dat5 (F := Ideal) V c).arrAt 6 cfg5.N
        = Cert.Rgcn.scaledDense128 (F := Ideal) (V c (Pipeline.arrRef spec5 0)) (V c (Pipeline.arrRef spec5 2)) (V c (Pipeline.arrRef spec5 4)))
    (c : Dev nD) : W18 m ρ c = StableHlo.after launchOps5 (W17 m ρ c) := by
  unfold W18
  refine withArrays_eq_after spec5 launch5.win.arr_inj c _ _ _ (fun w => ?_) (fun b hb => ?_)
  · match w with
    | ⟨0, _⟩ => exact (((dat5 (V17 m ρ) c).arrAt_in 0 rfl _).trans (A_eq5 (V17 m ρ) c 0)).trans (launchOps5_ne (W17 m ρ c) _ (StableHlo.devRef_ne_of_ne (by decide)) (StableHlo.devRef_ne_of_ne (by decide))).symm
    | ⟨1, _⟩ => exact (((dat5 (V17 m ρ) c).arrAt_in 1 rfl _).trans (A_eq5 (V17 m ρ) c 1)).trans (launchOps5_ne (W17 m ρ c) _ (StableHlo.devRef_ne_of_ne (by decide)) (StableHlo.devRef_ne_of_ne (by decide))).symm
    | ⟨2, _⟩ => exact (((dat5 (V17 m ρ) c).arrAt_in 2 rfl _).trans (A_eq5 (V17 m ρ) c 2)).trans (launchOps5_ne (W17 m ρ c) _ (StableHlo.devRef_ne_of_ne (by decide)) (StableHlo.devRef_ne_of_ne (by decide))).symm
    | ⟨3, _⟩ => exact (((dat5 (V17 m ρ) c).arrAt_in 3 rfl _).trans (A_eq5 (V17 m ρ) c 3)).trans (launchOps5_ne (W17 m ρ c) _ (StableHlo.devRef_ne_of_ne (by decide)) (StableHlo.devRef_ne_of_ne (by decide))).symm
    | ⟨4, _⟩ => exact (((dat5 (V17 m ρ) c).arrAt_in 4 rfl _).trans (A_eq5 (V17 m ρ) c 4)).trans (launchOps5_ne (W17 m ρ c) _ (StableHlo.devRef_ne_of_ne (by decide)) (StableHlo.devRef_ne_of_ne (by decide))).symm
    | ⟨5, _⟩ => exact (harr5 (V17 m ρ) c).trans (launchOps5_out5 (W17 m ρ c)).symm
    | ⟨6, _⟩ => exact (harr6 (V17 m ρ) c).trans (launchOps5_out6 (W17 m ρ c)).symm
  · exact launchOps5_ne (W17 m ρ c) b (fun e => hb 5 e.symm) (fun e => hb 6 e.symm)

end Cert.KernelIdeal.Fold

end
-- ==== Proof.FoldAsOneLine.lean ====
/-
  The whole idealised kernel program as ONE line of pure operations.

  With every launch read as one operation per output array, the nineteen boundaries of the program's fold
  collapse: the last valuation is the launch memory with the host stretches' operations and the launches'
  operations applied in program order.  From there each result buffer is read like that of a host program.
-/
import proofs.«125347_j26173530702075_2_alg».proof.Proof.LaunchesAsOperations
import Idealize.ShloMosaic.Lib.Pipeline.Frame

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

set_option maxHeartbeats 8000000 in
/-- What the six launches leave in their nine output arrays, for any entry contents: the scaled dense products. -/
structure LaunchArrays : Prop where
  /-- launch 0's output array -/
  a0 : ∀ (V : (c : Dev nD) → (b : Ref sig .tc) → Buf (Elt Ideal) ((c : Thread nD τ).loc b)) (c : Dev nD), (dat0 (F := Ideal) V c).arrAt 3 cfg0.N
      = Cert.Rgcn.scaledDense256 (F := Ideal) (V c (Pipeline.arrRef spec0 0)) (V c (Pipeline.arrRef spec0 1)) (V c (Pipeline.arrRef spec0 2))
  /-- launch 1's first output array -/
  a1_5 : ∀ (V : (c : Dev nD) → (b : Ref sig .tc) → Buf (Elt Ideal) ((c : Thread nD τ).loc b)) (c : Dev nD), (dat1 (F := Ideal) V c).arrAt 5 cfg1.N
      = Cert.Rgcn.scaledDense256 (F := Ideal) (V c (Pipeline.arrRef spec1 0)) (V c (Pipeline.arrRef spec1 1)) (V c (Pipeline.arrRef spec1 3))
  /-- launch 1's second output array -/
  a1_6 : ∀ (V : (c : Dev nD) → (b : Ref sig .tc) → Buf (Elt Ideal) ((c : Thread nD τ).loc b)) (c : Dev nD), (dat1 (F := Ideal) V c).arrAt 6 cfg1.N
      = Cert.Rgcn.scaledDense256 (F := Ideal) (V c (Pipeline.arrRef spec1 0)) (V c (Pipeline.arrRef spec1 2)) (V c (Pipeline.arrRef spec1 4))
  /-- launch 2's output array -/
  a2 : ∀ (V : (c : Dev nD) → (b : Ref sig .tc) → Buf (Elt Ideal) ((c : Thread nD τ).loc b)) (c : Dev nD), (dat2 (F := Ideal) V c).arrAt 3 cfg2.N
      = Cert.Rgcn.scaledDense256 (F := Ideal) (V c (Pipeline.arrRef spec2 0)) (V c (Pipeline.arrRef spec2 1)) (V c (Pipeline.arrRef spec2 2))
  /-- launch 3's first output array -/
  a3_5 : ∀ (V : (c : Dev nD) → (b : Ref sig .tc) → Buf (Elt Ideal) ((c : Thread nD τ).loc b)) (c : Dev nD), (dat3 (F := Ideal) V c).arrAt 5 cfg3.N
      = Cert.Rgcn.scaledDense256 (F := Ideal) (V c (Pipeline.arrRef spec3 0)) (V c (Pipeline.arrRef spec3 1)) (V c (Pipeline.arrRef spec3 3))
  /-- launch 3's second output array -/
  a3_6 : ∀ (V : (c : Dev nD) → (b : Ref sig .tc) → Buf (Elt Ideal) ((c : Thread nD τ).loc b)) (c : Dev nD), (dat3 (F := Ideal) V c).arrAt 6 cfg3.N
      = Cert.Rgcn.scaledDense256 (F := Ideal) (V c (Pipeline.arrRef spec3 0)) (V c (Pipeline.arrRef spec3 2)) (V c (Pipeline.arrRef spec3 4))
  /-- launch 4's output array -/
  a4 : ∀ (V : (c : Dev nD) → (b : Ref sig .tc) → Buf (Elt Ideal) ((c : Thread nD τ).loc b)) (c : Dev nD), (dat4 (F := Ideal) V c).arrAt 3 cfg4.N
      = Cert.Rgcn.scaledDense128 (F := Ideal) (V c (Pipeline.arrRef spec4 0)) (V c (Pipeline.arrRef spec4 1)) (V c (Pipeline.arrRef spec4 2))
  /-- launch 5's first output array -/
  a5_5 : ∀ (V : (c : Dev nD) → (b : Ref sig .tc) → Buf (Elt Ideal) ((c : Thread nD τ).loc b)) (c : Dev nD), (dat5 (F := Ideal) V c).arrAt 5 cfg5.N
      = Cert.Rgcn.scaledDense128 (F := Ideal) (V c (Pipeline.arrRef spec5 0)) (V c (Pipeline.arrRef spec5 1)) (V c (Pipeline.arrRef spec5 3))
  /-- launch 5's second output array -/
  a5_6 : ∀ (V : (c : Dev nD) → (b : Ref sig .tc) → Buf (Elt Ideal) ((c : Thread nD τ).loc b)) (c : Dev nD), (dat5 (F := Ideal) V c).arrAt 6 cfg5.N
      = Cert.Rgcn.scaledDense128 (F := Ideal) (V c (Pipeline.arrRef spec5 0)) (V c (Pipeline.arrRef spec5 2)) (V c (Pipeline.arrRef spec5 4))

/-- The program's operations in order, a launch standing as its one or two whole-array operations. -/
def line : List (HloOp τ sig (Elt Ideal)) :=
  hostOps0 ++ (launchOps0 ++ (hostOps1 ++ (launchOps1 ++ (hostOps2 ++ (hostOps2_1 ++ (hostOps2_2 ++ (hostOps2_3 ++ (launchOps2 ++
  (hostOps3 ++ (launchOps3 ++ (hostOps4 ++ (hostOps4_1 ++ (hostOps4_2 ++ (hostOps4_3 ++ (launchOps4 ++ (hostOps5 ++ (launchOps5 ++
  hostOps6)))))))))))))))))

variable (m : (ℓ : Loc nD τ sig) → Buf (Elt Ideal) ℓ) (ρ : Dev nD → PrngReg)

set_option maxHeartbeats 8000000 in
/-- The last boundary's contents are the launch memory after the whole line: boundary by boundary, a stretch is its
    operations applied and a launch's exit is its operations applied to its entry. -/
theorem last_eq (H : LaunchArrays) (c : Dev nD) : W19 m ρ c = StableHlo.after line (W0 m ρ c) := by
  unfold line
  simp only [StableHlo.after_append]
  show StableHlo.after hostOps6 (W18 m ρ c) = _
  rw [exit5_eq m ρ H.a5_5 H.a5_6 c]
  show StableHlo.after hostOps6 (StableHlo.after launchOps5 (StableHlo.after hostOps5 (W16 m ρ c))) = _
  rw [exit4_eq m ρ H.a4 c]
  show StableHlo.after hostOps6 (StableHlo.after launchOps5 (StableHlo.after hostOps5 (StableHlo.after launchOps4
    (StableHlo.after hostOps4_3 (StableHlo.after hostOps4_2 (StableHlo.after hostOps4_1 (StableHlo.after hostOps4 (W11 m ρ c)))))))) = _
  rw [exit3_eq m ρ H.a3_5 H.a3_6 c]
  show StableHlo.after hostOps6 (StableHlo.after launchOps5 (StableHlo.after hostOps5 (StableHlo.after launchOps4
    (StableHlo.after hostOps4_3 (StableHlo.after hostOps4_2 (StableHlo.after hostOps4_1 (StableHlo.after hostOps4
    (StableHlo.after launchOps3 (StableHlo.after hostOps3 (W9 m ρ c)))))))))) = _
  rw [exit2_eq m ρ H.a2 c]
  show StableHlo.after hostOps6 (StableHlo.after launchOps5 (StableHlo.after hostOps5 (StableHlo.after launchOps4
    (StableHlo.after hostOps4_3 (StableHlo.after hostOps4_2 (StableHlo.after hostOps4_1 (StableHlo.after hostOps4
    (StableHlo.after launchOps3 (StableHlo.after hostOps3 (StableHlo.after launchOps2 (StableHlo.after hostOps2_3
    (StableHlo.after hostOps2_2 (StableHlo.after hostOps2_1 (StableHlo.after hostOps2 (W4 m ρ c))))))))))))))) = _
  rw [exit1_eq m ρ H.a1_5 H.a1_6 c]
  show StableHlo.after hostOps6 (StableHlo.after launchOps5 (StableHlo.after hostOps5 (StableHlo.after launchOps4
    (StableHlo.after hostOps4_3 (StableHlo.after hostOps4_2 (StableHlo.after hostOps4_1 (StableHlo.after hostOps4
    (StableHlo.after launchOps3 (StableHlo.after hostOps3 (StableHlo.after launchOps2 (StableHlo.after hostOps2_3
    (StableHlo.after hostOps2_2 (StableHlo.after hostOps2_1 (StableHlo.after hostOps2 (StableHlo.after launchOps1
    (StableHlo.after hostOps1 (W2 m ρ c))))))))))))))))) = _
  rw [exit0_eq m ρ H.a0 c]

end Cert.KernelIdeal.Fold

end
-- ==== Proof.LibColumnLayout.lean ====
/-
  Column ("keepdims") layouts read at an index.

  A row-wise reduction of an [a, b] array leaves one number per row, a vector of shape [a].  To use it again against
  the [a, b] array it is first viewed as a column [a, 1] and the column is then repeated along its unit axis.  The two
  lemmas below say what those two steps read at an index written by its coordinates: the column at (i, u) is the
  vector at i, and the repeated column at (p, c) is the column at (p, u), whatever the column coordinate c is.  Both
  hold for any element type and any extents a and b.
-/
import Idealize.ShloMosaic.Lib.Pipeline.Value
import Idealize.ShloMosaic.Lib.ValueIdx

namespace Cert.Lib.ColumnLayout

open Idealize.ShloMosaic Idealize.ShloMosaic.ValueIdx

variable {α : Type}

/-- A vector of shape [a] cast to the column [a, 1] reads, at (i, u), the vector at i: the row-major position of
    (i, u) in [a, 1] is i · 1 + u, and u is 0. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] repeated along its unit axis to [a, b] reads, at (p, c), the column at (p, u): on the first axis
    the coordinate is kept (when a = 1 it is 0 on both sides), on the unit axis the operand's coordinate is 0. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Cert.Lib.ColumnLayout
-- ==== Proof.Results.lean ====
/-
  The two results of the idealised kernel program are the reference's.

  Read as one line of pure operations, the kernel program differs from the reference in two places only.  Where the
  reference multiplies the scaled feature matrix by the weights with one contraction, the kernel launches a row-tiled
  kernel, whose output array is that same contraction (the scaled dense product).  And where the reference views a
  normalisation vector as a column by repeating it along a new unit axis, the kernel reshapes it: both columns hold the
  vector's entry i at (i, 0).  The kernel computes the six degree normalisations once and the reference once per
  layer, which is the same term each time.  Everything else — clamping the degrees at one, the reciprocal square root,
  gathering the rows of the source nodes, adding them into the destination rows, scaling by the destination
  normalisation, adding the bias, the rectifier between layers — is the same operation on both sides.
-/
import proofs.«125347_j26173530702075_2_alg».proof.Proof.FoldAsOneLine
import proofs.«125347_j26173530702075_2_alg».proof.Proof.LibColumnLayout
import proofs.«125347_j26173530702075_2_alg».proof.Proof.ReferenceRun
import Idealize.ShloMosaic.Lib.Pipeline.Value
import Idealize.ShloMosaic.Lib.ValueIdx

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo Idealize.ShloMosaic.ValueIdx

/-- A vector of 50000 entries reshaped to a column is the vector repeated along a new unit axis: both hold entry i at (i, 0). -/
theorem column_eq (v : FVec Ideal S50000 .f32) (h1 : S50000.ShapeCasts S50000x1)
    (h2 : S50000.BroadcastsInDim S50000x1 (![0] : Fin 1 → Fin S50000x1.rank)) :
    shapeCast S50000x1 v h1 = broadcastInDim S50000x1 ![0] h2 v := by
  funext j
  obtain ⟨i, u, rfl⟩ : ∃ (i : Fin 50000) (u : Fin 1), j = ix2 i u := ⟨j 0, j 1, eq_ix2 j⟩
  rw [Cert.Lib.ColumnLayout.shapeCast_a_a1_apply v h1 i u]
  refine (broadcastInDim_apply ![0] h2 v (ix2 i u) (ix1 i) fun a => ?_).symm
  match a with
  | ⟨0, _⟩ => rfl

theorem column_main_v39 (V : Valuation τ sig (Elt Ideal)) :
    (StableHlo.reshape (τ := τ) (Val := Elt Ideal) main_v9 main_v39 rfl shapeCasts_S50000_S50000x1).result V (no_index (Proc.devRef .tc main_v39))
      = (broadcastInDim S50000x1 ![0] bcast_S50000_S50000x1_0 (V (Proc.devRef .tc main_v9) : FVec Ideal S50000 .f32) : FVec Ideal S50000x1 .f32) :=
  (StableHlo.reshape_result' ..).trans (column_eq _ _ _)

theorem column_main_v57 (V : Valuation τ sig (Elt Ideal)) :
    (StableHlo.reshape (τ := τ) (Val := Elt Ideal) main_v35 main_v57 rfl shapeCasts_S50000_S50000x1).result V (no_index (Proc.devRef .tc main_v57))
      = (broadcastInDim S50000x1 ![0] bcast_S50000_S50000x1_0 (V (Proc.devRef .tc main_v35) : FVec Ideal S50000 .f32) : FVec Ideal S50000x1 .f32) :=
  (StableHlo.reshape_result' ..).trans (column_eq _ _ _)

theorem column_main_v58 (V : Valuation τ sig (Elt Ideal)) :
    (StableHlo.reshape (τ := τ) (Val := Elt Ideal) main_v22 main_v58 rfl shapeCasts_S50000_S50000x1).result V (no_index (Proc.devRef .tc main_v58))
      = (broadcastInDim S50000x1 ![0] bcast_S50000_S50000x1_0 (V (Proc.devRef .tc main_v22) : FVec Ideal S50000 .f32) : FVec Ideal S50000x1 .f32) :=
  (StableHlo.reshape_result' ..).trans (column_eq _ _ _)

theorem column_main_v95 (V : Valuation τ sig (Elt Ideal)) :
    (StableHlo.reshape (τ := τ) (Val := Elt Ideal) main_v9 main_v95 rfl shapeCasts_S50000_S50000x1).result V (no_index (Proc.devRef .tc main_v95))
      = (broadcastInDim S50000x1 ![0] bcast_S50000_S50000x1_0 (V (Proc.devRef .tc main_v9) : FVec Ideal S50000 .f32) : FVec Ideal S50000x1 .f32) :=
  (StableHlo.reshape_result' ..).trans (column_eq _ _ _)

theorem column_main_v113 (V : Valuation τ sig (Elt Ideal)) :
    (StableHlo.reshape (τ := τ) (Val := Elt Ideal) main_v35 main_v113 rfl shapeCasts_S50000_S50000x1).result V (no_index (Proc.devRef .tc main_v113))
      = (broadcastInDim S50000x1 ![0] bcast_S50000_S50000x1_0 (V (Proc.devRef .tc main_v35) : FVec Ideal S50000 .f32) : FVec Ideal S50000x1 .f32) :=
  (StableHlo.reshape_result' ..).trans (column_eq _ _ _)

theorem column_main_v114 (V : Valuation τ sig (Elt Ideal)) :
    (StableHlo.reshape (τ := τ) (Val := Elt Ideal) main_v22 main_v114 rfl shapeCasts_S50000_S50000x1).result V (no_index (Proc.devRef .tc main_v114))
      = (broadcastInDim S50000x1 ![0] bcast_S50000_S50000x1_0 (V (Proc.devRef .tc main_v22) : FVec Ideal S50000 .f32) : FVec Ideal S50000x1 .f32) :=
  (StableHlo.reshape_result' ..).trans (column_eq _ _ _)

theorem column_main_v151 (V : Valuation τ sig (Elt Ideal)) :
    (StableHlo.reshape (τ := τ) (Val := Elt Ideal) main_v9 main_v151 rfl shapeCasts_S50000_S50000x1).result V (no_index (Proc.devRef .tc main_v151))
      = (broadcastInDim S50000x1 ![0] bcast_S50000_S50000x1_0 (V (Proc.devRef .tc main_v9) : FVec Ideal S50000 .f32) : FVec Ideal S50000x1 .f32) :=
  (StableHlo.reshape_result' ..).trans (column_eq _ _ _)

theorem column_main_v169 (V : Valuation τ sig (Elt Ideal)) :
    (StableHlo.reshape (τ := τ) (Val := Elt Ideal) main_v35 main_v169 rfl shapeCasts_S50000_S50000x1).result V (no_index (Proc.devRef .tc main_v169))
      = (broadcastInDim S50000x1 ![0] bcast_S50000_S50000x1_0 (V (Proc.devRef .tc main_v35) : FVec Ideal S50000 .f32) : FVec Ideal S50000x1 .f32) :=
  (StableHlo.reshape_result' ..).trans (column_eq _ _ _)

theorem column_main_v170 (V : Valuation τ sig (Elt Ideal)) :
    (StableHlo.reshape (τ := τ) (Val := Elt Ideal) main_v22 main_v170 rfl shapeCasts_S50000_S50000x1).result V (no_index (Proc.devRef .tc main_v170))
      = (broadcastInDim S50000x1 ![0] bcast_S50000_S50000x1_0 (V (Proc.devRef .tc main_v22) : FVec Ideal S50000 .f32) : FVec Ideal S50000x1 .f32) :=
  (StableHlo.reshape_result' ..).trans (column_eq _ _ _)

variable (m : (ℓ : Loc nD τ sig) → Buf (Elt Ideal) ℓ) (ρ : Dev nD → PrngReg)

set_option maxHeartbeats 160000000 in
/-- The job-side result: the kernel program's buffer, read through the line of operations, is the reference's composed term of the same argument arrays. -/
theorem job_eq (H : LaunchArrays) (m' : (ℓ : Loc Cert.ReferenceIdeal.nD Cert.ReferenceIdeal.τ Cert.ReferenceIdeal.sig) → Buf (Elt Ideal) ℓ)
    (c : Dev nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) :
    W19 m ρ c (Proc.devRef .tc main_v204) = Cert.ReferenceIdeal.ValueP.res_main_v270 m' c := by
  obtain ⟨e0, e1, e2, e3, e4, e5, e6, e7, e8, e9, e10, e11, e12, e13, e14, e15, e16, e17, e18, e19, e20, e21, e22, e23, e24, e25⟩ := hagree
  rw [last_eq m ρ H c]
  simp only [line, hostOps0, hostOps1, hostOps2, hostOps2_1, hostOps2_2, hostOps2_3, hostOps3, hostOps4, hostOps4_1, hostOps4_2, hostOps4_3, hostOps5, hostOps6,
      launchOps0, launchOps1, launchOps2, launchOps3, launchOps4, launchOps5, List.cons_append, List.nil_append]
  simp (disch := decide) only [StableHlo.after_cons, StableHlo.after_nil,
      column_main_v39, column_main_v57, column_main_v58, column_main_v95, column_main_v113, column_main_v114, column_main_v151, column_main_v169, column_main_v170,
      StableHlo.nullary_result', StableHlo.unary_result', StableHlo.binary_result', StableHlo.ternary_result', StableHlo.quaternary_result',
      StableHlo.nullary_result_ne', StableHlo.unary_result_ne', StableHlo.binary_result_ne', StableHlo.ternary_result_ne', StableHlo.quaternary_result_ne',
      StableHlo.reshape_result_ne']
  unfold Cert.ReferenceIdeal.ValueP.res_main_v270
  simp only [e0, e1, e2, e3, e4, e5, e6, e7, e8, e9, e10, e11, e12, e13, e14, e15, e16, e17, e18, e19, e20, e21, e22, e23, e24, e25]
  rfl

set_option maxHeartbeats 160000000 in
/-- The resume-side result, likewise. -/
theorem resume_eq (H : LaunchArrays) (m' : (ℓ : Loc Cert.ReferenceIdeal.nD Cert.ReferenceIdeal.τ Cert.ReferenceIdeal.sig) → Buf (Elt Ideal) ℓ)
    (c : Dev nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) :
    W19 m ρ c (Proc.devRef .tc main_v203) = Cert.ReferenceIdeal.ValueP.res_main_v303 m' c := by
  obtain ⟨e0, e1, e2, e3, e4, e5, e6, e7, e8, e9, e10, e11, e12, e13, e14, e15, e16, e17, e18, e19, e20, e21, e22, e23, e24, e25⟩ := hagree
  rw [last_eq m ρ H c]
  simp only [line, hostOps0, hostOps1, hostOps2, hostOps2_1, hostOps2_2, hostOps2_3, hostOps3, hostOps4, hostOps4_1, hostOps4_2, hostOps4_3, hostOps5, hostOps6,
      launchOps0, launchOps1, launchOps2, launchOps3, launchOps4, launchOps5, List.cons_append, List.nil_append]
  simp (disch := decide) only [StableHlo.after_cons, StableHlo.after_nil,
      column_main_v39, column_main_v57, column_main_v58, column_main_v95, column_main_v113, column_main_v114, column_main_v151, column_main_v169, column_main_v170,
      StableHlo.nullary_result', StableHlo.unary_result', StableHlo.binary_result', StableHlo.ternary_result', StableHlo.quaternary_result',
      StableHlo.nullary_result_ne', StableHlo.unary_result_ne', StableHlo.binary_result_ne', StableHlo.ternary_result_ne', StableHlo.quaternary_result_ne',
      StableHlo.reshape_result_ne']
  unfold Cert.ReferenceIdeal.ValueP.res_main_v303
  simp only [e0, e1, e2, e3, e4, e5, e6, e7, e8, e9, e10, e11, e12, e13, e14, e15, e16, e17, e18, e19, e20, e21, e22, e23, e24, e25]
  rfl

end Cert.KernelIdeal.Fold

end
-- ==== Proof.LibContractSum.lean ====
/-
  A matrix product with ONE contracted axis, into the zero accumulator, read at an output index on the extended reals.

  The product's entry at `j` is the sum, over the contraction index, of the left operand at `lhsIdx j ·` times the right
  operand at `rhsIdx j ·`. When one axis of extent `K` is contracted, the contraction index is its one coordinate, so the
  entry is a sum over `k : Fin K` of the operands at whatever indices the dimension record names there — given by the
  caller as two families `li`, `ri` with the two equations that say so. The statement does not depend on which axes of
  the operands are contracted: row by column, column by column, or any other single-axis contraction.
-/
import Idealize.ShloMosaic.PureOps.Ideal.Laws
import Idealize.ShloMosaic.Lib.ValueIdx

namespace Cert.LibContractSum

open Idealize.ShloMosaic Idealize.ShloMosaic.ValueIdx

/-- A `tpu.matmul` into the f32 zero splat, one contracted axis of extent `K`: at output index `j` it is
    `∑ k : Fin K, lhs (li k) * rhs (ri k)`, where `li k` / `ri k` are the operand indices the dimension record gives at
    `j` and contraction coordinate `k` (`hl`, `hr`). -/
theorem matmul_zero_sum {sl sr so : Shape} {φ₁ φ₂ : FTy} (D : DotDims sl sr so) (prec : Option ContractPrecision) (K : Nat)
    (hrank : D.contr.rank = 1) (hsize : D.contr.size ⟨0, by omega⟩ = K)
    (lhs : FVec Ideal sl φ₁) (rhs : FVec Ideal sr φ₂) (j : so.Idx) (li : Fin K → sl.Idx) (ri : Fin K → sr.Idx)
    (hl : ∀ k, D.lhsIdx j ((contrEquiv1 D K hrank hsize).symm k) = li k)
    (hr : ∀ k, D.rhsIdx j ((contrEquiv1 D K hrank hsize).symm k) = ri k) :
    FloatOps.matmul D prec lhs rhs (constant so .f32 0x00000000#32) j = ∑ k : Fin K, lhs (li k) * rhs (ri k) := by
  rw [Ideal.matmul_constant_zero_apply, ← Equiv.sum_comp (contrEquiv1 D K hrank hsize).symm]
  exact Finset.sum_congr rfl fun k _ => by rw [hl k, hr k]

end Cert.LibContractSum
-- ==== Proof.LibMatmul2D.lean ====
/-
  A 2-D matrix product into the zero accumulator, read at an output entry on the extended reals, in the three ways a
  single axis of each operand can be contracted:
    * rows by columns   — [M, K] against [K, N], left axis 1 with right axis 0:   ∑ k, lhs (m, k) * rhs (k, n);
    * columns by columns — [K, M] against [K, N], left axis 0 with right axis 0:  ∑ k, lhs (k, m) * rhs (k, n);
    * columns by rows    — [K, M] against [N, K], left axis 0 with right axis 1:  ∑ k, lhs (k, m) * rhs (n, k).
  In each the result is [M, N]: the left operand's free axis first, the right operand's free axis second. The
  dimension record is the one built from the literal axis lists; its well-formedness proof is a parameter, so the
  statements apply to any record with those lists whatever proves it well formed. Over any extents M, K, N.
-/
import Idealize.ShloMosaic.PureOps.Ideal.Laws
import Idealize.ShloMosaic.Lib.ValueIdx
import proofs.«125347_j26173530702075_2_alg».proof.Proof.LibContractSum

namespace Cert.LibMatmul2D

open Idealize.ShloMosaic Idealize.ShloMosaic.ValueIdx

variable {M K N : ℕ} {φ₁ φ₂ : FTy}

/-- Rows by columns: entry (m, n) is the sum over k of lhs (m, k) * rhs (k, n). -/
theorem rows_cols
    (wf : DotDims.WF (⟨2, ![M, K]⟩ : Shape) (⟨2, ![K, N]⟩ : Shape) (⟨2, ![M, N]⟩ : Shape)
      ([1] : List (Fin 2)) ([0] : List (Fin 2)) ([0] : List (Fin 2)) ([1] : List (Fin 2)) [] [])
    (prec : Option ContractPrecision) (lhs : FVec Ideal (⟨2, ![M, K]⟩ : Shape) φ₁) (rhs : FVec Ideal (⟨2, ![K, N]⟩ : Shape) φ₂)
    (m : Fin M) (n : Fin N) :
    FloatOps.matmul (⟨[1], [0], [0], [1], [], [], wf⟩ : DotDims (⟨2, ![M, K]⟩ : Shape) (⟨2, ![K, N]⟩ : Shape) (⟨2, ![M, N]⟩ : Shape))
        prec lhs rhs (constant (⟨2, ![M, N]⟩ : Shape) .f32 0x00000000#32) (ix2 m n)
      = ∑ k : Fin K, lhs (ix2 m k) * rhs (ix2 k n) := by
  refine Cert.LibContractSum.matmul_zero_sum _ prec K rfl rfl lhs rhs (ix2 m n) (fun k => ix2 m k) (fun k => ix2 k n)
    (fun k => ?_) (fun k => ?_)
  · funext a; apply Fin.ext
    match a with
    | ⟨0, _⟩ =>
      unfold DotDims.lhsIdx
      rw [dif_neg, dif_pos]
      case hc => exact List.mem_singleton.mpr (Fin.ext rfl)
      case hnc => exact List.not_mem_nil
      rfl
    | ⟨1, _⟩ => exact (DotDims.lhsIdx_val_of_single _ rfl _ _).trans (contrEquiv1_symm_val _ K rfl rfl k)
  · funext a; apply Fin.ext
    match a with
    | ⟨0, _⟩ => exact (DotDims.rhsIdx_val_of_single _ rfl _ _).trans (contrEquiv1_symm_val _ K rfl rfl k)
    | ⟨1, _⟩ =>
      unfold DotDims.rhsIdx
      rw [dif_neg, dif_pos]
      case hc => exact List.mem_singleton.mpr (Fin.ext rfl)
      case hnc => exact List.not_mem_nil
      rfl

/-- Columns by columns: entry (m, n) is the sum over k of lhs (k, m) * rhs (k, n). -/
theorem cols_cols
    (wf : DotDims.WF (⟨2, ![K, M]⟩ : Shape) (⟨2, ![K, N]⟩ : Shape) (⟨2, ![M, N]⟩ : Shape)
      ([0] : List (Fin 2)) ([0] : List (Fin 2)) ([1] : List (Fin 2)) ([1] : List (Fin 2)) [] [])
    (prec : Option ContractPrecision) (lhs : FVec Ideal (⟨2, ![K, M]⟩ : Shape) φ₁) (rhs : FVec Ideal (⟨2, ![K, N]⟩ : Shape) φ₂)
    (m : Fin M) (n : Fin N) :
    FloatOps.matmul (⟨[0], [0], [1], [1], [], [], wf⟩ : DotDims (⟨2, ![K, M]⟩ : Shape) (⟨2, ![K, N]⟩ : Shape) (⟨2, ![M, N]⟩ : Shape))
        prec lhs rhs (constant (⟨2, ![M, N]⟩ : Shape) .f32 0x00000000#32) (ix2 m n)
      = ∑ k : Fin K, lhs (ix2 k m) * rhs (ix2 k n) := by
  refine Cert.LibContractSum.matmul_zero_sum _ prec K rfl rfl lhs rhs (ix2 m n) (fun k => ix2 k m) (fun k => ix2 k n)
    (fun k => ?_) (fun k => ?_)
  · funext a; apply Fin.ext
    match a with
    | ⟨0, _⟩ => exact (DotDims.lhsIdx_val_of_single _ rfl _ _).trans (contrEquiv1_symm_val _ K rfl rfl k)
    | ⟨1, _⟩ =>
      unfold DotDims.lhsIdx
      rw [dif_neg, dif_pos]
      case hc => exact List.mem_singleton.mpr (Fin.ext rfl)
      case hnc => exact List.not_mem_nil
      rfl
  · funext a; apply Fin.ext
    match a with
    | ⟨0, _⟩ => exact (DotDims.rhsIdx_val_of_single _ rfl _ _).trans (contrEquiv1_symm_val _ K rfl rfl k)
    | ⟨1, _⟩ =>
      unfold DotDims.rhsIdx
      rw [dif_neg, dif_pos]
      case hc => exact List.mem_singleton.mpr (Fin.ext rfl)
      case hnc => exact List.not_mem_nil
      rfl

/-- Columns by rows: entry (m, n) is the sum over k of lhs (k, m) * rhs (n, k). -/
theorem cols_rows
    (wf : DotDims.WF (⟨2, ![K, M]⟩ : Shape) (⟨2, ![N, K]⟩ : Shape) (⟨2, ![M, N]⟩ : Shape)
      ([0] : List (Fin 2)) ([1] : List (Fin 2)) ([1] : List (Fin 2)) ([0] : List (Fin 2)) [] [])
    (prec : Option ContractPrecision) (lhs : FVec Ideal (⟨2, ![K, M]⟩ : Shape) φ₁) (rhs : FVec Ideal (⟨2, ![N, K]⟩ : Shape) φ₂)
    (m : Fin M) (n : Fin N) :
    FloatOps.matmul (⟨[0], [1], [1], [0], [], [], wf⟩ : DotDims (⟨2, ![K, M]⟩ : Shape) (⟨2, ![N, K]⟩ : Shape) (⟨2, ![M, N]⟩ : Shape))
        prec lhs rhs (constant (⟨2, ![M, N]⟩ : Shape) .f32 0x00000000#32) (ix2 m n)
      = ∑ k : Fin K, lhs (ix2 k m) * rhs (ix2 n k) := by
  refine Cert.LibContractSum.matmul_zero_sum _ prec K rfl rfl lhs rhs (ix2 m n) (fun k => ix2 k m) (fun k => ix2 n k)
    (fun k => ?_) (fun k => ?_)
  · funext a; apply Fin.ext
    match a with
    | ⟨0, _⟩ => exact (DotDims.lhsIdx_val_of_single _ rfl _ _).trans (contrEquiv1_symm_val _ K rfl rfl k)
    | ⟨1, _⟩ =>
      unfold DotDims.lhsIdx
      rw [dif_neg, dif_pos]
      case hc => exact List.mem_singleton.mpr (Fin.ext rfl)
      case hnc => exact List.not_mem_nil
      rfl
  · funext a; apply Fin.ext
    match a with
    | ⟨0, _⟩ =>
      unfold DotDims.rhsIdx
      rw [dif_neg, dif_pos]
      case hc => exact List.mem_singleton.mpr (Fin.ext rfl)
      case hnc => exact List.not_mem_nil
      rfl
    | ⟨1, _⟩ => exact (DotDims.rhsIdx_val_of_single _ rfl _ _).trans (contrEquiv1_symm_val _ K rfl rfl k)

end Cert.LibMatmul2D
-- ==== Proof.LibHostContractSum.lean ====
/-
  The host's matrix product with ONE contracted axis, read at an output index on the extended reals.

  The product's entry at `j` is the sum, over the contraction index, of the left operand at `lhsIdx j ·` times the right
  operand at `rhsIdx j ·`.  When one axis of extent `K` is contracted, the contraction index is its one coordinate, so
  the entry is a sum over `k : Fin K` of the operands at whatever indices the dimension record names there — given by
  the caller as two families `li`, `ri` with the two equations that say so.  Nothing depends on which axes are contracted.
-/
import Idealize.ShloMosaic.PureOps.Ideal.Laws
import Idealize.ShloMosaic.Lib.ValueIdx

namespace Cert.LibHostContractSum

open Idealize.ShloMosaic Idealize.ShloMosaic.ValueIdx

/-- A host `dot_general` with one contracted axis of extent `K`: at output index `j` it is
    `∑ k : Fin K, lhs (li k) * rhs (ri k)`, where `li k` / `ri k` are the operand indices the dimension record gives at
    `j` and contraction coordinate `k` (`hl`, `hr`). -/
theorem dotGeneral_sum {sl sr so : Shape} {φ₁ φ₂ : FTy} (D : DotDims sl sr so) (prec : Option ContractPrecision) (K : Nat)
    (hrank : D.contr.rank = 1) (hsize : D.contr.size ⟨0, by omega⟩ = K)
    (lhs : FVec Ideal sl φ₁) (rhs : FVec Ideal sr φ₂) (j : so.Idx) (li : Fin K → sl.Idx) (ri : Fin K → sr.Idx)
    (hl : ∀ k, D.lhsIdx j ((contrEquiv1 D K hrank hsize).symm k) = li k)
    (hr : ∀ k, D.rhsIdx j ((contrEquiv1 D K hrank hsize).symm k) = ri k) :
    Host.dotGeneral D prec lhs rhs j = ∑ k : Fin K, lhs (li k) * rhs (ri k) := by
  show FloatOps.dotGeneral D prec .single lhs rhs j = _
  rw [Ideal.dotGeneral_apply, ← Equiv.sum_comp (contrEquiv1 D K hrank hsize).symm]
  exact Finset.sum_congr rfl fun k _ => by rw [hl k, hr k]

end Cert.LibHostContractSum
-- ==== Proof.LibHostMatmul2D.lean ====
/-
  The host's 2-D matrix product, rows by columns, read at an output entry on the extended reals.

  For a `dot_general` of an [M, K] array against a [K, N] array that contracts the left operand's axis 1 with the right
  operand's axis 0, entry (m, n) of the [M, N] result is ∑ k, lhs (m, k) * rhs (k, n).  The dimension record is the one
  built from the literal axis lists; its well-formedness proof is a parameter, so the statement applies to any record
  with those lists whatever proves it well formed.  Over any extents M, K, N and any precision annotation.
-/
import Idealize.ShloMosaic.PureOps.Ideal.Laws
import Idealize.ShloMosaic.Lib.ValueIdx
import proofs.«125347_j26173530702075_2_alg».proof.Proof.LibHostContractSum

namespace Cert.LibHostMatmul2D

open Idealize.ShloMosaic Idealize.ShloMosaic.ValueIdx

variable {M K N : ℕ} {φ₁ φ₂ : FTy}

/-- Rows by columns on the host: entry (m, n) is the sum over k of lhs (m, k) * rhs (k, n). -/
theorem rows_cols
    (wf : DotDims.WF (⟨2, ![M, K]⟩ : Shape) (⟨2, ![K, N]⟩ : Shape) (⟨2, ![M, N]⟩ : Shape)
      ([1] : List (Fin 2)) ([0] : List (Fin 2)) ([0] : List (Fin 2)) ([1] : List (Fin 2)) [] [])
    (prec : Option ContractPrecision) (lhs : FVec Ideal (⟨2, ![M, K]⟩ : Shape) φ₁) (rhs : FVec Ideal (⟨2, ![K, N]⟩ : Shape) φ₂)
    (m : Fin M) (n : Fin N) :
    Host.dotGeneral (⟨[1], [0], [0], [1], [], [], wf⟩ : DotDims (⟨2, ![M, K]⟩ : Shape) (⟨2, ![K, N]⟩ : Shape) (⟨2, ![M, N]⟩ : Shape))
        prec lhs rhs (ix2 m n)
      = ∑ k : Fin K, lhs (ix2 m k) * rhs (ix2 k n) := by
  refine Cert.LibHostContractSum.dotGeneral_sum _ prec K rfl rfl lhs rhs (ix2 m n) (fun k => ix2 m k) (fun k => ix2 k n)
    (fun k => ?_) (fun k => ?_)
  · funext a; apply Fin.ext
    match a with
    | ⟨0, _⟩ =>
      unfold DotDims.lhsIdx
      rw [dif_neg, dif_pos]
      case hc => exact List.mem_singleton.mpr (Fin.ext rfl)
      case hnc => exact List.not_mem_nil
      rfl
    | ⟨1, _⟩ => exact (DotDims.lhsIdx_val_of_single _ rfl _ _).trans (contrEquiv1_symm_val _ K rfl rfl k)
  · funext a; apply Fin.ext
    match a with
    | ⟨0, _⟩ => exact (DotDims.rhsIdx_val_of_single _ rfl _ _).trans (contrEquiv1_symm_val _ K rfl rfl k)
    | ⟨1, _⟩ =>
      unfold DotDims.rhsIdx
      rw [dif_neg, dif_pos]
      case hc => exact List.mem_singleton.mpr (Fin.ext rfl)
      case hnc => exact List.not_mem_nil
      rfl

end Cert.LibHostMatmul2D
-- ==== Proof.ScaledDenseAt.lean ====
/-
  The dense stage of a graph convolution, read at one entry.

  The stage scales row r of the feature matrix x by the entry n (r, 0) of a column and multiplies the scaled matrix
  by a weight matrix w, contracting the features:

      y (r, q) = Σ k, (x (r, k) · n (r, 0)) · w (k, q).

  Two spellings of it are read here at an entry, over any extents and on the extended reals.

  * Over the whole arrays: the column is repeated along the lanes, multiplied into x entry by entry, and the product is
    contracted with w (left axis 1 against right axis 0).
  * Over a tile of rows: the tile of the column is cast to its own shape, repeated along the lanes, multiplied into the
    tile of x (taken as it is, or after a cast to its own shape), both factors are rounded to a narrower format
    — the identity on the extended reals — and the matrix unit multiplies them into the zero accumulator.

  Both give the sum above, so row p of a tile is row r of the whole result as soon as row p of the tile of x is row r
  of x, entry p of the tile of n is entry r of n, and the tile's weights are w: a tile of tile-size rows starting at
  row t · size is rows t · size … t · size + size − 1 of the whole. No finiteness is used: the two sides are the same
  sum of the same products, term by term.
-/
import Idealize.ShloMosaic.PureOps.Ideal.Laws
import Idealize.ShloMosaic.Lib.Pipeline.Value
import Idealize.ShloMosaic.Lib.ValueIdx
import proofs.«125347_j26173530702075_2_alg».proof.Proof.LibMatmul2D
import proofs.«125347_j26173530702075_2_alg».proof.Proof.LibHostMatmul2D
import proofs.«125347_j26173530702075_2_alg».proof.Proof.LibColumnLayout

noncomputable section

namespace Cert.Rgcn

open Idealize.ShloMosaic Idealize.ShloMosaic.ValueIdx

variable {R M K N : ℕ}

/-- The whole-array spelling at entry (r, q): the repeated column reads n (r, 0) in every lane, and the contraction is
    the sum over the features. -/
theorem wholeDense_apply
    (wf : DotDims.WF (⟨2, ![M, K]⟩ : Shape) (⟨2, ![K, N]⟩ : Shape) (⟨2, ![M, N]⟩ : Shape)
      ([1] : List (Fin 2)) ([0] : List (Fin 2)) ([0] : List (Fin 2)) ([1] : List (Fin 2)) [] [])
    (prec : Option ContractPrecision)
    (hb : (⟨2, ![M, 1]⟩ : Shape).BroadcastsInDim (⟨2, ![M, K]⟩ : Shape) (![0, 1] : Fin 2 → Fin 2))
    (x : FVec Ideal (⟨2, ![M, K]⟩ : Shape) .f32) (n : FVec Ideal (⟨2, ![M, 1]⟩ : Shape) .f32)
    (w : FVec Ideal (⟨2, ![K, N]⟩ : Shape) .f32) (r : Fin M) (q : Fin N) :
    Host.dotGeneral (⟨[1], [0], [0], [1], [], [], wf⟩ : DotDims (⟨2, ![M, K]⟩ : Shape) (⟨2, ![K, N]⟩ : Shape) (⟨2, ![M, N]⟩ : Shape))
        prec (mulf x (broadcastInDim (⟨2, ![M, K]⟩ : Shape) (![0, 1] : Fin 2 → Fin 2) hb n)) w (ix2 r q)
      = ∑ k : Fin K, (x (ix2 r k) * n (ix2 r (0 : Fin 1))) * w (ix2 k q) := by
  rw [Cert.LibHostMatmul2D.rows_cols wf prec _ w r q]
  refine Finset.sum_congr rfl fun k _ => ?_
  have e : broadcastInDim (⟨2, ![M, K]⟩ : Shape) (![0, 1] : Fin 2 → Fin 2) hb n (ix2 r k) = n (ix2 r (0 : Fin 1)) :=
    broadcastInDim_apply _ hb n (ix2 r k) (ix2 r (0 : Fin 1)) fun a => by
      match a with
      | ⟨0, _⟩ =>
        show r.val = if M = 1 then 0 else r.val
        split
        · have := r.isLt; omega
        · rfl
      | ⟨1, _⟩ =>
        show (0 : ℕ) = if (1 : ℕ) = 1 then 0 else k.val
        rw [if_pos rfl]
  rw [mulf_apply, e]

/-- The tile spelling at entry (p, q), the tile of x taken as it is. -/
theorem tileDense_apply
    (wf : DotDims.WF (⟨2, ![R, K]⟩ : Shape) (⟨2, ![K, N]⟩ : Shape) (⟨2, ![R, N]⟩ : Shape)
      ([1] : List (Fin 2)) ([0] : List (Fin 2)) ([0] : List (Fin 2)) ([1] : List (Fin 2)) [] [])
    (hc : (⟨2, ![R, 1]⟩ : Shape).ShapeCasts (⟨2, ![R, 1]⟩ : Shape))
    (hb : (⟨2, ![R, 1]⟩ : Shape).Broadcasts (⟨2, ![R, K]⟩ : Shape))
    (hlt : FTy.bf16.bits < FTy.f32.bits)
    (x : FVec Ideal (⟨2, ![R, K]⟩ : Shape) .f32) (n : FVec Ideal (⟨2, ![R, 1]⟩ : Shape) .f32)
    (w : FVec Ideal (⟨2, ![K, N]⟩ : Shape) .f32) (p : Fin R) (q : Fin N) :
    matmul (⟨[1], [0], [0], [1], [], [], wf⟩ : DotDims (⟨2, ![R, K]⟩ : Shape) (⟨2, ![K, N]⟩ : Shape) (⟨2, ![R, N]⟩ : Shape)) none
        (truncf .bf16 (mulf x (broadcastTo (⟨2, ![R, K]⟩ : Shape) (shapeCast (⟨2, ![R, 1]⟩ : Shape) n hc) hb)) hlt)
        (truncf .bf16 w hlt) (constant (⟨2, ![R, N]⟩ : Shape) .f32 0x00000000#32) (ix2 p q)
      = ∑ k : Fin K, (x (ix2 p k) * n (ix2 p (0 : Fin 1))) * w (ix2 k q) := by
  show FloatOps.matmul _ none _ _ (constant (⟨2, ![R, N]⟩ : Shape) .f32 0x00000000#32) (ix2 p q) = _
  rw [Cert.LibMatmul2D.rows_cols wf none _ _ p q]
  refine Finset.sum_congr rfl fun k _ => ?_
  show x (ix2 p k) * broadcastTo (⟨2, ![R, K]⟩ : Shape) (shapeCast (⟨2, ![R, 1]⟩ : Shape) n hc) hb (ix2 p k) * w (ix2 k q) = _
  rw [shapeCast_self, Cert.Lib.ColumnLayout.broadcastTo_a1_ab_apply n hb p k (0 : Fin 1)]

/-- The tile spelling at entry (p, q), the tile of x first cast to its own shape. -/
theorem tileDenseCast_apply
    (wf : DotDims.WF (⟨2, ![R, K]⟩ : Shape) (⟨2, ![K, N]⟩ : Shape) (⟨2, ![R, N]⟩ : Shape)
      ([1] : List (Fin 2)) ([0] : List (Fin 2)) ([0] : List (Fin 2)) ([1] : List (Fin 2)) [] [])
    (hcx : (⟨2, ![R, K]⟩ : Shape).ShapeCasts (⟨2, ![R, K]⟩ : Shape))
    (hc : (⟨2, ![R, 1]⟩ : Shape).ShapeCasts (⟨2, ![R, 1]⟩ : Shape))
    (hb : (⟨2, ![R, 1]⟩ : Shape).Broadcasts (⟨2, ![R, K]⟩ : Shape))
    (hlt : FTy.bf16.bits < FTy.f32.bits)
    (x : FVec Ideal (⟨2, ![R, K]⟩ : Shape) .f32) (n : FVec Ideal (⟨2, ![R, 1]⟩ : Shape) .f32)
    (w : FVec Ideal (⟨2, ![K, N]⟩ : Shape) .f32) (p : Fin R) (q : Fin N) :
    matmul (⟨[1], [0], [0], [1], [], [], wf⟩ : DotDims (⟨2, ![R, K]⟩ : Shape) (⟨2, ![K, N]⟩ : Shape) (⟨2, ![R, N]⟩ : Shape)) none
        (truncf .bf16 (mulf (shapeCast (⟨2, ![R, K]⟩ : Shape) x hcx)
          (broadcastTo (⟨2, ![R, K]⟩ : Shape) (shapeCast (⟨2, ![R, 1]⟩ : Shape) n hc) hb)) hlt)
        (truncf .bf16 w hlt) (constant (⟨2, ![R, N]⟩ : Shape) .f32 0x00000000#32) (ix2 p q)
      = ∑ k : Fin K, (x (ix2 p k) * n (ix2 p (0 : Fin 1))) * w (ix2 k q) := by
  rw [shapeCast_self x hcx]
  exact tileDense_apply wf hc hb hlt x n w p q

/-- Row p of a tile is row r of the whole result, when the tile's rows of x and n are the whole arrays' row r and
    its weights are the whole weights. -/
theorem tileDense_eq_wholeDense
    (wft : DotDims.WF (⟨2, ![R, K]⟩ : Shape) (⟨2, ![K, N]⟩ : Shape) (⟨2, ![R, N]⟩ : Shape)
      ([1] : List (Fin 2)) ([0] : List (Fin 2)) ([0] : List (Fin 2)) ([1] : List (Fin 2)) [] [])
    (hc : (⟨2, ![R, 1]⟩ : Shape).ShapeCasts (⟨2, ![R, 1]⟩ : Shape))
    (hbt : (⟨2, ![R, 1]⟩ : Shape).Broadcasts (⟨2, ![R, K]⟩ : Shape))
    (hlt : FTy.bf16.bits < FTy.f32.bits)
    (wf : DotDims.WF (⟨2, ![M, K]⟩ : Shape) (⟨2, ![K, N]⟩ : Shape) (⟨2, ![M, N]⟩ : Shape)
      ([1] : List (Fin 2)) ([0] : List (Fin 2)) ([0] : List (Fin 2)) ([1] : List (Fin 2)) [] [])
    (prec : Option ContractPrecision)
    (hb : (⟨2, ![M, 1]⟩ : Shape).BroadcastsInDim (⟨2, ![M, K]⟩ : Shape) (![0, 1] : Fin 2 → Fin 2))
    (x0 : FVec Ideal (⟨2, ![R, K]⟩ : Shape) .f32) (n0 : FVec Ideal (⟨2, ![R, 1]⟩ : Shape) .f32)
    (w0 : FVec Ideal (⟨2, ![K, N]⟩ : Shape) .f32)
    (x : FVec Ideal (⟨2, ![M, K]⟩ : Shape) .f32) (n : FVec Ideal (⟨2, ![M, 1]⟩ : Shape) .f32)
    (w : FVec Ideal (⟨2, ![K, N]⟩ : Shape) .f32) (p : Fin R) (q : Fin N) (r : Fin M)
    (hx : ∀ k : Fin K, x0 (ix2 p k) = x (ix2 r k)) (hn : n0 (ix2 p (0 : Fin 1)) = n (ix2 r (0 : Fin 1)))
    (hw : ∀ k : Fin K, w0 (ix2 k q) = w (ix2 k q)) :
    matmul (⟨[1], [0], [0], [1], [], [], wft⟩ : DotDims (⟨2, ![R, K]⟩ : Shape) (⟨2, ![K, N]⟩ : Shape) (⟨2, ![R, N]⟩ : Shape)) none
        (truncf .bf16 (mulf x0 (broadcastTo (⟨2, ![R, K]⟩ : Shape) (shapeCast (⟨2, ![R, 1]⟩ : Shape) n0 hc) hbt)) hlt)
        (truncf .bf16 w0 hlt) (constant (⟨2, ![R, N]⟩ : Shape) .f32 0x00000000#32) (ix2 p q)
      = Host.dotGeneral (⟨[1], [0], [0], [1], [], [], wf⟩ : DotDims (⟨2, ![M, K]⟩ : Shape) (⟨2, ![K, N]⟩ : Shape) (⟨2, ![M, N]⟩ : Shape))
        prec (mulf x (broadcastInDim (⟨2, ![M, K]⟩ : Shape) (![0, 1] : Fin 2 → Fin 2) hb n)) w (ix2 r q) := by
  rw [tileDense_apply wft hc hbt hlt x0 n0 w0 p q, wholeDense_apply wf prec hb x n w r q]
  exact Finset.sum_congr rfl fun k _ => by rw [hx k, hn, hw k]

/-- The same with the tile of x first cast to its own shape. -/
theorem tileDenseCast_eq_wholeDense
    (wft : DotDims.WF (⟨2, ![R, K]⟩ : Shape) (⟨2, ![K, N]⟩ : Shape) (⟨2, ![R, N]⟩ : Shape)
      ([1] : List (Fin 2)) ([0] : List (Fin 2)) ([0] : List (Fin 2)) ([1] : List (Fin 2)) [] [])
    (hcx : (⟨2, ![R, K]⟩ : Shape).ShapeCasts (⟨2, ![R, K]⟩ : Shape))
    (hc : (⟨2, ![R, 1]⟩ : Shape).ShapeCasts (⟨2, ![R, 1]⟩ : Shape))
    (hbt : (⟨2, ![R, 1]⟩ : Shape).Broadcasts (⟨2, ![R, K]⟩ : Shape))
    (hlt : FTy.bf16.bits < FTy.f32.bits)
    (wf : DotDims.WF (⟨2, ![M, K]⟩ : Shape) (⟨2, ![K, N]⟩ : Shape) (⟨2, ![M, N]⟩ : Shape)
      ([1] : List (Fin 2)) ([0] : List (Fin 2)) ([0] : List (Fin 2)) ([1] : List (Fin 2)) [] [])
    (prec : Option ContractPrecision)
    (hb : (⟨2, ![M, 1]⟩ : Shape).BroadcastsInDim (⟨2, ![M, K]⟩ : Shape) (![0, 1] : Fin 2 → Fin 2))
    (x0 : FVec Ideal (⟨2, ![R, K]⟩ : Shape) .f32) (n0 : FVec Ideal (⟨2, ![R, 1]⟩ : Shape) .f32)
    (w0 : FVec Ideal (⟨2, ![K, N]⟩ : Shape) .f32)
    (x : FVec Ideal (⟨2, ![M, K]⟩ : Shape) .f32) (n : FVec Ideal (⟨2, ![M, 1]⟩ : Shape) .f32)
    (w : FVec Ideal (⟨2, ![K, N]⟩ : Shape) .f32) (p : Fin R) (q : Fin N) (r : Fin M)
    (hx : ∀ k : Fin K, x0 (ix2 p k) = x (ix2 r k)) (hn : n0 (ix2 p (0 : Fin 1)) = n (ix2 r (0 : Fin 1)))
    (hw : ∀ k : Fin K, w0 (ix2 k q) = w (ix2 k q)) :
    matmul (⟨[1], [0], [0], [1], [], [], wft⟩ : DotDims (⟨2, ![R, K]⟩ : Shape) (⟨2, ![K, N]⟩ : Shape) (⟨2, ![R, N]⟩ : Shape)) none
        (truncf .bf16 (mulf (shapeCast (⟨2, ![R, K]⟩ : Shape) x0 hcx)
          (broadcastTo (⟨2, ![R, K]⟩ : Shape) (shapeCast (⟨2, ![R, 1]⟩ : Shape) n0 hc) hbt)) hlt)
        (truncf .bf16 w0 hlt) (constant (⟨2, ![R, N]⟩ : Shape) .f32 0x00000000#32) (ix2 p q)
      = Host.dotGeneral (⟨[1], [0], [0], [1], [], [], wf⟩ : DotDims (⟨2, ![M, K]⟩ : Shape) (⟨2, ![K, N]⟩ : Shape) (⟨2, ![M, N]⟩ : Shape))
        prec (mulf x (broadcastInDim (⟨2, ![M, K]⟩ : Shape) (![0, 1] : Fin 2 → Fin 2) hb n)) w (ix2 r q) := by
  rw [shapeCast_self x0 hcx]
  exact tileDense_eq_wholeDense wft hc hbt hlt wf prec hb x0 n0 w0 x n w p q r hx hn hw

end Cert.Rgcn

end
-- ==== Proof.RegionArray0.lean ====
/-
  Region 0: after the row-tiled pass the whole output array is the dense stage of the arrays the pass read.

  The pass visits 10 row tiles of 5000 rows. At tile t it reads rows 5000·t … 5000·t + 4999 of the feature matrix and
  of the column, and the whole weight matrix; what it leaves in the output tile is the tile form of the
  dense stage, which entry by entry is rows 5000·t … of the whole-array form. The tiles of the output cover its rows
  (row r lies in tile r / 5000), so the array ends holding the whole-array form, whatever it held before.
-/
import proofs.«125347_j26173530702075_2_alg».proof.Proof.ScaledDense
import proofs.«125347_j26173530702075_2_alg».proof.Proof.ScaledDenseAt
import proofs.«125347_j26173530702075_2_alg».proof.Proof.Gen.KernelIdeal.Frame
import Idealize.ShloMosaic.Lib.Pipeline.Value

noncomputable section

namespace Cert.Rgcn

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- A tile's accesses start at the origin of its buffer. -/
theorem origin0 : (![0, 0] : Fin 2 → Nat) = fun _ => 0 := funext fun a => by fin_cases a <;> rfl

/-- The block index of every window at tile t: the row windows sit at block row t, the weights at block 0. -/
theorem blockIndex0 : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- Row p of tile t of the feature matrix is row 5000·t + p of the matrix. -/
theorem xBlock0 (c : Dev nD) (t : Fin cfg0.N) (p : Fin 5000) (k : Fin 256) (r : Fin 50000) (hr : r.val = t.val * 5000 + p.val) :
    (iblk0 V c 0 t : FVec Ideal S5000x256 .f32) (ix2 p k)
      = (V c (Pipeline.arrRef spec0 0) : FVec Ideal S50000x256 .f32) (ix2 r k) := by
  obtain ⟨e0, e1, -, -, -, -, -, -⟩ := blockIndex0 t
  have h : ((cfg0.win 0).blk t).view.emb (ix2 p k) = ix2 r k := by
    funext a; apply Fin.ext
    match a with
    | ⟨0, _⟩ => show win0_0.index t (0 : Fin 2) * 5000 + 1 * p.val = r.val; rw [e0, hr]; omega
    | ⟨1, _⟩ => show win0_0.index t (1 : Fin 2) * 256 + 1 * k.val = k.val; rw [e1]; omega
  show V c (Pipeline.arrRef spec0 0) (((cfg0.win 0).blk t).view.emb (ix2 p k)) = _
  rw [h]

/-- Entry p of tile t of the column in window 1 is entry 5000·t + p of the column. -/
theorem nBlock0_1 (c : Dev nD) (t : Fin cfg0.N) (p : Fin 5000) (r : Fin 50000) (hr : r.val = t.val * 5000 + p.val) :
    (iblk0 V c 1 t : FVec Ideal S5000x1 .f32) (ix2 p (0 : Fin 1))
      = (V c (Pipeline.arrRef spec0 1) : FVec Ideal S50000x1 .f32) (ix2 r (0 : Fin 1)) := by
  obtain ⟨-, -, e2, e3, -, -, -, -⟩ := blockIndex0 t
  have h : ((cfg0.win 1).blk t).view.emb (ix2 p (0 : Fin 1)) = ix2 r (0 : Fin 1) := by
    funext a; apply Fin.ext
    match a with
    | ⟨0, _⟩ => show win0_1.index t (0 : Fin 2) * 5000 + 1 * p.val = r.val; rw [e2, hr]; omega
    | ⟨1, _⟩ => show win0_1.index t (1 : Fin 2) * 1 + 1 * 0 = 0; rw [e3]
  show V c (Pipeline.arrRef spec0 1) (((cfg0.win 1).blk t).view.emb (ix2 p (0 : Fin 1))) = _
  rw [h]

/-- Every tile reads the whole weight matrix of window 2. -/
theorem wBlock0_2 (c : Dev nD) (t : Fin cfg0.N) (k : Fin 256) (q : Fin 256) :
    (iblk0 V c 2 t : FVec Ideal S256x256 .f32) (ix2 k q)
      = (V c (Pipeline.arrRef spec0 2) : FVec Ideal S256x256 .f32) (ix2 k q) := by
  obtain ⟨-, -, -, -, e4, e5, -, -⟩ := blockIndex0 t
  have h : ((cfg0.win 2).blk t).view.emb (ix2 k q) = ix2 k q := by
    funext a; apply Fin.ext
    match a with
    | ⟨0, _⟩ => show win0_2.index t (0 : Fin 2) * 256 + 1 * k.val = k.val; rw [e4]; omega
    | ⟨1, _⟩ => show win0_2.index t (1 : Fin 2) * 256 + 1 * q.val = q.val; rw [e5]; omega
  show V c (Pipeline.arrRef spec0 2) (((cfg0.win 2).blk t).view.emb (ix2 k q)) = _
  rw [h]

/-- What tile t writes back through window 3 is block t of the dense stage of the arrays the region read. -/
theorem flushed0_3 (c : Dev nD) (t : Fin cfg0.N) :
    (dat0 V c).flushed 3 t = ((cfg0.win 3).blk t).view.read (Elt Ideal)
      (scaledDense256 (F := Ideal) (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero origin0]
  simp only [View.ld_unit_zero (S := S5000x256) origin0, View.ld_unit_zero (S := S5000x1) origin0,
    View.ld_unit_zero (S := S256x256) origin0]
  have ht : t.val < 10 := lt_of_lt_of_eq t.isLt N_0
  obtain ⟨-, -, -, -, -, -, e6, e7⟩ := blockIndex0 t
  refine funext fun (j : S5000x256.Idx) => ?_
  obtain ⟨p, q, rfl⟩ : ∃ (p : Fin 5000) (q : Fin 256), j = ix2 p q := ⟨j 0, j 1, eq_ix2 j⟩
  have hemb : ((cfg0.win 3).blk t).view.emb (ix2 p q) = ix2 (⟨t.val * 5000 + p.val, by omega⟩ : Fin 50000) q := by
    funext a; apply Fin.ext
    match a with
    | ⟨0, _⟩ => show win0_3.index t (0 : Fin 2) * 5000 + 1 * p.val = t.val * 5000 + p.val; rw [e6]; omega
    | ⟨1, _⟩ => show win0_3.index t (1 : Fin 2) * 256 + 1 * q.val = q.val; rw [e7]; omega
  show k0_pay1 (iblk0 V c 0 t) (iblk0 V c 1 t) (iblk0 V c 2 t) (ix2 p q)
    = scaledDense256 (F := Ideal) (V c (Pipeline.arrRef spec0 0)) (V c (Pipeline.arrRef spec0 1)) (V c (Pipeline.arrRef spec0 2))
        (((cfg0.win 3).blk t).view.emb (ix2 p q))
  rw [hemb]
  unfold k0_pay1  scaledDense256
  exact tileDense_eq_wholeDense _ _ _ _ _ none _
    (iblk0 V c 0 t) (iblk0 V c 1 t) (iblk0 V c 2 t)
    (V c (Pipeline.arrRef spec0 0)) (V c (Pipeline.arrRef spec0 1)) (V c (Pipeline.arrRef spec0 2))
    p q ⟨t.val * 5000 + p.val, by omega⟩
    (fun k => xBlock0 V c t p k _ rfl) (nBlock0_1 V c t p _ rfl) (fun k => wBlock0_2 V c t k q)

/-- An index of the output array is in tile t's block iff its coordinates are in the block's ranges. -/
theorem memBlock0_3 (t : Fin cfg0.N) (i : S50000x256.Idx) :
    i ∈ ((cfg0.win 3).blk t).view.set ↔ ∀ a : Fin 2, win0_3.index t a * S5000x256.size a ≤ (i a).val
      ∧ (i a).val < win0_3.index t a * S5000x256.size a + S5000x256.size a := by
  show i ∈ ((View.whole main_v40).slice (win0_3.rect t)).set ↔ _
  rw [View.set_slice_whole, Rect.mem_set_unit]
  exact Iff.rfl

/-- Row r of the output lies in the block of tile r / 5000, which is written back. -/
theorem cover0_3 (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  obtain ⟨t, ht⟩ : ∃ t : Fin cfg0.N, t.val = (i 0).val / 5000 :=
    ⟨⟨(i 0).val / 5000, lt_of_lt_of_eq (by omega : (i 0).val / 5000 < 10) N_0.symm⟩, rfl⟩
  obtain ⟨-, -, -, -, -, -, e6, e7⟩ := blockIndex0 t
  refine ⟨t, flush0_3 t, ?_⟩
  rw [memBlock0_3]
  intro a
  match a with
  | ⟨0, _⟩ =>
    show win0_3.index t (0 : Fin 2) * 5000 ≤ (i 0).val ∧ (i 0).val < win0_3.index t (0 : Fin 2) * 5000 + 5000
    rw [e6, ht]; omega
  | ⟨1, _⟩ =>
    show win0_3.index t (1 : Fin 2) * 256 ≤ (i 1).val ∧ (i 1).val < win0_3.index t (1 : Fin 2) * 256 + 256
    rw [e7]; omega

/-- After region 0 the array of window 3 is the dense stage of the three arrays the region read through windows 0, 1
    and 2, for any contents the TensorCore's buffers held when the region was entered. -/
theorem region0_array (c : Dev nD) :
    (Cert.KernelIdeal.Gen.dat0 (F := Ideal) V c).arrAt 3 Cert.KernelIdeal.cfg0.N
      = Cert.Rgcn.scaledDense256 (F := Ideal) (V c (Pipeline.arrRef spec0 0)) (V c (Pipeline.arrRef spec0 1)) (V c (Pipeline.arrRef spec0 2)) :=
  (dat0 V c).arrAt_eq_of_cover 3 _ (fun t _ => flushed0_3 V c t) cover0_3

end Cert.Rgcn

end
-- ==== Proof.RegionArray1.lean ====
/-
  Region 1: after the row-tiled pass the whole output array is the dense stage of the arrays the pass read.

  The pass visits 25 row tiles of 2000 rows. At tile t it reads rows 2000·t … 2000·t + 1999 of the feature matrix and
  of the columns, and the whole weight matrices; what it leaves in each output tile is the tile form of the
  dense stage, which entry by entry is rows 2000·t … of the whole-array form. The tiles of the output cover its rows
  (row r lies in tile r / 2000), so the array ends holding the whole-array form, whatever it held before.
-/
import proofs.«125347_j26173530702075_2_alg».proof.Proof.ScaledDense
import proofs.«125347_j26173530702075_2_alg».proof.Proof.ScaledDenseAt
import proofs.«125347_j26173530702075_2_alg».proof.Proof.Gen.KernelIdeal.Frame
import Idealize.ShloMosaic.Lib.Pipeline.Value

noncomputable section

namespace Cert.Rgcn

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- A tile's accesses start at the origin of its buffer. -/
theorem origin1 : (![0, 0] : Fin 2 → Nat) = fun _ => 0 := funext fun a => by fin_cases a <;> rfl

/-- The block index of every window at tile t: the row windows sit at block row t, the weights at block 0. -/
theorem blockIndex1 : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = t.val
    ∧ win1_5.index t (1 : Fin 2) = 0
    ∧ win1_6.index t (0 : Fin 2) = t.val
    ∧ win1_6.index t (1 : Fin 2) = 0 :=
  (by decide +kernel : ∀ t : Fin grid1.N, _)

/-- Row p of tile t of the feature matrix is row 2000·t + p of the matrix. -/
theorem xBlock1 (c : Dev nD) (t : Fin cfg1.N) (p : Fin 2000) (k : Fin 256) (r : Fin 50000) (hr : r.val = t.val * 2000 + p.val) :
    (iblk1 V c 0 t : FVec Ideal S2000x256 .f32) (ix2 p k)
      = (V c (Pipeline.arrRef spec1 0) : FVec Ideal S50000x256 .f32) (ix2 r k) := by
  obtain ⟨e0, e1, -, -, -, -, -, -, -, -, -, -, -, -⟩ := blockIndex1 t
  have h : ((cfg1.win 0).blk t).view.emb (ix2 p k) = ix2 r k := by
    funext a; apply Fin.ext
    match a with
    | ⟨0, _⟩ => show win1_0.index t (0 : Fin 2) * 2000 + 1 * p.val = r.val; rw [e0, hr]; omega
    | ⟨1, _⟩ => show win1_0.index t (1 : Fin 2) * 256 + 1 * k.val = k.val; rw [e1]; omega
  show V c (Pipeline.arrRef spec1 0) (((cfg1.win 0).blk t).view.emb (ix2 p k)) = _
  rw [h]

/-- Entry p of tile t of the column in window 1 is entry 2000·t + p of the column. -/
theorem nBlock1_1 (c : Dev nD) (t : Fin cfg1.N) (p : Fin 2000) (r : Fin 50000) (hr : r.val = t.val * 2000 + p.val) :
    (iblk1 V c 1 t : FVec Ideal S2000x1 .f32) (ix2 p (0 : Fin 1))
      = (V c (Pipeline.arrRef spec1 1) : FVec Ideal S50000x1 .f32) (ix2 r (0 : Fin 1)) := by
  obtain ⟨-, -, e2, e3, -, -, -, -, -, -, -, -, -, -⟩ := blockIndex1 t
  have h : ((cfg1.win 1).blk t).view.emb (ix2 p (0 : Fin 1)) = ix2 r (0 : Fin 1) := by
    funext a; apply Fin.ext
    match a with
    | ⟨0, _⟩ => show win1_1.index t (0 : Fin 2) * 2000 + 1 * p.val = r.val; rw [e2, hr]; omega
    | ⟨1, _⟩ => show win1_1.index t (1 : Fin 2) * 1 + 1 * 0 = 0; rw [e3]
  show V c (Pipeline.arrRef spec1 1) (((cfg1.win 1).blk t).view.emb (ix2 p (0 : Fin 1))) = _
  rw [h]

/-- Every tile reads the whole weight matrix of window 3. -/
theorem wBlock1_3 (c : Dev nD) (t : Fin cfg1.N) (k : Fin 256) (q : Fin 256) :
    (iblk1 V c 3 t : FVec Ideal S256x256 .f32) (ix2 k q)
      = (V c (Pipeline.arrRef spec1 3) : FVec Ideal S256x256 .f32) (ix2 k q) := by
  obtain ⟨-, -, -, -, -, -, e6, e7, -, -, -, -, -, -⟩ := blockIndex1 t
  have h : ((cfg1.win 3).blk t).view.emb (ix2 k q) = ix2 k q := by
    funext a; apply Fin.ext
    match a with
    | ⟨0, _⟩ => show win1_3.index t (0 : Fin 2) * 256 + 1 * k.val = k.val; rw [e6]; omega
    | ⟨1, _⟩ => show win1_3.index t (1 : Fin 2) * 256 + 1 * q.val = q.val; rw [e7]; omega
  show V c (Pipeline.arrRef spec1 3) (((cfg1.win 3).blk t).view.emb (ix2 k q)) = _
  rw [h]

/-- What tile t writes back through window 5 is block t of the dense stage of the arrays the region read. -/
theorem flushed1_5 (c : Dev nD) (t : Fin cfg1.N) :
    (dat1 V c).flushed 5 t = ((cfg1.win 5).blk t).view.read (Elt Ideal)
      (scaledDense256 (F := Ideal) (V c (Pipeline.arrRef spec1 0)) (V c (Pipeline.arrRef spec1 1)) (V c (Pipeline.arrRef spec1 3))) := by
  show (cfg1.win 5).cut (grid1.coords t) ((dat1 V c).after 5 t) = _
  rw [after1_5]
  unfold out1_5
  rw [View.canon_unit_zero origin1]
  simp only [View.ld_unit_zero (S := S2000x256) origin1, View.ld_unit_zero (S := S2000x1) origin1,
    View.ld_unit_zero (S := S256x256) origin1]
  have ht : t.val < 25 := lt_of_lt_of_eq t.isLt N_1
  obtain ⟨-, -, -, -, -, -, -, -, -, -, e10, e11, -, -⟩ := blockIndex1 t
  refine funext fun (j : S2000x256.Idx) => ?_
  obtain ⟨p, q, rfl⟩ : ∃ (p : Fin 2000) (q : Fin 256), j = ix2 p q := ⟨j 0, j 1, eq_ix2 j⟩
  have hemb : ((cfg1.win 5).blk t).view.emb (ix2 p q) = ix2 (⟨t.val * 2000 + p.val, by omega⟩ : Fin 50000) q := by
    funext a; apply Fin.ext
    match a with
    | ⟨0, _⟩ => show win1_5.index t (0 : Fin 2) * 2000 + 1 * p.val = t.val * 2000 + p.val; rw [e10]; omega
    | ⟨1, _⟩ => show win1_5.index t (1 : Fin 2) * 256 + 1 * q.val = q.val; rw [e11]; omega
  show k1_pay1 (iblk1 V c 0 t) (iblk1 V c 1 t) (iblk1 V c 3 t) (ix2 p q)
    = scaledDense256 (F := Ideal) (V c (Pipeline.arrRef spec1 0)) (V c (Pipeline.arrRef spec1 1)) (V c (Pipeline.arrRef spec1 3))
        (((cfg1.win 5).blk t).view.emb (ix2 p q))
  rw [hemb]
  unfold k1_pay1  scaledDense256
  exact tileDense_eq_wholeDense _ _ _ _ _ none _
    (iblk1 V c 0 t) (iblk1 V c 1 t) (iblk1 V c 3 t)
    (V c (Pipeline.arrRef spec1 0)) (V c (Pipeline.arrRef spec1 1)) (V c (Pipeline.arrRef spec1 3))
    p q ⟨t.val * 2000 + p.val, by omega⟩
    (fun k => xBlock1 V c t p k _ rfl) (nBlock1_1 V c t p _ rfl) (fun k => wBlock1_3 V c t k q)

/-- An index of the output array is in tile t's block iff its coordinates are in the block's ranges. -/
theorem memBlock1_5 (t : Fin cfg1.N) (i : S50000x256.Idx) :
    i ∈ ((cfg1.win 5).blk t).view.set ↔ ∀ a : Fin 2, win1_5.index t a * S2000x256.size a ≤ (i a).val
      ∧ (i a).val < win1_5.index t a * S2000x256.size a + S2000x256.size a := by
  show i ∈ ((View.whole main_v59_0).slice (win1_5.rect t)).set ↔ _
  rw [View.set_slice_whole, Rect.mem_set_unit]
  exact Iff.rfl

/-- Row r of the output lies in the block of tile r / 2000, which is written back. -/
theorem cover1_5 (i : S50000x256.Idx) :
    ∃ t : Fin cfg1.N, (cfg1.win 5).flush t = true ∧ i ∈ ((cfg1.win 5).blk t).view.set := by
  have hi0 : (i 0).val < 50000 := (i 0).isLt
  have hi1 : (i 1).val < 256 := (i 1).isLt
  obtain ⟨t, ht⟩ : ∃ t : Fin cfg1.N, t.val = (i 0).val / 2000 :=
    ⟨⟨(i 0).val / 2000, lt_of_lt_of_eq (by omega : (i 0).val / 2000 < 25) N_1.symm⟩, rfl⟩
  obtain ⟨-, -, -, -, -, -, -, -, -, -, e10, e11, -, -⟩ := blockIndex1 t
  refine ⟨t, flush1_5 t, ?_⟩
  rw [memBlock1_5]
  intro a
  match a with
  | ⟨0, _⟩ =>
    show win1_5.index t (0 : Fin 2) * 2000 ≤ (i 0).val ∧ (i 0).val < win1_5.index t (0 : Fin 2) * 2000 + 2000
    rw [e10, ht]; omega
  | ⟨1, _⟩ =>
    show win1_5.index t (1 : Fin 2) * 256 ≤ (i 1).val ∧ (i 1).val < win1_5.index t (1 : Fin 2) * 256 + 256
    rw [e11]; omega

/-- After region 1 the array of window 5 is the dense stage of the three arrays the region read through windows 0, 1
    and 3, for any contents the TensorCore's buffers held when the region was entered. -/
theorem region1_array5 (c : Dev nD) :
    (Cert.KernelIdeal.Gen.dat1 (F := Ideal) V c).arrAt 5 Cert.KernelIdeal.cfg1.N
      = Cert.Rgcn.scaledDense256 (F := Ideal) (V c (Pipeline.arrRef spec1 0)) (V c (Pipeline.arrRef spec1 1)) (V c (Pipeline.arrRef spec1 3)) :=
  (dat1 V c).arrAt_eq_of_cover 5 _ (fun t _ => flushed1_5 V c t) cover1_5

/-- Entry p of tile t of the column in window 2 is entry 2000·t + p of the column. -/
theorem nBlock1_2 (c : Dev nD) (t : Fin cfg1.N) (p : Fin 2000) (r : Fin 50000) (hr : r.val = t.val * 2000 + p.val) :
    (iblk1 V c 2 t : FVec Ideal S2000x1 .f32) (ix2 p (0 : Fin 1))
      = (V c (Pipeline.arrRef spec1 2) : FVec Ideal S50000x1 .f32) (ix2 r (0 : Fin 1)) := by
  obtain ⟨-, -, -, -, e4, e5, -, -, -, -, -, -, -, -⟩ := blockIndex1 t
  have h : ((cfg1.win 2).blk t).view.emb (ix2 p (0 : Fin 1)) = ix2 r (0 : Fin 1) := by
    funext a; apply Fin.ext
    match a with
    | ⟨0, _⟩ => show win1_2.index t (0 : Fin 2) * 2000 + 1 * p.val = r.val; rw [e4, hr]; omega
    | ⟨1, _⟩ => show win1_2.index t (1 : Fin 2) * 1 + 1 * 0 = 0; rw [e5]
  show V c (Pipeline.arrRef spec1 2) (((cfg1.win 2).blk t).view.emb (ix2 p (0 : Fin 1))) = _
  rw [h]

/-- Every tile reads the whole weight matrix of window 4. -/
theorem wBlock1_4 (c : Dev nD) (t : Fin cfg1.N) (k : Fin 256) (q : Fin 256) :
    (iblk1 V c 4 t : FVec Ideal S256x256 .f32) (ix2 k q)
      = (V c (Pipeline.arrRef spec1 4) : FVec Ideal S256x256 .f32) (ix2 k q) := by
  obtain ⟨-, -, -, -, -, -, -, -, e8, e9, -, -, -, -⟩ := blockIndex1 t
  have h : ((cfg1.win 4).blk t).view.emb (ix2 k q) = ix2 k q := by
    funext a; apply Fin.ext
    match a with
    | ⟨0, _⟩ => show win1_4.index t (0 : Fin 2) * 256 + 1 * k.val = k.val; rw [e8]; omega
    | ⟨1, _⟩ => show win1_4.index t (1 : Fin 2) * 256 + 1 * q.val = q.val; rw [e9]; omega
  show V c (Pipeline.arrRef spec1 4) (((cfg1.win 4).blk t).view.emb (ix2 k q)) = _
  rw [h]

/-- What tile t writes back through window 6 is block t of the dense stage of the arrays the region read. -/
theorem flushed1_6 (c : Dev nD) (t : Fin cfg1.N) :
    (dat1 V c).flushed 6 t = ((cfg1.win 6).blk t).view.read (Elt Ideal)
      (scaledDense256 (F := Ideal) (V c (Pipeline.arrRef spec1 0)) (V c (Pipeline.arrRef spec1 2)) (V c (Pipeline.arrRef spec1 4))) := by
  show (cfg1.win 6).cut (grid1.coords t) ((dat1 V c).after 6 t) = _
  rw [after1_6]
  unfold out1_6
  rw [View.canon_unit_zero origin1]
  simp only [View.ld_unit_zero (S := S2000x256) origin1, View.ld_unit_zero (S := S2000x1) origin1,
    View.ld_unit_zero (S := S256x256) origin1]
  have ht : t.val < 25 := lt_of_lt_of_eq t.isLt N_1
  obtain ⟨-, -, -, -, -, -, -, -, -, -, -, -, e12, e13⟩ := blockIndex1 t
  refine funext fun (j : S2000x256.Idx) => ?_
  obtain ⟨p, q, rfl⟩ : ∃ (p : Fin 2000) (q : Fin 256), j = ix2 p q := ⟨j 0, j 1, eq_ix2 j⟩
  have hemb : ((cfg1.win 6).blk t).view.emb (ix2 p q) = ix2 (⟨t.val * 2000 + p.val, by omega⟩ : Fin 50000) q := by
    funext a; apply Fin.ext
    match a with
    | ⟨0, _⟩ => show win1_6.index t (0 : Fin 2) * 2000 + 1 * p.val = t.val * 2000 + p.val; rw [e12]; omega
    | ⟨1, _⟩ => show win1_6.index t (1 : Fin 2) * 256 + 1 * q.val = q.val; rw [e13]; omega
  show k1_pay2 (iblk1 V c 0 t) (iblk1 V c 2 t) (iblk1 V c 4 t) (ix2 p q)
    = scaledDense256 (F := Ideal) (V c (Pipeline.arrRef spec1 0)) (V c (Pipeline.arrRef spec1 2)) (V c (Pipeline.arrRef spec1 4))
        (((cfg1.win 6).blk t).view.emb (ix2 p q))
  rw [hemb]
  unfold k1_pay2  scaledDense256
  exact tileDense_eq_wholeDense _ _ _ _ _ none _
    (iblk1 V c 0 t) (iblk1 V c 2 t) (iblk1 V c 4 t)
    (V c (Pipeline.arrRef spec1 0)) (V c (Pipeline.arrRef spec1 2)) (V c (Pipeline.arrRef spec1 4))
    p q ⟨t.val * 2000 + p.val, by omega⟩
    (fun k => xBlock1 V c t p k _ rfl) (nBlock1_2 V c t p _ rfl) (fun k => wBlock1_4 V c t k q)

/-- An index of the output array is in tile t's block iff its coordinates are in the block's ranges. -/
theorem memBlock1_6 (t : Fin cfg1.N) (i : S50000x256.Idx) :
    i ∈ ((cfg1.win 6).blk t).view.set ↔ ∀ a : Fin 2, win1_6.index t a * S2000x256.size a ≤ (i a).val
      ∧ (i a).val < win1_6.index t a * S2000x256.size a + S2000x256.size a := by
  show i ∈ ((View.whole main_v59_1).slice (win1_6.rect t)).set ↔ _
  rw [View.set_slice_whole, Rect.mem_set_unit]
  exact Iff.rfl

/-- Row r of the output lies in the block of tile r / 2000, which is written back. -/
theorem cover1_6 (i : S50000x256.Idx) :
    ∃ t : Fin cfg1.N, (cfg1.win 6).flush t = true ∧ i ∈ ((cfg1.win 6).blk t).view.set := by
  have hi0 : (i 0).val < 50000 := (i 0).isLt
  have hi1 : (i 1).val < 256 := (i 1).isLt
  obtain ⟨t, ht⟩ : ∃ t : Fin cfg1.N, t.val = (i 0).val / 2000 :=
    ⟨⟨(i 0).val / 2000, lt_of_lt_of_eq (by omega : (i 0).val / 2000 < 25) N_1.symm⟩, rfl⟩
  obtain ⟨-, -, -, -, -, -, -, -, -, -, -, -, e12, e13⟩ := blockIndex1 t
  refine ⟨t, flush1_6 t, ?_⟩
  rw [memBlock1_6]
  intro a
  match a with
  | ⟨0, _⟩ =>
    show win1_6.index t (0 : Fin 2) * 2000 ≤ (i 0).val ∧ (i 0).val < win1_6.index t (0 : Fin 2) * 2000 + 2000
    rw [e12, ht]; omega
  | ⟨1, _⟩ =>
    show win1_6.index t (1 : Fin 2) * 256 ≤ (i 1).val ∧ (i 1).val < win1_6.index t (1 : Fin 2) * 256 + 256
    rw [e13]; omega

/-- After region 1 the array of window 6 is the dense stage of the three arrays the region read through windows 0, 2
    and 4, for any contents the TensorCore's buffers held when the region was entered. -/
theorem region1_array6 (c : Dev nD) :
    (Cert.KernelIdeal.Gen.dat1 (F := Ideal) V c).arrAt 6 Cert.KernelIdeal.cfg1.N
      = Cert.Rgcn.scaledDense256 (F := Ideal) (V c (Pipeline.arrRef spec1 0)) (V c (Pipeline.arrRef spec1 2)) (V c (Pipeline.arrRef spec1 4)) :=
  (dat1 V c).arrAt_eq_of_cover 6 _ (fun t _ => flushed1_6 V c t) cover1_6

end Cert.Rgcn

end
-- ==== Proof.RegionArray2.lean ====
/-
  Region 2: after the row-tiled pass the whole output array is the dense stage of the arrays the pass read.

  The pass visits 10 row tiles of 5000 rows. At tile t it reads rows 5000·t … 5000·t + 4999 of the feature matrix and
  of the column, and the whole weight matrix; what it leaves in the output tile is the tile form of the
  dense stage, which entry by entry is rows 5000·t … of the whole-array form. The tiles of the output cover its rows
  (row r lies in tile r / 5000), so the array ends holding the whole-array form, whatever it held before.
-/
import proofs.«125347_j26173530702075_2_alg».proof.Proof.ScaledDense
import proofs.«125347_j26173530702075_2_alg».proof.Proof.ScaledDenseAt
import proofs.«125347_j26173530702075_2_alg».proof.Proof.Gen.KernelIdeal.Frame
import Idealize.ShloMosaic.Lib.Pipeline.Value

noncomputable section

namespace Cert.Rgcn

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- A tile's accesses start at the origin of its buffer. -/
theorem origin2 : (![0, 0] : Fin 2 → Nat) = fun _ => 0 := funext fun a => by fin_cases a <;> rfl

/-- The block index of every window at tile t: the row windows sit at block row t, the weights at block 0. -/
theorem blockIndex2 : ∀ t : Fin cfg2.N,
    win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = t.val
    ∧ win2_3.index t (1 : Fin 2) = 0 :=
  (by decide +kernel : ∀ t : Fin grid2.N, _)

/-- Row p of tile t of the feature matrix is row 5000·t + p of the matrix. -/
theorem xBlock2 (c : Dev nD) (t : Fin cfg2.N) (p : Fin 5000) (k : Fin 256) (r : Fin 50000) (hr : r.val = t.val * 5000 + p.val) :
    (iblk2 V c 0 t : FVec Ideal S5000x256 .f32) (ix2 p k)
      = (V c (Pipeline.arrRef spec2 0) : FVec Ideal S50000x256 .f32) (ix2 r k) := by
  obtain ⟨e0, e1, -, -, -, -, -, -⟩ := blockIndex2 t
  have h : ((cfg2.win 0).blk t).view.emb (ix2 p k) = ix2 r k := by
    funext a; apply Fin.ext
    match a with
    | ⟨0, _⟩ => show win2_0.index t (0 : Fin 2) * 5000 + 1 * p.val = r.val; rw [e0, hr]; omega
    | ⟨1, _⟩ => show win2_0.index t (1 : Fin 2) * 256 + 1 * k.val = k.val; rw [e1]; omega
  show V c (Pipeline.arrRef spec2 0) (((cfg2.win 0).blk t).view.emb (ix2 p k)) = _
  rw [h]

/-- Entry p of tile t of the column in window 1 is entry 5000·t + p of the column. -/
theorem nBlock2_1 (c : Dev nD) (t : Fin cfg2.N) (p : Fin 5000) (r : Fin 50000) (hr : r.val = t.val * 5000 + p.val) :
    (iblk2 V c 1 t : FVec Ideal S5000x1 .f32) (ix2 p (0 : Fin 1))
      = (V c (Pipeline.arrRef spec2 1) : FVec Ideal S50000x1 .f32) (ix2 r (0 : Fin 1)) := by
  obtain ⟨-, -, e2, e3, -, -, -, -⟩ := blockIndex2 t
  have h : ((cfg2.win 1).blk t).view.emb (ix2 p (0 : Fin 1)) = ix2 r (0 : Fin 1) := by
    funext a; apply Fin.ext
    match a with
    | ⟨0, _⟩ => show win2_1.index t (0 : Fin 2) * 5000 + 1 * p.val = r.val; rw [e2, hr]; omega
    | ⟨1, _⟩ => show win2_1.index t (1 : Fin 2) * 1 + 1 * 0 = 0; rw [e3]
  show V c (Pipeline.arrRef spec2 1) (((cfg2.win 1).blk t).view.emb (ix2 p (0 : Fin 1))) = _
  rw [h]

/-- Every tile reads the whole weight matrix of window 2. -/
theorem wBlock2_2 (c : Dev nD) (t : Fin cfg2.N) (k : Fin 256) (q : Fin 256) :
    (iblk2 V c 2 t : FVec Ideal S256x256 .f32) (ix2 k q)
      = (V c (Pipeline.arrRef spec2 2) : FVec Ideal S256x256 .f32) (ix2 k q) := by
  obtain ⟨-, -, -, -, e4, e5, -, -⟩ := blockIndex2 t
  have h : ((cfg2.win 2).blk t).view.emb (ix2 k q) = ix2 k q := by
    funext a; apply Fin.ext
    match a with
    | ⟨0, _⟩ => show win2_2.index t (0 : Fin 2) * 256 + 1 * k.val = k.val; rw [e4]; omega
    | ⟨1, _⟩ => show win2_2.index t (1 : Fin 2) * 256 + 1 * q.val = q.val; rw [e5]; omega
  show V c (Pipeline.arrRef spec2 2) (((cfg2.win 2).blk t).view.emb (ix2 k q)) = _
  rw [h]

/-- What tile t writes back through window 3 is block t of the dense stage of the arrays the region read. -/
theorem flushed2_3 (c : Dev nD) (t : Fin cfg2.N) :
    (dat2 V c).flushed 3 t = ((cfg2.win 3).blk t).view.read (Elt Ideal)
      (scaledDense256 (F := Ideal) (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero origin2]
  simp only [View.ld_unit_zero (S := S5000x256) origin2, View.ld_unit_zero (S := S5000x1) origin2,
    View.ld_unit_zero (S := S256x256) origin2]
  have ht : t.val < 10 := lt_of_lt_of_eq t.isLt N_2
  obtain ⟨-, -, -, -, -, -, e6, e7⟩ := blockIndex2 t
  refine funext fun (j : S5000x256.Idx) => ?_
  obtain ⟨p, q, rfl⟩ : ∃ (p : Fin 5000) (q : Fin 256), j = ix2 p q := ⟨j 0, j 1, eq_ix2 j⟩
  have hemb : ((cfg2.win 3).blk t).view.emb (ix2 p q) = ix2 (⟨t.val * 5000 + p.val, by omega⟩ : Fin 50000) q := by
    funext a; apply Fin.ext
    match a with
    | ⟨0, _⟩ => show win2_3.index t (0 : Fin 2) * 5000 + 1 * p.val = t.val * 5000 + p.val; rw [e6]; omega
    | ⟨1, _⟩ => show win2_3.index t (1 : Fin 2) * 256 + 1 * q.val = q.val; rw [e7]; omega
  show k2_pay1 (iblk2 V c 0 t) (iblk2 V c 1 t) (iblk2 V c 2 t) (ix2 p q)
    = scaledDense256 (F := Ideal) (V c (Pipeline.arrRef spec2 0)) (V c (Pipeline.arrRef spec2 1)) (V c (Pipeline.arrRef spec2 2))
        (((cfg2.win 3).blk t).view.emb (ix2 p q))
  rw [hemb]
  unfold k2_pay1  scaledDense256
  exact tileDenseCast_eq_wholeDense _ _ _ _ _ _ none _
    (iblk2 V c 0 t) (iblk2 V c 1 t) (iblk2 V c 2 t)
    (V c (Pipeline.arrRef spec2 0)) (V c (Pipeline.arrRef spec2 1)) (V c (Pipeline.arrRef spec2 2))
    p q ⟨t.val * 5000 + p.val, by omega⟩
    (fun k => xBlock2 V c t p k _ rfl) (nBlock2_1 V c t p _ rfl) (fun k => wBlock2_2 V c t k q)

/-- An index of the output array is in tile t's block iff its coordinates are in the block's ranges. -/
theorem memBlock2_3 (t : Fin cfg2.N) (i : S50000x256.Idx) :
    i ∈ ((cfg2.win 3).blk t).view.set ↔ ∀ a : Fin 2, win2_3.index t a * S5000x256.size a ≤ (i a).val
      ∧ (i a).val < win2_3.index t a * S5000x256.size a + S5000x256.size a := by
  show i ∈ ((View.whole main_v96).slice (win2_3.rect t)).set ↔ _
  rw [View.set_slice_whole, Rect.mem_set_unit]
  exact Iff.rfl

/-- Row r of the output lies in the block of tile r / 5000, which is written back. -/
theorem cover2_3 (i : S50000x256.Idx) :
    ∃ t : Fin cfg2.N, (cfg2.win 3).flush t = true ∧ i ∈ ((cfg2.win 3).blk t).view.set := by
  have hi0 : (i 0).val < 50000 := (i 0).isLt
  have hi1 : (i 1).val < 256 := (i 1).isLt
  obtain ⟨t, ht⟩ : ∃ t : Fin cfg2.N, t.val = (i 0).val / 5000 :=
    ⟨⟨(i 0).val / 5000, lt_of_lt_of_eq (by omega : (i 0).val / 5000 < 10) N_2.symm⟩, rfl⟩
  obtain ⟨-, -, -, -, -, -, e6, e7⟩ := blockIndex2 t
  refine ⟨t, flush2_3 t, ?_⟩
  rw [memBlock2_3]
  intro a
  match a with
  | ⟨0, _⟩ =>
    show win2_3.index t (0 : Fin 2) * 5000 ≤ (i 0).val ∧ (i 0).val < win2_3.index t (0 : Fin 2) * 5000 + 5000
    rw [e6, ht]; omega
  | ⟨1, _⟩ =>
    show win2_3.index t (1 : Fin 2) * 256 ≤ (i 1).val ∧ (i 1).val < win2_3.index t (1 : Fin 2) * 256 + 256
    rw [e7]; omega

/-- After region 2 the array of window 3 is the dense stage of the three arrays the region read through windows 0, 1
    and 2, for any contents the TensorCore's buffers held when the region was entered. -/
theorem region2_array (c : Dev nD) :
    (Cert.KernelIdeal.Gen.dat2 (F := Ideal) V c).arrAt 3 Cert.KernelIdeal.cfg2.N
      = Cert.Rgcn.scaledDense256 (F := Ideal) (V c (Pipeline.arrRef spec2 0)) (V c (Pipeline.arrRef spec2 1)) (V c (Pipeline.arrRef spec2 2)) :=
  (dat2 V c).arrAt_eq_of_cover 3 _ (fun t _ => flushed2_3 V c t) cover2_3

end Cert.Rgcn

end
-- ==== Proof.RegionArray3.lean ====
/-
  Region 3: after the row-tiled pass the whole output array is the dense stage of the arrays the pass read.

  The pass visits 25 row tiles of 2000 rows. At tile t it reads rows 2000·t … 2000·t + 1999 of the feature matrix and
  of the columns, and the whole weight matrices; what it leaves in each output tile is the tile form of the
  dense stage, which entry by entry is rows 2000·t … of the whole-array form. The tiles of the output cover its rows
  (row r lies in tile r / 2000), so the array ends holding the whole-array form, whatever it held before.
-/
import proofs.«125347_j26173530702075_2_alg».proof.Proof.ScaledDense
import proofs.«125347_j26173530702075_2_alg».proof.Proof.ScaledDenseAt
import proofs.«125347_j26173530702075_2_alg».proof.Proof.Gen.KernelIdeal.Frame
import Idealize.ShloMosaic.Lib.Pipeline.Value

noncomputable section

namespace Cert.Rgcn

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- A tile's accesses start at the origin of its buffer. -/
theorem origin3 : (![0, 0] : Fin 2 → Nat) = fun _ => 0 := funext fun a => by fin_cases a <;> rfl

/-- The block index of every window at tile t: the row windows sit at block row t, the weights at block 0. -/
theorem blockIndex3 : ∀ t : Fin cfg3.N,
    win3_0.index t (0 : Fin 2) = t.val
    ∧ win3_0.index t (1 : Fin 2) = 0
    ∧ win3_1.index t (0 : Fin 2) = t.val
    ∧ win3_1.index t (1 : Fin 2) = 0
    ∧ win3_2.index t (0 : Fin 2) = t.val
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = t.val
    ∧ win3_5.index t (1 : Fin 2) = 0
    ∧ win3_6.index t (0 : Fin 2) = t.val
    ∧ win3_6.index t (1 : Fin 2) = 0 :=
  (by decide +kernel : ∀ t : Fin grid3.N, _)

/-- Row p of tile t of the feature matrix is row 2000·t + p of the matrix. -/
theorem xBlock3 (c : Dev nD) (t : Fin cfg3.N) (p : Fin 2000) (k : Fin 256) (r : Fin 50000) (hr : r.val = t.val * 2000 + p.val) :
    (iblk3 V c 0 t : FVec Ideal S2000x256 .f32) (ix2 p k)
      = (V c (Pipeline.arrRef spec3 0) : FVec Ideal S50000x256 .f32) (ix2 r k) := by
  obtain ⟨e0, e1, -, -, -, -, -, -, -, -, -, -, -, -⟩ := blockIndex3 t
  have h : ((cfg3.win 0).blk t).view.emb (ix2 p k) = ix2 r k := by
    funext a; apply Fin.ext
    match a with
    | ⟨0, _⟩ => show win3_0.index t (0 : Fin 2) * 2000 + 1 * p.val = r.val; rw [e0, hr]; omega
    | ⟨1, _⟩ => show win3_0.index t (1 : Fin 2) * 256 + 1 * k.val = k.val; rw [e1]; omega
  show V c (Pipeline.arrRef spec3 0) (((cfg3.win 0).blk t).view.emb (ix2 p k)) = _
  rw [h]

/-- Entry p of tile t of the column in window 1 is entry 2000·t + p of the column. -/
theorem nBlock3_1 (c : Dev nD) (t : Fin cfg3.N) (p : Fin 2000) (r : Fin 50000) (hr : r.val = t.val * 2000 + p.val) :
    (iblk3 V c 1 t : FVec Ideal S2000x1 .f32) (ix2 p (0 : Fin 1))
      = (V c (Pipeline.arrRef spec3 1) : FVec Ideal S50000x1 .f32) (ix2 r (0 : Fin 1)) := by
  obtain ⟨-, -, e2, e3, -, -, -, -, -, -, -, -, -, -⟩ := blockIndex3 t
  have h : ((cfg3.win 1).blk t).view.emb (ix2 p (0 : Fin 1)) = ix2 r (0 : Fin 1) := by
    funext a; apply Fin.ext
    match a with
    | ⟨0, _⟩ => show win3_1.index t (0 : Fin 2) * 2000 + 1 * p.val = r.val; rw [e2, hr]; omega
    | ⟨1, _⟩ => show win3_1.index t (1 : Fin 2) * 1 + 1 * 0 = 0; rw [e3]
  show V c (Pipeline.arrRef spec3 1) (((cfg3.win 1).blk t).view.emb (ix2 p (0 : Fin 1))) = _
  rw [h]

/-- Every tile reads the whole weight matrix of window 3. -/
theorem wBlock3_3 (c : Dev nD) (t : Fin cfg3.N) (k : Fin 256) (q : Fin 256) :
    (iblk3 V c 3 t : FVec Ideal S256x256 .f32) (ix2 k q)
      = (V c (Pipeline.arrRef spec3 3) : FVec Ideal S256x256 .f32) (ix2 k q) := by
  obtain ⟨-, -, -, -, -, -, e6, e7, -, -, -, -, -, -⟩ := blockIndex3 t
  have h : ((cfg3.win 3).blk t).view.emb (ix2 k q) = ix2 k q := by
    funext a; apply Fin.ext
    match a with
    | ⟨0, _⟩ => show win3_3.index t (0 : Fin 2) * 256 + 1 * k.val = k.val; rw [e6]; omega
    | ⟨1, _⟩ => show win3_3.index t (1 : Fin 2) * 256 + 1 * q.val = q.val; rw [e7]; omega
  show V c (Pipeline.arrRef spec3 3) (((cfg3.win 3).blk t).view.emb (ix2 k q)) = _
  rw [h]

/-- What tile t writes back through window 5 is block t of the dense stage of the arrays the region read. -/
theorem flushed3_5 (c : Dev nD) (t : Fin cfg3.N) :
    (dat3 V c).flushed 5 t = ((cfg3.win 5).blk t).view.read (Elt Ideal)
      (scaledDense256 (F := Ideal) (V c (Pipeline.arrRef spec3 0)) (V c (Pipeline.arrRef spec3 1)) (V c (Pipeline.arrRef spec3 3))) := by
  show (cfg3.win 5).cut (grid3.coords t) ((dat3 V c).after 5 t) = _
  rw [after3_5]
  unfold out3_5
  rw [View.canon_unit_zero origin3]
  simp only [View.ld_unit_zero (S := S2000x256) origin3, View.ld_unit_zero (S := S2000x1) origin3,
    View.ld_unit_zero (S := S256x256) origin3]
  have ht : t.val < 25 := lt_of_lt_of_eq t.isLt N_3
  obtain ⟨-, -, -, -, -, -, -, -, -, -, e10, e11, -, -⟩ := blockIndex3 t
  refine funext fun (j : S2000x256.Idx) => ?_
  obtain ⟨p, q, rfl⟩ : ∃ (p : Fin 2000) (q : Fin 256), j = ix2 p q := ⟨j 0, j 1, eq_ix2 j⟩
  have hemb : ((cfg3.win 5).blk t).view.emb (ix2 p q) = ix2 (⟨t.val * 2000 + p.val, by omega⟩ : Fin 50000) q := by
    funext a; apply Fin.ext
    match a with
    | ⟨0, _⟩ => show win3_5.index t (0 : Fin 2) * 2000 + 1 * p.val = t.val * 2000 + p.val; rw [e10]; omega
    | ⟨1, _⟩ => show win3_5.index t (1 : Fin 2) * 256 + 1 * q.val = q.val; rw [e11]; omega
  show k3_pay2 (iblk3 V c 0 t) (iblk3 V c 1 t) (iblk3 V c 3 t) (ix2 p q)
    = scaledDense256 (F := Ideal) (V c (Pipeline.arrRef spec3 0)) (V c (Pipeline.arrRef spec3 1)) (V c (Pipeline.arrRef spec3 3))
        (((cfg3.win 5).blk t).view.emb (ix2 p q))
  rw [hemb]
  unfold k3_pay2 k3_pay1 scaledDense256
  exact tileDenseCast_eq_wholeDense _ _ _ _ _ _ none _
    (iblk3 V c 0 t) (iblk3 V c 1 t) (iblk3 V c 3 t)
    (V c (Pipeline.arrRef spec3 0)) (V c (Pipeline.arrRef spec3 1)) (V c (Pipeline.arrRef spec3 3))
    p q ⟨t.val * 2000 + p.val, by omega⟩
    (fun k => xBlock3 V c t p k _ rfl) (nBlock3_1 V c t p _ rfl) (fun k => wBlock3_3 V c t k q)

/-- An index of the output array is in tile t's block iff its coordinates are in the block's ranges. -/
theorem memBlock3_5 (t : Fin cfg3.N) (i : S50000x256.Idx) :
    i ∈ ((cfg3.win 5).blk t).view.set ↔ ∀ a : Fin 2, win3_5.index t a * S2000x256.size a ≤ (i a).val
      ∧ (i a).val < win3_5.index t a * S2000x256.size a + S2000x256.size a := by
  show i ∈ ((View.whole main_v115_0).slice (win3_5.rect t)).set ↔ _
  rw [View.set_slice_whole, Rect.mem_set_unit]
  exact Iff.rfl

/-- Row r of the output lies in the block of tile r / 2000, which is written back. -/
theorem cover3_5 (i : S50000x256.Idx) :
    ∃ t : Fin cfg3.N, (cfg3.win 5).flush t = true ∧ i ∈ ((cfg3.win 5).blk t).view.set := by
  have hi0 : (i 0).val < 50000 := (i 0).isLt
  have hi1 : (i 1).val < 256 := (i 1).isLt
  obtain ⟨t, ht⟩ : ∃ t : Fin cfg3.N, t.val = (i 0).val / 2000 :=
    ⟨⟨(i 0).val / 2000, lt_of_lt_of_eq (by omega : (i 0).val / 2000 < 25) N_3.symm⟩, rfl⟩
  obtain ⟨-, -, -, -, -, -, -, -, -, -, e10, e11, -, -⟩ := blockIndex3 t
  refine ⟨t, flush3_5 t, ?_⟩
  rw [memBlock3_5]
  intro a
  match a with
  | ⟨0, _⟩ =>
    show win3_5.index t (0 : Fin 2) * 2000 ≤ (i 0).val ∧ (i 0).val < win3_5.index t (0 : Fin 2) * 2000 + 2000
    rw [e10, ht]; omega
  | ⟨1, _⟩ =>
    show win3_5.index t (1 : Fin 2) * 256 ≤ (i 1).val ∧ (i 1).val < win3_5.index t (1 : Fin 2) * 256 + 256
    rw [e11]; omega

/-- After region 3 the array of window 5 is the dense stage of the three arrays the region read through windows 0, 1
    and 3, for any contents the TensorCore's buffers held when the region was entered. -/
theorem region3_array5 (c : Dev nD) :
    (Cert.KernelIdeal.Gen.dat3 (F := Ideal) V c).arrAt 5 Cert.KernelIdeal.cfg3.N
      = Cert.Rgcn.scaledDense256 (F := Ideal) (V c (Pipeline.arrRef spec3 0)) (V c (Pipeline.arrRef spec3 1)) (V c (Pipeline.arrRef spec3 3)) :=
  (dat3 V c).arrAt_eq_of_cover 5 _ (fun t _ => flushed3_5 V c t) cover3_5

/-- Entry p of tile t of the column in window 2 is entry 2000·t + p of the column. -/
theorem nBlock3_2 (c : Dev nD) (t : Fin cfg3.N) (p : Fin 2000) (r : Fin 50000) (hr : r.val = t.val * 2000 + p.val) :
    (iblk3 V c 2 t : FVec Ideal S2000x1 .f32) (ix2 p (0 : Fin 1))
      = (V c (Pipeline.arrRef spec3 2) : FVec Ideal S50000x1 .f32) (ix2 r (0 : Fin 1)) := by
  obtain ⟨-, -, -, -, e4, e5, -, -, -, -, -, -, -, -⟩ := blockIndex3 t
  have h : ((cfg3.win 2).blk t).view.emb (ix2 p (0 : Fin 1)) = ix2 r (0 : Fin 1) := by
    funext a; apply Fin.ext
    match a with
    | ⟨0, _⟩ => show win3_2.index t (0 : Fin 2) * 2000 + 1 * p.val = r.val; rw [e4, hr]; omega
    | ⟨1, _⟩ => show win3_2.index t (1 : Fin 2) * 1 + 1 * 0 = 0; rw [e5]
  show V c (Pipeline.arrRef spec3 2) (((cfg3.win 2).blk t).view.emb (ix2 p (0 : Fin 1))) = _
  rw [h]

/-- Every tile reads the whole weight matrix of window 4. -/
theorem wBlock3_4 (c : Dev nD) (t : Fin cfg3.N) (k : Fin 256) (q : Fin 256) :
    (iblk3 V c 4 t : FVec Ideal S256x256 .f32) (ix2 k q)
      = (V c (Pipeline.arrRef spec3 4) : FVec Ideal S256x256 .f32) (ix2 k q) := by
  obtain ⟨-, -, -, -, -, -, -, -, e8, e9, -, -, -, -⟩ := blockIndex3 t
  have h : ((cfg3.win 4).blk t).view.emb (ix2 k q) = ix2 k q := by
    funext a; apply Fin.ext
    match a with
    | ⟨0, _⟩ => show win3_4.index t (0 : Fin 2) * 256 + 1 * k.val = k.val; rw [e8]; omega
    | ⟨1, _⟩ => show win3_4.index t (1 : Fin 2) * 256 + 1 * q.val = q.val; rw [e9]; omega
  show V c (Pipeline.arrRef spec3 4) (((cfg3.win 4).blk t).view.emb (ix2 k q)) = _
  rw [h]

/-- What tile t writes back through window 6 is block t of the dense stage of the arrays the region read. -/
theorem flushed3_6 (c : Dev nD) (t : Fin cfg3.N) :
    (dat3 V c).flushed 6 t = ((cfg3.win 6).blk t).view.read (Elt Ideal)
      (scaledDense256 (F := Ideal) (V c (Pipeline.arrRef spec3 0)) (V c (Pipeline.arrRef spec3 2)) (V c (Pipeline.arrRef spec3 4))) := by
  show (cfg3.win 6).cut (grid3.coords t) ((dat3 V c).after 6 t) = _
  rw [after3_6]
  unfold out3_6
  rw [View.canon_unit_zero origin3]
  simp only [View.ld_unit_zero (S := S2000x256) origin3, View.ld_unit_zero (S := S2000x1) origin3,
    View.ld_unit_zero (S := S256x256) origin3]
  have ht : t.val < 25 := lt_of_lt_of_eq t.isLt N_3
  obtain ⟨-, -, -, -, -, -, -, -, -, -, -, -, e12, e13⟩ := blockIndex3 t
  refine funext fun (j : S2000x256.Idx) => ?_
  obtain ⟨p, q, rfl⟩ : ∃ (p : Fin 2000) (q : Fin 256), j = ix2 p q := ⟨j 0, j 1, eq_ix2 j⟩
  have hemb : ((cfg3.win 6).blk t).view.emb (ix2 p q) = ix2 (⟨t.val * 2000 + p.val, by omega⟩ : Fin 50000) q := by
    funext a; apply Fin.ext
    match a with
    | ⟨0, _⟩ => show win3_6.index t (0 : Fin 2) * 2000 + 1 * p.val = t.val * 2000 + p.val; rw [e12]; omega
    | ⟨1, _⟩ => show win3_6.index t (1 : Fin 2) * 256 + 1 * q.val = q.val; rw [e13]; omega
  show k3_pay3 (iblk3 V c 0 t) (iblk3 V c 2 t) (iblk3 V c 4 t) (ix2 p q)
    = scaledDense256 (F := Ideal) (V c (Pipeline.arrRef spec3 0)) (V c (Pipeline.arrRef spec3 2)) (V c (Pipeline.arrRef spec3 4))
        (((cfg3.win 6).blk t).view.emb (ix2 p q))
  rw [hemb]
  unfold k3_pay3 k3_pay1 scaledDense256
  exact tileDenseCast_eq_wholeDense _ _ _ _ _ _ none _
    (iblk3 V c 0 t) (iblk3 V c 2 t) (iblk3 V c 4 t)
    (V c (Pipeline.arrRef spec3 0)) (V c (Pipeline.arrRef spec3 2)) (V c (Pipeline.arrRef spec3 4))
    p q ⟨t.val * 2000 + p.val, by omega⟩
    (fun k => xBlock3 V c t p k _ rfl) (nBlock3_2 V c t p _ rfl) (fun k => wBlock3_4 V c t k q)

/-- An index of the output array is in tile t's block iff its coordinates are in the block's ranges. -/
theorem memBlock3_6 (t : Fin cfg3.N) (i : S50000x256.Idx) :
    i ∈ ((cfg3.win 6).blk t).view.set ↔ ∀ a : Fin 2, win3_6.index t a * S2000x256.size a ≤ (i a).val
      ∧ (i a).val < win3_6.index t a * S2000x256.size a + S2000x256.size a := by
  show i ∈ ((View.whole main_v115_1).slice (win3_6.rect t)).set ↔ _
  rw [View.set_slice_whole, Rect.mem_set_unit]
  exact Iff.rfl

/-- Row r of the output lies in the block of tile r / 2000, which is written back. -/
theorem cover3_6 (i : S50000x256.Idx) :
    ∃ t : Fin cfg3.N, (cfg3.win 6).flush t = true ∧ i ∈ ((cfg3.win 6).blk t).view.set := by
  have hi0 : (i 0).val < 50000 := (i 0).isLt
  have hi1 : (i 1).val < 256 := (i 1).isLt
  obtain ⟨t, ht⟩ : ∃ t : Fin cfg3.N, t.val = (i 0).val / 2000 :=
    ⟨⟨(i 0).val / 2000, lt_of_lt_of_eq (by omega : (i 0).val / 2000 < 25) N_3.symm⟩, rfl⟩
  obtain ⟨-, -, -, -, -, -, -, -, -, -, -, -, e12, e13⟩ := blockIndex3 t
  refine ⟨t, flush3_6 t, ?_⟩
  rw [memBlock3_6]
  intro a
  match a with
  | ⟨0, _⟩ =>
    show win3_6.index t (0 : Fin 2) * 2000 ≤ (i 0).val ∧ (i 0).val < win3_6.index t (0 : Fin 2) * 2000 + 2000
    rw [e12, ht]; omega
  | ⟨1, _⟩ =>
    show win3_6.index t (1 : Fin 2) * 256 ≤ (i 1).val ∧ (i 1).val < win3_6.index t (1 : Fin 2) * 256 + 256
    rw [e13]; omega

/-- After region 3 the array of window 6 is the dense stage of the three arrays the region read through windows 0, 2
    and 4, for any contents the TensorCore's buffers held when the region was entered. -/
theorem region3_array6 (c : Dev nD) :
    (Cert.KernelIdeal.Gen.dat3 (F := Ideal) V c).arrAt 6 Cert.KernelIdeal.cfg3.N
      = Cert.Rgcn.scaledDense256 (F := Ideal) (V c (Pipeline.arrRef spec3 0)) (V c (Pipeline.arrRef spec3 2)) (V c (Pipeline.arrRef spec3 4)) :=
  (dat3 V c).arrAt_eq_of_cover 6 _ (fun t _ => flushed3_6 V c t) cover3_6

end Cert.Rgcn

end
-- ==== Proof.RegionArray4.lean ====
/-
  Region 4: after the row-tiled pass the whole output array is the dense stage of the arrays the pass read.

  The pass visits 10 row tiles of 5000 rows. At tile t it reads rows 5000·t … 5000·t + 4999 of the feature matrix and
  of the column, and the whole weight matrix; what it leaves in the output tile is the tile form of the
  dense stage, which entry by entry is rows 5000·t … of the whole-array form. The tiles of the output cover its rows
  (row r lies in tile r / 5000), so the array ends holding the whole-array form, whatever it held before.
-/
import proofs.«125347_j26173530702075_2_alg».proof.Proof.ScaledDense
import proofs.«125347_j26173530702075_2_alg».proof.Proof.ScaledDenseAt
import proofs.«125347_j26173530702075_2_alg».proof.Proof.Gen.KernelIdeal.Frame
import Idealize.ShloMosaic.Lib.Pipeline.Value

noncomputable section

namespace Cert.Rgcn

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- A tile's accesses start at the origin of its buffer. -/
theorem origin4 : (![0, 0] : Fin 2 → Nat) = fun _ => 0 := funext fun a => by fin_cases a <;> rfl

/-- The block index of every window at tile t: the row windows sit at block row t, the weights at block 0. -/
theorem blockIndex4 : ∀ t : Fin cfg4.N,
    win4_0.index t (0 : Fin 2) = t.val
    ∧ win4_0.index t (1 : Fin 2) = 0
    ∧ win4_1.index t (0 : Fin 2) = t.val
    ∧ win4_1.index t (1 : Fin 2) = 0
    ∧ win4_2.index t (0 : Fin 2) = 0
    ∧ win4_2.index t (1 : Fin 2) = 0
    ∧ win4_3.index t (0 : Fin 2) = t.val
    ∧ win4_3.index t (1 : Fin 2) = 0 :=
  (by decide +kernel : ∀ t : Fin grid4.N, _)

/-- Row p of tile t of the feature matrix is row 5000·t + p of the matrix. -/
theorem xBlock4 (c : Dev nD) (t : Fin cfg4.N) (p : Fin 5000) (k : Fin 256) (r : Fin 50000) (hr : r.val = t.val * 5000 + p.val) :
    (iblk4 V c 0 t : FVec Ideal S5000x256 .f32) (ix2 p k)
      = (V c (Pipeline.arrRef spec4 0) : FVec Ideal S50000x256 .f32) (ix2 r k) := by
  obtain ⟨e0, e1, -, -, -, -, -, -⟩ := blockIndex4 t
  have h : ((cfg4.win 0).blk t).view.emb (ix2 p k) = ix2 r k := by
    funext a; apply Fin.ext
    match a with
    | ⟨0, _⟩ => show win4_0.index t (0 : Fin 2) * 5000 + 1 * p.val = r.val; rw [e0, hr]; omega
    | ⟨1, _⟩ => show win4_0.index t (1 : Fin 2) * 256 + 1 * k.val = k.val; rw [e1]; omega
  show V c (Pipeline.arrRef spec4 0) (((cfg4.win 0).blk t).view.emb (ix2 p k)) = _
  rw [h]

/-- Entry p of tile t of the column in window 1 is entry 5000·t + p of the column. -/
theorem nBlock4_1 (c : Dev nD) (t : Fin cfg4.N) (p : Fin 5000) (r : Fin 50000) (hr : r.val = t.val * 5000 + p.val) :
    (iblk4 V c 1 t : FVec Ideal S5000x1 .f32) (ix2 p (0 : Fin 1))
      = (V c (Pipeline.arrRef spec4 1) : FVec Ideal S50000x1 .f32) (ix2 r (0 : Fin 1)) := by
  obtain ⟨-, -, e2, e3, -, -, -, -⟩ := blockIndex4 t
  have h : ((cfg4.win 1).blk t).view.emb (ix2 p (0 : Fin 1)) = ix2 r (0 : Fin 1) := by
    funext a; apply Fin.ext
    match a with
    | ⟨0, _⟩ => show win4_1.index t (0 : Fin 2) * 5000 + 1 * p.val = r.val; rw [e2, hr]; omega
    | ⟨1, _⟩ => show win4_1.index t (1 : Fin 2) * 1 + 1 * 0 = 0; rw [e3]
  show V c (Pipeline.arrRef spec4 1) (((cfg4.win 1).blk t).view.emb (ix2 p (0 : Fin 1))) = _
  rw [h]

/-- Every tile reads the whole weight matrix of window 2. -/
theorem wBlock4_2 (c : Dev nD) (t : Fin cfg4.N) (k : Fin 256) (q : Fin 128) :
    (iblk4 V c 2 t : FVec Ideal S256x128 .f32) (ix2 k q)
      = (V c (Pipeline.arrRef spec4 2) : FVec Ideal S256x128 .f32) (ix2 k q) := by
  obtain ⟨-, -, -, -, e4, e5, -, -⟩ := blockIndex4 t
  have h : ((cfg4.win 2).blk t).view.emb (ix2 k q) = ix2 k q := by
    funext a; apply Fin.ext
    match a with
    | ⟨0, _⟩ => show win4_2.index t (0 : Fin 2) * 256 + 1 * k.val = k.val; rw [e4]; omega
    | ⟨1, _⟩ => show win4_2.index t (1 : Fin 2) * 128 + 1 * q.val = q.val; rw [e5]; omega
  show V c (Pipeline.arrRef spec4 2) (((cfg4.win 2).blk t).view.emb (ix2 k q)) = _
  rw [h]

/-- What tile t writes back through window 3 is block t of the dense stage of the arrays the region read. -/
theorem flushed4_3 (c : Dev nD) (t : Fin cfg4.N) :
    (dat4 V c).flushed 3 t = ((cfg4.win 3).blk t).view.read (Elt Ideal)
      (scaledDense128 (F := Ideal) (V c (Pipeline.arrRef spec4 0)) (V c (Pipeline.arrRef spec4 1)) (V c (Pipeline.arrRef spec4 2))) := by
  show (cfg4.win 3).cut (grid4.coords t) ((dat4 V c).after 3 t) = _
  rw [after4_3]
  unfold out4_3
  rw [View.canon_unit_zero origin4]
  simp only [View.ld_unit_zero (S := S5000x256) origin4, View.ld_unit_zero (S := S5000x1) origin4,
    View.ld_unit_zero (S := S256x128) origin4]
  have ht : t.val < 10 := lt_of_lt_of_eq t.isLt N_4
  obtain ⟨-, -, -, -, -, -, e6, e7⟩ := blockIndex4 t
  refine funext fun (j : S5000x128.Idx) => ?_
  obtain ⟨p, q, rfl⟩ : ∃ (p : Fin 5000) (q : Fin 128), j = ix2 p q := ⟨j 0, j 1, eq_ix2 j⟩
  have hemb : ((cfg4.win 3).blk t).view.emb (ix2 p q) = ix2 (⟨t.val * 5000 + p.val, by omega⟩ : Fin 50000) q := by
    funext a; apply Fin.ext
    match a with
    | ⟨0, _⟩ => show win4_3.index t (0 : Fin 2) * 5000 + 1 * p.val = t.val * 5000 + p.val; rw [e6]; omega
    | ⟨1, _⟩ => show win4_3.index t (1 : Fin 2) * 128 + 1 * q.val = q.val; rw [e7]; omega
  show k4_pay1 (iblk4 V c 0 t) (iblk4 V c 1 t) (iblk4 V c 2 t) (ix2 p q)
    = scaledDense128 (F := Ideal) (V c (Pipeline.arrRef spec4 0)) (V c (Pipeline.arrRef spec4 1)) (V c (Pipeline.arrRef spec4 2))
        (((cfg4.win 3).blk t).view.emb (ix2 p q))
  rw [hemb]
  unfold k4_pay1  scaledDense128
  exact tileDenseCast_eq_wholeDense _ _ _ _ _ _ none _
    (iblk4 V c 0 t) (iblk4 V c 1 t) (iblk4 V c 2 t)
    (V c (Pipeline.arrRef spec4 0)) (V c (Pipeline.arrRef spec4 1)) (V c (Pipeline.arrRef spec4 2))
    p q ⟨t.val * 5000 + p.val, by omega⟩
    (fun k => xBlock4 V c t p k _ rfl) (nBlock4_1 V c t p _ rfl) (fun k => wBlock4_2 V c t k q)

/-- An index of the output array is in tile t's block iff its coordinates are in the block's ranges. -/
theorem memBlock4_3 (t : Fin cfg4.N) (i : S50000x128.Idx) :
    i ∈ ((cfg4.win 3).blk t).view.set ↔ ∀ a : Fin 2, win4_3.index t a * S5000x128.size a ≤ (i a).val
      ∧ (i a).val < win4_3.index t a * S5000x128.size a + S5000x128.size a := by
  show i ∈ ((View.whole main_v152).slice (win4_3.rect t)).set ↔ _
  rw [View.set_slice_whole, Rect.mem_set_unit]
  exact Iff.rfl

/-- Row r of the output lies in the block of tile r / 5000, which is written back. -/
theorem cover4_3 (i : S50000x128.Idx) :
    ∃ t : Fin cfg4.N, (cfg4.win 3).flush t = true ∧ i ∈ ((cfg4.win 3).blk t).view.set := by
  have hi0 : (i 0).val < 50000 := (i 0).isLt
  have hi1 : (i 1).val < 128 := (i 1).isLt
  obtain ⟨t, ht⟩ : ∃ t : Fin cfg4.N, t.val = (i 0).val / 5000 :=
    ⟨⟨(i 0).val / 5000, lt_of_lt_of_eq (by omega : (i 0).val / 5000 < 10) N_4.symm⟩, rfl⟩
  obtain ⟨-, -, -, -, -, -, e6, e7⟩ := blockIndex4 t
  refine ⟨t, flush4_3 t, ?_⟩
  rw [memBlock4_3]
  intro a
  match a with
  | ⟨0, _⟩ =>
    show win4_3.index t (0 : Fin 2) * 5000 ≤ (i 0).val ∧ (i 0).val < win4_3.index t (0 : Fin 2) * 5000 + 5000
    rw [e6, ht]; omega
  | ⟨1, _⟩ =>
    show win4_3.index t (1 : Fin 2) * 128 ≤ (i 1).val ∧ (i 1).val < win4_3.index t (1 : Fin 2) * 128 + 128
    rw [e7]; omega

/-- After region 4 the array of window 3 is the dense stage of the three arrays the region read through windows 0, 1
    and 2, for any contents the TensorCore's buffers held when the region was entered. -/
theorem region4_array (c : Dev nD) :
    (Cert.KernelIdeal.Gen.dat4 (F := Ideal) V c).arrAt 3 Cert.KernelIdeal.cfg4.N
      = Cert.Rgcn.scaledDense128 (F := Ideal) (V c (Pipeline.arrRef spec4 0)) (V c (Pipeline.arrRef spec4 1)) (V c (Pipeline.arrRef spec4 2)) :=
  (dat4 V c).arrAt_eq_of_cover 3 _ (fun t _ => flushed4_3 V c t) cover4_3

end Cert.Rgcn

end
-- ==== Proof.RegionArray5.lean ====
/-
  Region 5: after the row-tiled pass the whole output array is the dense stage of the arrays the pass read.

  The pass visits 25 row tiles of 2000 rows. At tile t it reads rows 2000·t … 2000·t + 1999 of the feature matrix and
  of the columns, and the whole weight matrices; what it leaves in each output tile is the tile form of the
  dense stage, which entry by entry is rows 2000·t … of the whole-array form. The tiles of the output cover its rows
  (row r lies in tile r / 2000), so the array ends holding the whole-array form, whatever it held before.
-/
import proofs.«125347_j26173530702075_2_alg».proof.Proof.ScaledDense
import proofs.«125347_j26173530702075_2_alg».proof.Proof.ScaledDenseAt
import proofs.«125347_j26173530702075_2_alg».proof.Proof.Gen.KernelIdeal.Frame
import Idealize.ShloMosaic.Lib.Pipeline.Value

noncomputable section

namespace Cert.Rgcn

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- A tile's accesses start at the origin of its buffer. -/
theorem origin5 : (![0, 0] : Fin 2 → Nat) = fun _ => 0 := funext fun a => by fin_cases a <;> rfl

/-- The block index of every window at tile t: the row windows sit at block row t, the weights at block 0. -/
theorem blockIndex5 : ∀ t : Fin cfg5.N,
    win5_0.index t (0 : Fin 2) = t.val
    ∧ win5_0.index t (1 : Fin 2) = 0
    ∧ win5_1.index t (0 : Fin 2) = t.val
    ∧ win5_1.index t (1 : Fin 2) = 0
    ∧ win5_2.index t (0 : Fin 2) = t.val
    ∧ win5_2.index t (1 : Fin 2) = 0
    ∧ win5_3.index t (0 : Fin 2) = 0
    ∧ win5_3.index t (1 : Fin 2) = 0
    ∧ win5_4.index t (0 : Fin 2) = 0
    ∧ win5_4.index t (1 : Fin 2) = 0
    ∧ win5_5.index t (0 : Fin 2) = t.val
    ∧ win5_5.index t (1 : Fin 2) = 0
    ∧ win5_6.index t (0 : Fin 2) = t.val
    ∧ win5_6.index t (1 : Fin 2) = 0 :=
  (by decide +kernel : ∀ t : Fin grid5.N, _)

/-- Row p of tile t of the feature matrix is row 2000·t + p of the matrix. -/
theorem xBlock5 (c : Dev nD) (t : Fin cfg5.N) (p : Fin 2000) (k : Fin 256) (r : Fin 50000) (hr : r.val = t.val * 2000 + p.val) :
    (iblk5 V c 0 t : FVec Ideal S2000x256 .f32) (ix2 p k)
      = (V c (Pipeline.arrRef spec5 0) : FVec Ideal S50000x256 .f32) (ix2 r k) := by
  obtain ⟨e0, e1, -, -, -, -, -, -, -, -, -, -, -, -⟩ := blockIndex5 t
  have h : ((cfg5.win 0).blk t).view.emb (ix2 p k) = ix2 r k := by
    funext a; apply Fin.ext
    match a with
    | ⟨0, _⟩ => show win5_0.index t (0 : Fin 2) * 2000 + 1 * p.val = r.val; rw [e0, hr]; omega
    | ⟨1, _⟩ => show win5_0.index t (1 : Fin 2) * 256 + 1 * k.val = k.val; rw [e1]; omega
  show V c (Pipeline.arrRef spec5 0) (((cfg5.win 0).blk t).view.emb (ix2 p k)) = _
  rw [h]

/-- Entry p of tile t of the column in window 1 is entry 2000·t + p of the column. -/
theorem nBlock5_1 (c : Dev nD) (t : Fin cfg5.N) (p : Fin 2000) (r : Fin 50000) (hr : r.val = t.val * 2000 + p.val) :
    (iblk5 V c 1 t : FVec Ideal S2000x1 .f32) (ix2 p (0 : Fin 1))
      = (V c (Pipeline.arrRef spec5 1) : FVec Ideal S50000x1 .f32) (ix2 r (0 : Fin 1)) := by
  obtain ⟨-, -, e2, e3, -, -, -, -, -, -, -, -, -, -⟩ := blockIndex5 t
  have h : ((cfg5.win 1).blk t).view.emb (ix2 p (0 : Fin 1)) = ix2 r (0 : Fin 1) := by
    funext a; apply Fin.ext
    match a with
    | ⟨0, _⟩ => show win5_1.index t (0 : Fin 2) * 2000 + 1 * p.val = r.val; rw [e2, hr]; omega
    | ⟨1, _⟩ => show win5_1.index t (1 : Fin 2) * 1 + 1 * 0 = 0; rw [e3]
  show V c (Pipeline.arrRef spec5 1) (((cfg5.win 1).blk t).view.emb (ix2 p (0 : Fin 1))) = _
  rw [h]

/-- Every tile reads the whole weight matrix of window 3. -/
theorem wBlock5_3 (c : Dev nD) (t : Fin cfg5.N) (k : Fin 256) (q : Fin 128) :
    (iblk5 V c 3 t : FVec Ideal S256x128 .f32) (ix2 k q)
      = (V c (Pipeline.arrRef spec5 3) : FVec Ideal S256x128 .f32) (ix2 k q) := by
  obtain ⟨-, -, -, -, -, -, e6, e7, -, -, -, -, -, -⟩ := blockIndex5 t
  have h : ((cfg5.win 3).blk t).view.emb (ix2 k q) = ix2 k q := by
    funext a; apply Fin.ext
    match a with
    | ⟨0, _⟩ => show win5_3.index t (0 : Fin 2) * 256 + 1 * k.val = k.val; rw [e6]; omega
    | ⟨1, _⟩ => show win5_3.index t (1 : Fin 2) * 128 + 1 * q.val = q.val; rw [e7]; omega
  show V c (Pipeline.arrRef spec5 3) (((cfg5.win 3).blk t).view.emb (ix2 k q)) = _
  rw [h]

/-- What tile t writes back through window 5 is block t of the dense stage of the arrays the region read. -/
theorem flushed5_5 (c : Dev nD) (t : Fin cfg5.N) :
    (dat5 V c).flushed 5 t = ((cfg5.win 5).blk t).view.read (Elt Ideal)
      (scaledDense128 (F := Ideal) (V c (Pipeline.arrRef spec5 0)) (V c (Pipeline.arrRef spec5 1)) (V c (Pipeline.arrRef spec5 3))) := by
  show (cfg5.win 5).cut (grid5.coords t) ((dat5 V c).after 5 t) = _
  rw [after5_5]
  unfold out5_5
  rw [View.canon_unit_zero origin5]
  simp only [View.ld_unit_zero (S := S2000x256) origin5, View.ld_unit_zero (S := S2000x1) origin5,
    View.ld_unit_zero (S := S256x128) origin5]
  have ht : t.val < 25 := lt_of_lt_of_eq t.isLt N_5
  obtain ⟨-, -, -, -, -, -, -, -, -, -, e10, e11, -, -⟩ := blockIndex5 t
  refine funext fun (j : S2000x128.Idx) => ?_
  obtain ⟨p, q, rfl⟩ : ∃ (p : Fin 2000) (q : Fin 128), j = ix2 p q := ⟨j 0, j 1, eq_ix2 j⟩
  have hemb : ((cfg5.win 5).blk t).view.emb (ix2 p q) = ix2 (⟨t.val * 2000 + p.val, by omega⟩ : Fin 50000) q := by
    funext a; apply Fin.ext
    match a with
    | ⟨0, _⟩ => show win5_5.index t (0 : Fin 2) * 2000 + 1 * p.val = t.val * 2000 + p.val; rw [e10]; omega
    | ⟨1, _⟩ => show win5_5.index t (1 : Fin 2) * 128 + 1 * q.val = q.val; rw [e11]; omega
  show k5_pay2 (iblk5 V c 0 t) (iblk5 V c 1 t) (iblk5 V c 3 t) (ix2 p q)
    = scaledDense128 (F := Ideal) (V c (Pipeline.arrRef spec5 0)) (V c (Pipeline.arrRef spec5 1)) (V c (Pipeline.arrRef spec5 3))
        (((cfg5.win 5).blk t).view.emb (ix2 p q))
  rw [hemb]
  unfold k5_pay2 k5_pay1 scaledDense128
  exact tileDenseCast_eq_wholeDense _ _ _ _ _ _ none _
    (iblk5 V c 0 t) (iblk5 V c 1 t) (iblk5 V c 3 t)
    (V c (Pipeline.arrRef spec5 0)) (V c (Pipeline.arrRef spec5 1)) (V c (Pipeline.arrRef spec5 3))
    p q ⟨t.val * 2000 + p.val, by omega⟩
    (fun k => xBlock5 V c t p k _ rfl) (nBlock5_1 V c t p _ rfl) (fun k => wBlock5_3 V c t k q)

/-- An index of the output array is in tile t's block iff its coordinates are in the block's ranges. -/
theorem memBlock5_5 (t : Fin cfg5.N) (i : S50000x128.Idx) :
    i ∈ ((cfg5.win 5).blk t).view.set ↔ ∀ a : Fin 2, win5_5.index t a * S2000x128.size a ≤ (i a).val
      ∧ (i a).val < win5_5.index t a * S2000x128.size a + S2000x128.size a := by
  show i ∈ ((View.whole main_v171_0).slice (win5_5.rect t)).set ↔ _
  rw [View.set_slice_whole, Rect.mem_set_unit]
  exact Iff.rfl

/-- Row r of the output lies in the block of tile r / 2000, which is written back. -/
theorem cover5_5 (i : S50000x128.Idx) :
    ∃ t : Fin cfg5.N, (cfg5.win 5).flush t = true ∧ i ∈ ((cfg5.win 5).blk t).view.set := by
  have hi0 : (i 0).val < 50000 := (i 0).isLt
  have hi1 : (i 1).val < 128 := (i 1).isLt
  obtain ⟨t, ht⟩ : ∃ t : Fin cfg5.N, t.val = (i 0).val / 2000 :=
    ⟨⟨(i 0).val / 2000, lt_of_lt_of_eq (by omega : (i 0).val / 2000 < 25) N_5.symm⟩, rfl⟩
  obtain ⟨-, -, -, -, -, -, -, -, -, -, e10, e11, -, -⟩ := blockIndex5 t
  refine ⟨t, flush5_5 t, ?_⟩
  rw [memBlock5_5]
  intro a
  match a with
  | ⟨0, _⟩ =>
    show win5_5.index t (0 : Fin 2) * 2000 ≤ (i 0).val ∧ (i 0).val < win5_5.index t (0 : Fin 2) * 2000 + 2000
    rw [e10, ht]; omega
  | ⟨1, _⟩ =>
    show win5_5.index t (1 : Fin 2) * 128 ≤ (i 1).val ∧ (i 1).val < win5_5.index t (1 : Fin 2) * 128 + 128
    rw [e11]; omega

/-- After region 5 the array of window 5 is the dense stage of the three arrays the region read through windows 0, 1
    and 3, for any contents the TensorCore's buffers held when the region was entered. -/
theorem region5_array5 (c : Dev nD) :
    (Cert.KernelIdeal.Gen.dat5 (F := Ideal) V c).arrAt 5 Cert.KernelIdeal.cfg5.N
      = Cert.Rgcn.scaledDense128 (F := Ideal) (V c (Pipeline.arrRef spec5 0)) (V c (Pipeline.arrRef spec5 1)) (V c (Pipeline.arrRef spec5 3)) :=
  (dat5 V c).arrAt_eq_of_cover 5 _ (fun t _ => flushed5_5 V c t) cover5_5

/-- Entry p of tile t of the column in window 2 is entry 2000·t + p of the column. -/
theorem nBlock5_2 (c : Dev nD) (t : Fin cfg5.N) (p : Fin 2000) (r : Fin 50000) (hr : r.val = t.val * 2000 + p.val) :
    (iblk5 V c 2 t : FVec Ideal S2000x1 .f32) (ix2 p (0 : Fin 1))
      = (V c (Pipeline.arrRef spec5 2) : FVec Ideal S50000x1 .f32) (ix2 r (0 : Fin 1)) := by
  obtain ⟨-, -, -, -, e4, e5, -, -, -, -, -, -, -, -⟩ := blockIndex5 t
  have h : ((cfg5.win 2).blk t).view.emb (ix2 p (0 : Fin 1)) = ix2 r (0 : Fin 1) := by
    funext a; apply Fin.ext
    match a with
    | ⟨0, _⟩ => show win5_2.index t (0 : Fin 2) * 2000 + 1 * p.val = r.val; rw [e4, hr]; omega
    | ⟨1, _⟩ => show win5_2.index t (1 : Fin 2) * 1 + 1 * 0 = 0; rw [e5]
  show V c (Pipeline.arrRef spec5 2) (((cfg5.win 2).blk t).view.emb (ix2 p (0 : Fin 1))) = _
  rw [h]

/-- Every tile reads the whole weight matrix of window 4. -/
theorem wBlock5_4 (c : Dev nD) (t : Fin cfg5.N) (k : Fin 256) (q : Fin 128) :
    (iblk5 V c 4 t : FVec Ideal S256x128 .f32) (ix2 k q)
      = (V c (Pipeline.arrRef spec5 4) : FVec Ideal S256x128 .f32) (ix2 k q) := by
  obtain ⟨-, -, -, -, -, -, -, -, e8, e9, -, -, -, -⟩ := blockIndex5 t
  have h : ((cfg5.win 4).blk t).view.emb (ix2 k q) = ix2 k q := by
    funext a; apply Fin.ext
    match a with
    | ⟨0, _⟩ => show win5_4.index t (0 : Fin 2) * 256 + 1 * k.val = k.val; rw [e8]; omega
    | ⟨1, _⟩ => show win5_4.index t (1 : Fin 2) * 128 + 1 * q.val = q.val; rw [e9]; omega
  show V c (Pipeline.arrRef spec5 4) (((cfg5.win 4).blk t).view.emb (ix2 k q)) = _
  rw [h]

/-- What tile t writes back through window 6 is block t of the dense stage of the arrays the region read. -/
theorem flushed5_6 (c : Dev nD) (t : Fin cfg5.N) :
    (dat5 V c).flushed 6 t = ((cfg5.win 6).blk t).view.read (Elt Ideal)
      (scaledDense128 (F := Ideal) (V c (Pipeline.arrRef spec5 0)) (V c (Pipeline.arrRef spec5 2)) (V c (Pipeline.arrRef spec5 4))) := by
  show (cfg5.win 6).cut (grid5.coords t) ((dat5 V c).after 6 t) = _
  rw [after5_6]
  unfold out5_6
  rw [View.canon_unit_zero origin5]
  simp only [View.ld_unit_zero (S := S2000x256) origin5, View.ld_unit_zero (S := S2000x1) origin5,
    View.ld_unit_zero (S := S256x128) origin5]
  have ht : t.val < 25 := lt_of_lt_of_eq t.isLt N_5
  obtain ⟨-, -, -, -, -, -, -, -, -, -, -, -, e12, e13⟩ := blockIndex5 t
  refine funext fun (j : S2000x128.Idx) => ?_
  obtain ⟨p, q, rfl⟩ : ∃ (p : Fin 2000) (q : Fin 128), j = ix2 p q := ⟨j 0, j 1, eq_ix2 j⟩
  have hemb : ((cfg5.win 6).blk t).view.emb (ix2 p q) = ix2 (⟨t.val * 2000 + p.val, by omega⟩ : Fin 50000) q := by
    funext a; apply Fin.ext
    match a with
    | ⟨0, _⟩ => show win5_6.index t (0 : Fin 2) * 2000 + 1 * p.val = t.val * 2000 + p.val; rw [e12]; omega
    | ⟨1, _⟩ => show win5_6.index t (1 : Fin 2) * 128 + 1 * q.val = q.val; rw [e13]; omega
  show k5_pay3 (iblk5 V c 0 t) (iblk5 V c 2 t) (iblk5 V c 4 t) (ix2 p q)
    = scaledDense128 (F := Ideal) (V c (Pipeline.arrRef spec5 0)) (V c (Pipeline.arrRef spec5 2)) (V c (Pipeline.arrRef spec5 4))
        (((cfg5.win 6).blk t).view.emb (ix2 p q))
  rw [hemb]
  unfold k5_pay3 k5_pay1 scaledDense128
  exact tileDenseCast_eq_wholeDense _ _ _ _ _ _ none _
    (iblk5 V c 0 t) (iblk5 V c 2 t) (iblk5 V c 4 t)
    (V c (Pipeline.arrRef spec5 0)) (V c (Pipeline.arrRef spec5 2)) (V c (Pipeline.arrRef spec5 4))
    p q ⟨t.val * 2000 + p.val, by omega⟩
    (fun k => xBlock5 V c t p k _ rfl) (nBlock5_2 V c t p _ rfl) (fun k => wBlock5_4 V c t k q)

/-- An index of the output array is in tile t's block iff its coordinates are in the block's ranges. -/
theorem memBlock5_6 (t : Fin cfg5.N) (i : S50000x128.Idx) :
    i ∈ ((cfg5.win 6).blk t).view.set ↔ ∀ a : Fin 2, win5_6.index t a * S2000x128.size a ≤ (i a).val
      ∧ (i a).val < win5_6.index t a * S2000x128.size a + S2000x128.size a := by
  show i ∈ ((View.whole main_v171_1).slice (win5_6.rect t)).set ↔ _
  rw [View.set_slice_whole, Rect.mem_set_unit]
  exact Iff.rfl

/-- Row r of the output lies in the block of tile r / 2000, which is written back. -/
theorem cover5_6 (i : S50000x128.Idx) :
    ∃ t : Fin cfg5.N, (cfg5.win 6).flush t = true ∧ i ∈ ((cfg5.win 6).blk t).view.set := by
  have hi0 : (i 0).val < 50000 := (i 0).isLt
  have hi1 : (i 1).val < 128 := (i 1).isLt
  obtain ⟨t, ht⟩ : ∃ t : Fin cfg5.N, t.val = (i 0).val / 2000 :=
    ⟨⟨(i 0).val / 2000, lt_of_lt_of_eq (by omega : (i 0).val / 2000 < 25) N_5.symm⟩, rfl⟩
  obtain ⟨-, -, -, -, -, -, -, -, -, -, -, -, e12, e13⟩ := blockIndex5 t
  refine ⟨t, flush5_6 t, ?_⟩
  rw [memBlock5_6]
  intro a
  match a with
  | ⟨0, _⟩ =>
    show win5_6.index t (0 : Fin 2) * 2000 ≤ (i 0).val ∧ (i 0).val < win5_6.index t (0 : Fin 2) * 2000 + 2000
    rw [e12, ht]; omega
  | ⟨1, _⟩ =>
    show win5_6.index t (1 : Fin 2) * 128 ≤ (i 1).val ∧ (i 1).val < win5_6.index t (1 : Fin 2) * 128 + 128
    rw [e13]; omega

/-- After region 5 the array of window 6 is the dense stage of the three arrays the region read through windows 0, 2
    and 4, for any contents the TensorCore's buffers held when the region was entered. -/
theorem region5_array6 (c : Dev nD) :
    (Cert.KernelIdeal.Gen.dat5 (F := Ideal) V c).arrAt 6 Cert.KernelIdeal.cfg5.N
      = Cert.Rgcn.scaledDense128 (F := Ideal) (V c (Pipeline.arrRef spec5 0)) (V c (Pipeline.arrRef spec5 2)) (V c (Pipeline.arrRef spec5 4)) :=
  (dat5 V c).arrAt_eq_of_cover 6 _ (fun t _ => flushed5_6 V c t) cover5_6

end Cert.Rgcn

end
-- ==== Proof.Claims.lean ====
/-
  The five claims of the certificate.

  The three frames: the two kernel programs' are the generated frame certificates; the reference has no kernel, and
  its frame is its run with the results dropped.  Nothing was rewritten by the idealisation, so the fourth claim is
  trivial.  The fifth: the idealised kernel program ends with its two result buffers at the last valuation of its
  fold (its run with every buffer named), the reference with its two at its composed terms, and from memories that
  agree on the arguments those are equal — the fold read as one line of pure operations, every launch standing as
  the scaled dense product its row blocks add up to.
-/
import proofs.«125347_j26173530702075_2_alg».proof.Defs
import proofs.«125347_j26173530702075_2_alg».proof.Proof.Gen.Pre_finite_inputs
import proofs.«125347_j26173530702075_2_alg».proof.Proof.Gen.Kernel
import proofs.«125347_j26173530702075_2_alg».proof.Proof.Gen.KernelIdeal
import proofs.«125347_j26173530702075_2_alg».proof.Proof.Gen.ReferenceIdeal
import proofs.«125347_j26173530702075_2_alg».proof.Proof.Gen.Kernel.Frame
import proofs.«125347_j26173530702075_2_alg».proof.Proof.Gen.KernelIdeal.Frame
import proofs.«125347_j26173530702075_2_alg».proof.Proof.KernelRun
import proofs.«125347_j26173530702075_2_alg».proof.Proof.Results
import proofs.«125347_j26173530702075_2_alg».proof.Proof.RegionArray0
import proofs.«125347_j26173530702075_2_alg».proof.Proof.RegionArray1
import proofs.«125347_j26173530702075_2_alg».proof.Proof.RegionArray2
import proofs.«125347_j26173530702075_2_alg».proof.Proof.RegionArray3
import proofs.«125347_j26173530702075_2_alg».proof.Proof.RegionArray4
import proofs.«125347_j26173530702075_2_alg».proof.Proof.RegionArray5

set_option maxRecDepth 16384

noncomputable section

namespace Cert.Proof.Claims

open Idealize.ShloMosaic Idealize.ShloMosaic.TcCoe Idealize.SL.Sem
open Cert.KernelIdeal

/-- The nine output arrays of the six launches, each the scaled dense product of the arrays its launch read. -/
theorem launchArrays : Cert.KernelIdeal.Fold.LaunchArrays :=
  ⟨Cert.Rgcn.region0_array, Cert.Rgcn.region1_array5, Cert.Rgcn.region1_array6, Cert.Rgcn.region2_array,
    Cert.Rgcn.region3_array5, Cert.Rgcn.region3_array6, Cert.Rgcn.region4_array, Cert.Rgcn.region5_array5,
    Cert.Rgcn.region5_array6⟩

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2.2) (Cert.ReferenceIdeal.ValueP.run (F := Ideal) m ρ)

theorem preserves : Cert.preserves_Kernel_KernelIdeal := trivial

theorem algebraic : Cert.algebraic_KernelIdeal_ReferenceIdeal := by
  intro m ρ m' ρ' _ hagree
  refine ⟨fun c => Gen.W19 m ρ c (Proc.devRef .tc main_v204), fun c => Gen.W19 m ρ c (Proc.devRef .tc main_v203), ?_, ?_⟩
  · -- the kernel program's run, its two results and its arguments read off the last valuation
    exact (θ_run Cert.KernelIdeal.defs _ _).mono (fun r h c =>
      ⟨h c _ (Gen.mem_uc main_v204 (by decide)), h c _ (Gen.mem_uc main_v203 (by decide)),
        (h c _ (Gen.mem_uc main_arg0 (by decide))).trans (Gen.W19_main_arg0 m ρ c),
        (h c _ (Gen.mem_uc main_arg1 (by decide))).trans (Gen.W19_main_arg1 m ρ c),
        (h c _ (Gen.mem_uc main_arg2 (by decide))).trans (Gen.W19_main_arg2 m ρ c),
        (h c _ (Gen.mem_uc main_arg3 (by decide))).trans (Gen.W19_main_arg3 m ρ c),
        (h c _ (Gen.mem_uc main_arg4 (by decide))).trans (Gen.W19_main_arg4 m ρ c),
        (h c _ (Gen.mem_uc main_arg5 (by decide))).trans (Gen.W19_main_arg5 m ρ c),
        (h c _ (Gen.mem_uc main_arg6 (by decide))).trans (Gen.W19_main_arg6 m ρ c),
        (h c _ (Gen.mem_uc main_arg7 (by decide))).trans (Gen.W19_main_arg7 m ρ c),
        (h c _ (Gen.mem_uc main_arg8 (by decide))).trans (Gen.W19_main_arg8 m ρ c),
        (h c _ (Gen.mem_uc main_arg9 (by decide))).trans (Gen.W19_main_arg9 m ρ c),
        (h c _ (Gen.mem_uc main_arg10 (by decide))).trans (Gen.W19_main_arg10 m ρ c),
        (h c _ (Gen.mem_uc main_arg11 (by decide))).trans (Gen.W19_main_arg11 m ρ c),
        (h c _ (Gen.mem_uc main_arg12 (by decide))).trans (Gen.W19_main_arg12 m ρ c),
        (h c _ (Gen.mem_uc main_arg13 (by decide))).trans (Gen.W19_main_arg13 m ρ c),
        (h c _ (Gen.mem_uc main_arg14 (by decide))).trans (Gen.W19_main_arg14 m ρ c),
        (h c _ (Gen.mem_uc main_arg15 (by decide))).trans (Gen.W19_main_arg15 m ρ c),
        (h c _ (Gen.mem_uc main_arg16 (by decide))).trans (Gen.W19_main_arg16 m ρ c),
        (h c _ (Gen.mem_uc main_arg17 (by decide))).trans (Gen.W19_main_arg17 m ρ c),
        (h c _ (Gen.mem_uc main_arg18 (by decide))).trans (Gen.W19_main_arg18 m ρ c),
        (h c _ (Gen.mem_uc main_arg19 (by decide))).trans (Gen.W19_main_arg19 m ρ c),
        (h c _ (Gen.mem_uc main_arg20 (by decide))).trans (Gen.W19_main_arg20 m ρ c),
        (h c _ (Gen.mem_uc main_arg21 (by decide))).trans (Gen.W19_main_arg21 m ρ c),
        (h c _ (Gen.mem_uc main_arg22 (by decide))).trans (Gen.W19_main_arg22 m ρ c),
        (h c _ (Gen.mem_uc main_arg23 (by decide))).trans (Gen.W19_main_arg23 m ρ c),
        (h c _ (Gen.mem_uc main_arg24 (by decide))).trans (Gen.W19_main_arg24 m ρ c),
        (h c _ (Gen.mem_uc main_arg25 (by decide))).trans (Gen.W19_main_arg25 m ρ c)⟩)
      (Cert.KernelIdeal.Run.run_all (F := Ideal) m ρ)
  · -- the reference's run, its two composed terms equal to the kernel program's two buffers
    exact (θ_run Cert.ReferenceIdeal.defs _ _).mono (fun _ h c =>
      ⟨(h c).1.trans (Cert.KernelIdeal.Fold.job_eq m ρ launchArrays m' c (hagree c)).symm,
        (h c).2.1.trans (Cert.KernelIdeal.Fold.resume_eq m ρ launchArrays m' c (hagree c)).symm,
        (h c).2.2⟩)
      (Cert.ReferenceIdeal.ValueP.run (F := Ideal) m' ρ')

end Cert.Proof.Claims

end
-- ==== Proof.lean ====
/- The proof of `Cert.Claim` for a three-layer relational graph convolution: a Pallas kernel program (six row-tiled
   "scale the rows, multiply by the weights" launches among host stretches that gather, add up, scale and rectify)
   against its plain reference.  The witnesses of the programs' stated side conditions are the generated instances;
   the five claims are proved in Proof/Claims.lean, over
     Proof/ScaledDense.lean          the scaled dense product as a whole-array function,
     Proof/ScaledDenseAt.lean        that function and a launch's row block of it, entry by entry, as one sum,
     Proof/RegionArray0 … 5.lean     each launch's output arrays are that function of the arrays it read,
     Proof/KernelRun.lean            the kernel program's run with every buffer named at the end,
     Proof/LaunchesAsOperations.lean each launch is one whole-array operation per output on the program's fold,
     Proof/FoldAsOneLine.lean        so the program is one line of pure operations,
     Proof/Results.lean              whose two results are the reference's composed terms,
     Proof/ReferenceRun.lean         the reference's run read back,
   and the general lemma files Proof/Lib*.lean (a contraction over one axis as a sum, on the host and in a kernel
   body; a vector viewed as a column and a column repeated along the lanes). -/
import proofs.«125347_j26173530702075_2_alg».proof.Defs
import proofs.«125347_j26173530702075_2_alg».proof.Proof.Gen.Kernel
import proofs.«125347_j26173530702075_2_alg».proof.Proof.Gen.KernelIdeal
import proofs.«125347_j26173530702075_2_alg».proof.Proof.Gen.ReferenceIdeal
import proofs.«125347_j26173530702075_2_alg».proof.Proof.Gen.Pre_finite_inputs
import proofs.«125347_j26173530702075_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_referenceIdeal, Claims.preserves, Claims.algebraic⟩

end Cert.Proof

end
